-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.truncf_extf.Statement Cert.KernelIdeal.S128x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128 : Shape := ⟨2, ![1024, 128]⟩
abbrev S1024x1024 : Shape := ⟨2, ![1024, 1024]⟩
abbrev S128x128 : Shape := ⟨2, ![128, 128]⟩
abbrev S128 : Shape := ⟨1, ![128]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg1 : IVec S1024x1024 32) (main_v33 : IVec S_ 1) : IVec S_ 1 :=
  let main_c_12 : IVec S_ 32 := constantI S_ 32 0#32
  let main_v34 : IVec S1024x1024 32 := broadcastInDim S1024x1024 ![] bcast_S_S1024x1024 main_c_12
  let main_v35 : IVec S1024x1024 1 := cmpi .eq main_arg1 main_v34
  let main_c_13 : IVec S_ 32 := constantI S_ 32 1#32
  let main_v36 : IVec S1024x1024 32 := broadcastInDim S1024x1024 ![] bcast_S_S1024x1024 main_c_13
  let main_v37 : IVec S1024x1024 1 := cmpi .eq main_arg1 main_v36
  let main_v38 : IVec S1024x1024 1 := ori main_v35 main_v37
  let main_c_14 : IVec S_ 1 := constantI S_ 1 1#1
  let main_v39 : IVec S_ 1 := (fun x v => Host.reduce IntOp.andi x v reducesTo_S1024x1024_S_d0_1 h_S_) main_v38 main_c_14
  let main_v40 : IVec S_ 1 := andi main_v33 main_v39
  main_v40

def fn_part1 {F : FTy → Type} [FloatOps F] (main_arg1 : IVec S1024x1024 32) (main_arg5 : FVec F S128 .f32) (main_arg6 : FVec F S128x128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_v33

def fn {F : FTy → Type} [FloatOps F] (main_arg0 : FVec F S1024x128 .f32) (main_arg1 : IVec S1024x1024 32) (main_arg2 : FVec F S128x128 .f32) (main_arg3 : FVec F S128 .f32) (main_arg4 : FVec F S128x128 .f32) (main_arg5 : FVec F S128 .f32) (main_arg6 : FVec F S128x128 .f32) (main_arg7 : FVec F S128 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_v13 main_v16
-- ==== Kernel.lean ====
abbrev S1024x128 : Shape := ⟨2, ![1024, 128]⟩
abbrev S1024x1024 : Shape := ⟨2, ![1024, 1024]⟩
abbrev S128x128 : Shape := ⟨2, ![128, 128]⟩
abbrev S128 : Shape := ⟨1, ![128]⟩
abbrev S128x1 : Shape := ⟨2, ![128, 1]⟩
abbrev S1x128 : Shape := ⟨2, ![1, 128]⟩
abbrev S1024 : Shape := ⟨1, ![1024]⟩
abbrev S1x1024 : Shape := ⟨2, ![1, 1024]⟩
abbrev S128x1024 : Shape := ⟨2, ![128, 1024]⟩
abbrev S256x1024 : Shape := ⟨2, ![256, 1024]⟩

abbrev nBuf : Space → Nat
  | .hbm => 12
  | .vmem => 9
  | .smem => 0
  | _ => 0

abbrev bufTy : (tb : Table) → Fin (tcTables nBuf tb) → BufTy
  | .hbm, ⟨0, _⟩ => ⟨S1024x128, .f32⟩
  | .hbm, ⟨1, _⟩ => ⟨S1024x1024, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x1, .f32⟩
  | .hbm, ⟨9, _⟩ => ⟨S128x1, .f32⟩
  | .hbm, ⟨10, _⟩ => ⟨S1x128, .f32⟩
  | .hbm, ⟨11, _⟩ => ⟨S1024x128, .f32⟩
  | .local _ .vmem, ⟨0, _⟩ => ⟨S1024x128, .f32⟩
  | .local _ .vmem, ⟨1, _⟩ => ⟨S1024x1024, .i32⟩
  | .local _ .vmem, ⟨2, _⟩ => ⟨S128x128, .f32⟩
  | .local _ .vmem, ⟨3, _⟩ => ⟨S128x1, .f32⟩
  | .local _ .vmem, ⟨4, _⟩ => ⟨S128x128, .f32⟩
  | .local _ .vmem, ⟨5, _⟩ => ⟨S128x1, .f32⟩
  | .local _ .vmem, ⟨6, _⟩ => ⟨S128x128, .f32⟩
  | .local _ .vmem, ⟨7, _⟩ => ⟨S1x128, .f32⟩
  | .local _ .vmem, ⟨8, _⟩ => ⟨S1024x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

class Facts₀ : Prop where
  shapeCasts_S128_S128x1 : S128.ShapeCasts S128x1
  shapeCasts_S128_S1x128 : S128.ShapeCasts S1x128
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  reduces_S1024x1024_S1024 : S1024x1024.Reduces [0] S1024
  shapeCasts_S1024_S1x1024 : S1024.ShapeCasts S1x1024
  inb_S128x128_S128x128_0_0 : ∀ a, (![0, 0] : Fin 2 → Nat) a + S128x128.size a ≤ S128x128.size a
  h_S128x128 : 0 < S128x128.numel
  inb_S1024x128_S1024x128_0_0 : ∀ a, (![0, 0] : Fin 2 → Nat) a + S1024x128.size a ≤ S1024x128.size a
  h_S1024x128 : 0 < S1024x128.numel
  broadcasts_S1x1024_S128x1024 : S1x1024.Broadcasts S128x1024
  concatenates_S128x1024_S128x1024_S256x1024_d0 : Shape.Concatenates [S128x1024, S128x1024] S256x1024 0
  slices_S256x1024_o0_0_S128x1024 : S256x1024.Slices ![0, 0] S128x1024
  slices_S256x1024_o128_0_S128x1024 : S256x1024.Slices ![128, 0] S128x1024
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x1024 : S128x1.Broadcasts S128x1024
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  dot_S128x128_S1024x128_S128x1024_0_1_1_0_n_n_wf : DotDims.WF S128x128 S1024x128 S128x1024 [0] [1] [1] [0] [] []
  dot_S256x1024_S1024x1024_S256x1024_1_0_0_1_n_n_wf : DotDims.WF S256x1024 S1024x1024 S256x1024 [1] [0] [0] [1] [] []
  dot_S128x128_S128x1024_S128x1024_0_0_1_1_n_n_wf : DotDims.WF S128x128 S128x1024 S128x1024 [0] [0] [1] [1] [] []
  dot_S128x1024_S128x128_S1024x128_0_0_1_1_n_n_wf : DotDims.WF S128x1024 S128x128 S1024x128 [0] [0] [1] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole
  hstage0_8 : ∀ j, (stage0_8 j).IsWhole

variable [Facts₀]

def dot_S128x128_S1024x128_S128x1024_0_1_1_0_n_n : DotDims S128x128 S1024x128 S128x1024 where
  lhsContracting := [0]
  rhsContracting := [1]
  lhsNonContracting := [1]
  rhsNonContracting := [0]
  lhsBatch := []
  rhsBatch := []
  wf := dot_S128x128_S1024x128_S128x1024_0_1_1_0_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S128x128_S128x1024_S128x1024_0_0_1_1_n_n : DotDims S128x128 S128x1024 S128x1024 where
  lhsContracting := [0]
  rhsContracting := [0]
  lhsNonContracting := [1]
  rhsNonContracting := [1]
  lhsBatch := []
  rhsBatch := []
  wf := dot_S128x128_S128x1024_S128x1024_0_0_1_1_n_n_wf
def dot_S128x1024_S128x128_S1024x128_0_0_1_1_n_n : DotDims S128x1024 S128x128 S1024x128 where
  lhsContracting := [0]
  rhsContracting := [0]
  lhsNonContracting := [1]
  rhsNonContracting := [1]
  lhsBatch := []
  rhsBatch := []
  wf := dot_S128x1024_S128x128_S1024x128_0_0_1_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_v0) false false (stage0_3 0) (sem0_3 0) (Memref.isWhole_whole _) (hstage0_3 0)

abbrev win0_4 : Pipeline.Window sig grid0 :=
  Pipeline.Window.whole (Memref.whole main_arg4) false false (stage0_4 0) (sem0_4 0) (Memref.isWhole_whole _) (hstage0_4 0)

abbrev win0_5 : Pipeline.Window sig grid0 :=
  Pipeline.Window.whole (Memref.whole main_v1) false false (stage0_5 0) (sem0_5 0) (Memref.isWhole_whole _) (hstage0_5 0)

abbrev win0_6 : Pipeline.Window sig grid0 :=
  Pipeline.Window.whole (Memref.whole main_arg6) false false (stage0_6 0) (sem0_6 0) (Memref.isWhole_whole _) (hstage0_6 0)

abbrev win0_7 : Pipeline.Window sig grid0 :=
  Pipeline.Window.whole (Memref.whole main_v2) false false (stage0_7 0) (sem0_7 0) (Memref.isWhole_whole _) (hstage0_7 0)

abbrev win0_8 : Pipeline.Window sig grid0 :=
  Pipeline.Window.whole (Memref.whole main_v3) true false (stage0_8 0) (sem0_8 0) (Memref.isWhole_whole _) (hstage0_8 0)

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S1024x128 : Shape := ⟨2, ![1024, 128]⟩
abbrev S1024x1024 : Shape := ⟨2, ![1024, 1024]⟩
abbrev S128x128 : Shape := ⟨2, ![128, 128]⟩
abbrev S128 : Shape := ⟨1, ![128]⟩
abbrev S_ : Shape := ⟨0, ![]⟩
abbrev S1048576 : Shape := ⟨1, ![1048576]⟩
abbrev S1048576x1 : Shape := ⟨2, ![1048576, 1]⟩
abbrev S1024 : Shape := ⟨1, ![1024]⟩
abbrev S1049600 : Shape := ⟨1, ![1049600]⟩
abbrev S1049600x1 : Shape := ⟨2, ![1049600, 1]⟩
abbrev S1049600x128 : Shape := ⟨2, ![1049600, 128]⟩
abbrev S1x128 : Shape := ⟨2, ![1, 128]⟩

abbrev nBuf : Space → Nat
  | .hbm => 213
  | .vmem => 0
  | .smem => 0
  | _ => 0

abbrev hbmTy0_0 (i : Nat) : BufTy := match i % 128 with
  | 0 => ⟨S1024x128, .f32⟩
  | 1 => ⟨S1024x1024, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S_, .i32⟩
  | 9 => ⟨S1024x1024, .i32⟩
  | 10 => ⟨S1024x1024, .i1⟩
  | 11 => ⟨S1048576, .i1⟩
  | 12 => ⟨S1048576, .i32⟩
  | 13 => ⟨S_, .i32⟩
  | 14 => ⟨S_, .i32⟩
  | 15 => ⟨S1048576, .i32⟩
  | 16 => ⟨S_, .i32⟩
  | 17 => ⟨S1048576, .i32⟩
  | 18 => ⟨S_, .i32⟩
  | 19 => ⟨S_, .i32⟩
  | 20 => ⟨S1048576, .i32⟩
  | 21 => ⟨S1048576, .i32⟩
  | 22 => ⟨S_, .i32⟩
  | 23 => ⟨S1048576, .i32⟩
  | 24 => ⟨S1048576, .i1⟩
  | 25 => ⟨S_, .i32⟩
  | 26 => ⟨S1048576, .i32⟩
  | 27 => ⟨S1048576, .i32⟩
  | 28 => ⟨S1048576, .i32⟩
  | 29 => ⟨S1048576x1, .i32⟩
  | 30 => ⟨S_, .i32⟩
  | 31 => ⟨S1048576, .i32⟩
  | 32 => ⟨S1048576, .i32⟩
  | 33 => ⟨S_, .i32⟩
  | 34 => ⟨S_, .i32⟩
  | 35 => ⟨S1048576, .i32⟩
  | 36 => ⟨S_, .i32⟩
  | 37 => ⟨S1048576, .i32⟩
  | 38 => ⟨S1048576, .i32⟩
  | 39 => ⟨S1048576, .i32⟩
  | 40 => ⟨S_, .i32⟩
  | 41 => ⟨S1048576, .i32⟩
  | 42 => ⟨S1048576, .i1⟩
  | 43 => ⟨S1048576, .i32⟩
  | 44 => ⟨S1048576, .i32⟩
  | 45 => ⟨S_, .i32⟩
  | 46 => ⟨S1048576, .i32⟩
  | 47 => ⟨S1048576, .i1⟩
  | 48 => ⟨S1048576, .i1⟩
  | 49 => ⟨S_, .i32⟩
  | 50 => ⟨S1048576, .i32⟩
  | 51 => ⟨S1048576, .i32⟩
  | 52 => ⟨S1048576, .i32⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S1048576, .i32⟩
  | 60 => ⟨S1048576, .i32⟩
  | 61 => ⟨S_, .i32⟩
  | 62 => ⟨S1048576, .i32⟩
  | 63 => ⟨S1048576, .i1⟩
  | 64 => ⟨S_, .i32⟩
  | 65 => ⟨S1048576, .i32⟩
  | 66 => ⟨S1048576, .i1⟩
  | 67 => ⟨S_, .i32⟩
  | 68 => ⟨S_, .i1⟩
  | 69 => ⟨S1048576, .i1⟩
  | 70 => ⟨S1048576, .i1⟩
  | 71 => ⟨S1048576, .i1⟩
  | 72 => ⟨S1048576, .i32⟩
  | 73 => ⟨S1048576, .i32⟩
  | 74 => ⟨S1048576, .i32⟩
  | 75 => ⟨S_, .i32⟩
  | 76 => ⟨S1048576, .i32⟩
  | 77 => ⟨S1048576, .i32⟩
  | 78 => ⟨S1048576, .i32⟩
  | 79 => ⟨S_, .i32⟩
  | 80 => ⟨S1048576, .i32⟩
  | 81 => ⟨S1048576, .i1⟩
  | 82 => ⟨S1048576, .i32⟩
  | 83 => ⟨S1048576, .i32⟩
  | 84 => ⟨S_, .i32⟩
  | 85 => ⟨S1048576, .i32⟩
  | 86 => ⟨S1048576, .i1⟩
  | 87 => ⟨S1048576, .i1⟩
  | 88 => ⟨S_, .i32⟩
  | 89 => ⟨S1048576, .i32⟩
  | 90 => ⟨S1048576, .i32⟩
  | 91 => ⟨S1048576, .i32⟩
  | 92 => ⟨S_, .i32⟩
  | 93 => ⟨S_, .i32⟩
  | 94 => ⟨S_, .i32⟩
  | 95 => ⟨S_, .i1⟩
  | 96 => ⟨S_, .i32⟩
  | 97 => ⟨S_, .i32⟩
  | 98 => ⟨S1048576, .i32⟩
  | 99 => ⟨S1048576, .i32⟩
  | 100 => ⟨S_, .i32⟩
  | 101 => ⟨S1048576, .i32⟩
  | 102 => ⟨S1048576, .i1⟩
  | 103 => ⟨S_, .i32⟩
  | 104 => ⟨S1048576, .i32⟩
  | 105 => ⟨S1048576, .i1⟩
  | 106 => ⟨S_, .i32⟩
  | 107 => ⟨S_, .i1⟩
  | 108 => ⟨S1048576, .i1⟩
  | 109 => ⟨S1048576, .i1⟩
  | 110 => ⟨S1048576, .i1⟩
  | 111 => ⟨S1048576, .i32⟩
  | 112 => ⟨S1048576, .i32⟩
  | 113 => ⟨S1048576, .i32⟩
  | 114 => ⟨S1048576, .i32⟩
  | 115 => ⟨S1024x1024, .i32⟩
  | 116 => ⟨S_, .i32⟩
  | 117 => ⟨S_, .i32⟩
  | 118 => ⟨S1048576, .i32⟩
  | 119 => ⟨S1048576, .i1⟩
  | 120 => ⟨S_, .i32⟩
  | 121 => ⟨S_, .i32⟩
  | 122 => ⟨S1048576, .i32⟩
  | 123 => ⟨S1048576, .i32⟩
  | 124 => ⟨S_, .i32⟩
  | 125 => ⟨S_, .i32⟩
  | 126 => ⟨S1048576, .i32⟩
  | 127 => ⟨S1048576, .i32⟩
  | _ => ⟨S1024x128, .f32⟩

abbrev hbmTy0_1 (i : Nat) : BufTy := match i % 128 with
  | 0 => ⟨S1048576, .i32⟩
  | 1 => ⟨S_, .i32⟩
  | 2 => ⟨S1024x1024, .i32⟩
  | 3 => ⟨S1024x1024, .i1⟩
  | 4 => ⟨S1024x1024, .i32⟩
  | 5 => ⟨S_, .i32⟩
  | 6 => ⟨S_, .i32⟩
  | 7 => ⟨S1048576, .i32⟩
  | 8 => ⟨S1048576, .i1⟩
  | 9 => ⟨S1024x128, .f32⟩
  | 10 => ⟨S1024, .i32⟩
  | 11 => ⟨S1049600, .i32⟩
  | 12 => ⟨S1049600, .i32⟩
  | 13 => ⟨S_, .i1⟩
  | 14 => ⟨S1024, .i1⟩
  | 15 => ⟨S1049600, .i1⟩
  | 16 => ⟨S1049600, .f32⟩
  | 17 => ⟨S_, .f32⟩
  | 18 => ⟨S1024, .f32⟩
  | 19 => ⟨S1049600x1, .i32⟩
  | 20 => ⟨S1024, .f32⟩
  | 21 => ⟨S_, .f32⟩
  | 22 => ⟨S1024, .f32⟩
  | 23 => ⟨S1024, .i1⟩
  | 24 => ⟨S1024, .f32⟩
  | 25 => ⟨S_, .f32⟩
  | 26 => ⟨S1024, .f32⟩
  | 27 => ⟨S1024, .f32⟩
  | 28 => ⟨S_, .f32⟩
  | 29 => ⟨S_, .f32⟩
  | 30 => ⟨S1024, .f32⟩
  | 31 => ⟨S1024, .f32⟩
  | 32 => ⟨S_, .i32⟩
  | 33 => ⟨S1049600, .i32⟩
  | 34 => ⟨S1049600, .i1⟩
  | 35 => ⟨S_, .i32⟩
  | 36 => ⟨S1049600, .i32⟩
  | 37 => ⟨S1049600, .i32⟩
  | 38 => ⟨S1049600, .i32⟩
  | 39 => ⟨S1049600x1, .i32⟩
  | 40 => ⟨S1049600, .f32⟩
  | 41 => ⟨S_, .i32⟩
  | 42 => ⟨S1049600, .i32⟩
  | 43 => ⟨S1049600, .i1⟩
  | 44 => ⟨S_, .i32⟩
  | 45 => ⟨S1049600, .i32⟩
  | 46 => ⟨S1049600, .i32⟩
  | 47 => ⟨S1049600, .i32⟩
  | 48 => ⟨S1049600x1, .i32⟩
  | 49 => ⟨S1049600, .f32⟩
  | 50 => ⟨S1049600, .f32⟩
  | 51 => ⟨S_, .i32⟩
  | 52 => ⟨S1049600, .i32⟩
  | 53 => ⟨S1049600, .i1⟩
  | 54 => ⟨S_, .i32⟩
  | 55 => ⟨S1049600, .i32⟩
  | 56 => ⟨S1049600, .i32⟩
  | 57 => ⟨S1049600, .i32⟩
  | 58 => ⟨S1049600x1, .i32⟩
  | 59 => ⟨S1049600x128, .f32⟩
  | 60 => ⟨S1049600, .f32⟩
  | 61 => ⟨S1049600x1, .f32⟩
  | 62 => ⟨S1049600x128, .f32⟩
  | 63 => ⟨S1049600x128, .f32⟩
  | 64 => ⟨S_, .f32⟩
  | 65 => ⟨S1024x128, .f32⟩
  | 66 => ⟨S1049600x1, .i32⟩
  | 67 => ⟨S1024x128, .f32⟩
  | 68 => ⟨S1x128, .f32⟩
  | 69 => ⟨S1024x128, .f32⟩
  | 70 => ⟨S1024x128, .f32⟩
  | 71 => ⟨S_, .f32⟩
  | 72 => ⟨S1024x128, .f32⟩
  | 73 => ⟨S1024x128, .f32⟩
  | 74 => ⟨S1024x128, .f32⟩
  | 75 => ⟨S1x128, .f32⟩
  | 76 => ⟨S1024x128, .f32⟩
  | 77 => ⟨S1024x128, .f32⟩
  | 78 => ⟨S_, .f32⟩
  | 79 => ⟨S1024x128, .f32⟩
  | 80 => ⟨S1024x128, .f32⟩
  | 81 => ⟨S1024x128, .f32⟩
  | 82 => ⟨S1x128, .f32⟩
  | 83 => ⟨S1024x128, .f32⟩
  | 84 => ⟨S1024x128, .f32⟩
  | _ => ⟨S1024x128, .f32⟩

abbrev hbmTy (i : Nat) : BufTy := match i / 128 with
  | 0 => hbmTy0_0 i
  | 1 => hbmTy0_1 i
  | _ => ⟨S1024x128, .f32⟩

abbrev bufTy : (tb : Table) → Fin (tcTables nBuf tb) → BufTy
  | .hbm, ⟨i, _⟩ => hbmTy i
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_call0_v0 : Ref sig .tc := ⟨.hbm, 11, rfl⟩
abbrev main_call0_v1 : Ref sig .tc := ⟨.hbm, 12, rfl⟩
abbrev main_call0_call0_c : Ref sig .tc := ⟨.hbm, 13, rfl⟩
abbrev main_call0_call0_v0 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_c_1 : Ref sig .tc := ⟨.hbm, 18, rfl⟩
abbrev main_call1_v0 : Ref sig .tc := ⟨.hbm, 19, rfl⟩
abbrev main_call1_v1 : Ref sig .tc := ⟨.hbm, 20, rfl⟩
abbrev main_v4 : Ref sig .tc := ⟨.hbm, 21, rfl⟩
abbrev main_c_2 : Ref sig .tc := ⟨.hbm, 22, rfl⟩
abbrev main_v5 : Ref sig .tc := ⟨.hbm, 23, rfl⟩
abbrev main_v6 : Ref sig .tc := ⟨.hbm, 24, rfl⟩
abbrev main_c_3 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c_4 : Ref sig .tc := ⟨.hbm, 30, rfl⟩
abbrev main_v11 : Ref sig .tc := ⟨.hbm, 31, rfl⟩
abbrev main_v12 : Ref sig .tc := ⟨.hbm, 32, rfl⟩
abbrev main_call2_call0_c : Ref sig .tc := ⟨.hbm, 33, rfl⟩
abbrev main_call2_call0_v0 : Ref sig .tc := ⟨.hbm, 34, rfl⟩
abbrev main_v13 : Ref sig .tc := ⟨.hbm, 35, rfl⟩
abbrev main_c_5 : Ref sig .tc := ⟨.hbm, 36, rfl⟩
abbrev main_call3_v0 : Ref sig .tc := ⟨.hbm, 37, rfl⟩
abbrev main_call3_v1 : Ref sig .tc := ⟨.hbm, 38, rfl⟩
abbrev main_call3_v2 : Ref sig .tc := ⟨.hbm, 39, rfl⟩
abbrev main_call3_v3 : Ref sig .tc := ⟨.hbm, 40, rfl⟩
abbrev main_call3_v4 : Ref sig .tc := ⟨.hbm, 41, rfl⟩
abbrev main_call3_v5 : Ref sig .tc := ⟨.hbm, 42, rfl⟩
abbrev main_call3_v6 : Ref sig .tc := ⟨.hbm, 43, rfl⟩
abbrev main_call3_v7 : Ref sig .tc := ⟨.hbm, 44, rfl⟩
abbrev main_call3_c : Ref sig .tc := ⟨.hbm, 45, rfl⟩
abbrev main_call3_v8 : Ref sig .tc := ⟨.hbm, 46, rfl⟩
abbrev main_call3_v9 : Ref sig .tc := ⟨.hbm, 47, rfl⟩
abbrev main_call3_v10 : Ref sig .tc := ⟨.hbm, 48, rfl⟩
abbrev main_call3_c_0 : Ref sig .tc := ⟨.hbm, 49, rfl⟩
abbrev main_call3_v11 : Ref sig .tc := ⟨.hbm, 50, rfl⟩
abbrev main_call3_v12 : Ref sig .tc := ⟨.hbm, 51, rfl⟩
abbrev main_v14 : Ref sig .tc := ⟨.hbm, 52, rfl⟩
abbrev main_c_6 : Ref sig .tc := ⟨.hbm, 53, rfl⟩
abbrev main_call4_v0 : Ref sig .tc := ⟨.hbm, 54, rfl⟩
abbrev main_call4_c : Ref sig .tc := ⟨.hbm, 55, rfl⟩
abbrev main_call4_v1 : Ref sig .tc := ⟨.hbm, 56, rfl⟩
abbrev main_call4_c_0 : Ref sig .tc := ⟨.hbm, 57, rfl⟩
abbrev main_call4_v2 : Ref sig .tc := ⟨.hbm, 58, rfl⟩
abbrev main_call4_v3 : Ref sig .tc := ⟨.hbm, 59, rfl⟩
abbrev main_call4_v4 : Ref sig .tc := ⟨.hbm, 60, rfl⟩
abbrev main_call4_c_1 : Ref sig .tc := ⟨.hbm, 61, rfl⟩
abbrev main_call4_v5 : Ref sig .tc := ⟨.hbm, 62, rfl⟩
abbrev main_call4_v6 : Ref sig .tc := ⟨.hbm, 63, rfl⟩
abbrev main_call4_c_2 : Ref sig .tc := ⟨.hbm, 64, rfl⟩
abbrev main_call4_v7 : Ref sig .tc := ⟨.hbm, 65, rfl⟩
abbrev main_call4_v8 : Ref sig .tc := ⟨.hbm, 66, rfl⟩
abbrev main_call4_c_3 : Ref sig .tc := ⟨.hbm, 67, rfl⟩
abbrev main_call4_v9 : Ref sig .tc := ⟨.hbm, 68, rfl⟩
abbrev main_call4_v10 : Ref sig .tc := ⟨.hbm, 69, rfl⟩
abbrev main_call4_v11 : Ref sig .tc := ⟨.hbm, 70, rfl⟩
abbrev main_call4_v12 : Ref sig .tc := ⟨.hbm, 71, rfl⟩
abbrev main_call4_v13 : Ref sig .tc := ⟨.hbm, 72, rfl⟩
abbrev main_call4_v14 : Ref sig .tc := ⟨.hbm, 73, rfl⟩
abbrev main_v15 : Ref sig .tc := ⟨.hbm, 74, rfl⟩
abbrev main_c_7 : Ref sig .tc := ⟨.hbm, 75, rfl⟩
abbrev main_call5_v0 : Ref sig .tc := ⟨.hbm, 76, rfl⟩
abbrev main_call5_v1 : Ref sig .tc := ⟨.hbm, 77, rfl⟩
abbrev main_call5_v2 : Ref sig .tc := ⟨.hbm, 78, rfl⟩
abbrev main_call5_v3 : Ref sig .tc := ⟨.hbm, 79, rfl⟩
abbrev main_call5_v4 : Ref sig .tc := ⟨.hbm, 80, rfl⟩
abbrev main_call5_v5 : Ref sig .tc := ⟨.hbm, 81, rfl⟩
abbrev main_call5_v6 : Ref sig .tc := ⟨.hbm, 82, rfl⟩
abbrev main_call5_v7 : Ref sig .tc := ⟨.hbm, 83, rfl⟩
abbrev main_call5_c : Ref sig .tc := ⟨.hbm, 84, rfl⟩
abbrev main_call5_v8 : Ref sig .tc := ⟨.hbm, 85, rfl⟩
abbrev main_call5_v9 : Ref sig .tc := ⟨.hbm, 86, rfl⟩
abbrev main_call5_v10 : Ref sig .tc := ⟨.hbm, 87, rfl⟩
abbrev main_call5_c_0 : Ref sig .tc := ⟨.hbm, 88, rfl⟩
abbrev main_call5_v11 : Ref sig .tc := ⟨.hbm, 89, rfl⟩
abbrev main_call5_v12 : Ref sig .tc := ⟨.hbm, 90, rfl⟩
abbrev main_v16 : Ref sig .tc := ⟨.hbm, 91, rfl⟩
abbrev main_c_8 : Ref sig .tc := ⟨.hbm, 92, rfl⟩
abbrev main_call6_v0 : Ref sig .tc := ⟨.hbm, 93, rfl⟩
abbrev main_call6_c : Ref sig .tc := ⟨.hbm, 94, rfl⟩
abbrev main_call6_v1 : Ref sig .tc := ⟨.hbm, 95, rfl⟩
abbrev main_call6_c_0 : Ref sig .tc := ⟨.hbm, 96, rfl⟩
abbrev main_call6_v2 : Ref sig .tc := ⟨.hbm, 97, rfl⟩
abbrev main_call6_v3 : Ref sig .tc := ⟨.hbm, 98, rfl⟩
abbrev main_call6_v4 : Ref sig .tc := ⟨.hbm, 99, rfl⟩
abbrev main_call6_c_1 : Ref sig .tc := ⟨.hbm, 100, rfl⟩
abbrev main_call6_v5 : Ref sig .tc := ⟨.hbm, 101, rfl⟩
abbrev main_call6_v6 : Ref sig .tc := ⟨.hbm, 102, rfl⟩
abbrev main_call6_c_2 : Ref sig .tc := ⟨.hbm, 103, rfl⟩
abbrev main_call6_v7 : Ref sig .tc := ⟨.hbm, 104, rfl⟩
abbrev main_call6_v8 : Ref sig .tc := ⟨.hbm, 105, rfl⟩
abbrev main_call6_c_3 : Ref sig .tc := ⟨.hbm, 106, rfl⟩
abbrev main_call6_v9 : Ref sig .tc := ⟨.hbm, 107, rfl⟩
abbrev main_call6_v10 : Ref sig .tc := ⟨.hbm, 108, rfl⟩
abbrev main_call6_v11 : Ref sig .tc := ⟨.hbm, 109, rfl⟩
abbrev main_call6_v12 : Ref sig .tc := ⟨.hbm, 110, rfl⟩
abbrev main_call6_v13 : Ref sig .tc := ⟨.hbm, 111, rfl⟩
abbrev main_call6_v14 : Ref sig .tc := ⟨.hbm, 112, rfl⟩
abbrev main_v17 : Ref sig .tc := ⟨.hbm, 113, rfl⟩
abbrev main_v18 : Ref sig .tc := ⟨.hbm, 114, rfl⟩
abbrev main_v19 : Ref sig .tc := ⟨.hbm, 115, rfl⟩
abbrev main_c_9 : Ref sig .tc := ⟨.hbm, 116, rfl⟩
abbrev main_v20 : Ref sig .tc := ⟨.hbm, 117, rfl⟩
abbrev main_v21 : Ref sig .tc := ⟨.hbm, 118, rfl⟩
abbrev main_v22 : Ref sig .tc := ⟨.hbm, 119, rfl⟩
abbrev main_c_10 : Ref sig .tc := ⟨.hbm, 120, rfl⟩
abbrev main_call7_v0 : Ref sig .tc := ⟨.hbm, 121, rfl⟩
abbrev main_call7_v1 : Ref sig .tc := ⟨.hbm, 122, rfl⟩
abbrev main_v23 : Ref sig .tc := ⟨.hbm, 123, rfl⟩
abbrev main_c_11 : Ref sig .tc := ⟨.hbm, 124, rfl⟩
abbrev main_call8_v0 : Ref sig .tc := ⟨.hbm, 125, rfl⟩
abbrev main_call8_v1 : Ref sig .tc := ⟨.hbm, 126, rfl⟩
abbrev main_v24 : Ref sig .tc := ⟨.hbm, 127, rfl⟩
abbrev main_v25 : Ref sig .tc := ⟨.hbm, 128, rfl⟩
abbrev main_call9_c : Ref sig .tc := ⟨.hbm, 129, rfl⟩
abbrev main_call9_v0 : Ref sig .tc := ⟨.hbm, 130, rfl⟩
abbrev main_call9_v1 : Ref sig .tc := ⟨.hbm, 131, rfl⟩
abbrev main_call9_v2 : Ref sig .tc := ⟨.hbm, 132, rfl⟩
abbrev main_call9_c_0 : Ref sig .tc := ⟨.hbm, 133, rfl⟩
abbrev main_v26 : Ref sig .tc := ⟨.hbm, 134, rfl⟩
abbrev main_v27 : Ref sig .tc := ⟨.hbm, 135, rfl⟩
abbrev main_v28 : Ref sig .tc := ⟨.hbm, 136, rfl⟩
abbrev main_v29 : Ref sig .tc := ⟨.hbm, 137, rfl⟩
abbrev main_v30 : Ref sig .tc := ⟨.hbm, 138, rfl⟩
abbrev main_v31 : Ref sig .tc := ⟨.hbm, 139, rfl⟩
abbrev main_v32 : Ref sig .tc := ⟨.hbm, 140, rfl⟩
abbrev main_c_12 : Ref sig .tc := ⟨.hbm, 141, rfl⟩
abbrev main_v33 : Ref sig .tc := ⟨.hbm, 142, rfl⟩
abbrev main_v34 : Ref sig .tc := ⟨.hbm, 143, rfl⟩
abbrev main_v35 : Ref sig .tc := ⟨.hbm, 144, rfl⟩
abbrev main_cst : Ref sig .tc := ⟨.hbm, 145, rfl⟩
abbrev main_v36 : Ref sig .tc := ⟨.hbm, 146, rfl⟩
abbrev main_v37 : Ref sig .tc := ⟨.hbm, 147, rfl⟩
abbrev main_v38 : Ref sig .tc := ⟨.hbm, 148, rfl⟩
abbrev main_cst_13 : Ref sig .tc := ⟨.hbm, 149, rfl⟩
abbrev main_v39 : Ref sig .tc := ⟨.hbm, 150, rfl⟩
abbrev main_v40 : Ref sig .tc := ⟨.hbm, 151, rfl⟩
abbrev main_v41 : Ref sig .tc := ⟨.hbm, 152, rfl⟩
abbrev main_cst_14 : Ref sig .tc := ⟨.hbm, 153, rfl⟩
abbrev main_v42 : Ref sig .tc := ⟨.hbm, 154, rfl⟩
abbrev main_v43 : Ref sig .tc := ⟨.hbm, 155, rfl⟩
abbrev main_cst_15 : Ref sig .tc := ⟨.hbm, 156, rfl⟩
abbrev main_call10_v0 : Ref sig .tc := ⟨.hbm, 157, rfl⟩
abbrev main_call10_v1 : Ref sig .tc := ⟨.hbm, 158, rfl⟩
abbrev main_v44 : Ref sig .tc := ⟨.hbm, 159, rfl⟩
abbrev main_c_16 : Ref sig .tc := ⟨.hbm, 160, rfl⟩
abbrev main_v45 : Ref sig .tc := ⟨.hbm, 161, rfl⟩
abbrev main_v46 : Ref sig .tc := ⟨.hbm, 162, rfl⟩
abbrev main_c_17 : Ref sig .tc := ⟨.hbm, 163, rfl⟩
abbrev main_v47 : Ref sig .tc := ⟨.hbm, 164, rfl⟩
abbrev main_v48 : Ref sig .tc := ⟨.hbm, 165, rfl⟩
abbrev main_v49 : Ref sig .tc := ⟨.hbm, 166, rfl⟩
abbrev main_v50 : Ref sig .tc := ⟨.hbm, 167, rfl⟩
abbrev main_v51 : Ref sig .tc := ⟨.hbm, 168, rfl⟩
abbrev main_c_18 : Ref sig .tc := ⟨.hbm, 169, rfl⟩
abbrev main_v52 : Ref sig .tc := ⟨.hbm, 170, rfl⟩
abbrev main_v53 : Ref sig .tc := ⟨.hbm, 171, rfl⟩
abbrev main_c_19 : Ref sig .tc := ⟨.hbm, 172, rfl⟩
abbrev main_v54 : Ref sig .tc := ⟨.hbm, 173, rfl⟩
abbrev main_v55 : Ref sig .tc := ⟨.hbm, 174, rfl⟩
abbrev main_v56 : Ref sig .tc := ⟨.hbm, 175, rfl⟩
abbrev main_v57 : Ref sig .tc := ⟨.hbm, 176, rfl⟩
abbrev main_v58 : Ref sig .tc := ⟨.hbm, 177, rfl⟩
abbrev main_v59 : Ref sig .tc := ⟨.hbm, 178, rfl⟩
abbrev main_c_20 : Ref sig .tc := ⟨.hbm, 179, rfl⟩
abbrev main_v60 : Ref sig .tc := ⟨.hbm, 180, rfl⟩
abbrev main_v61 : Ref sig .tc := ⟨.hbm, 181, rfl⟩
abbrev main_c_21 : Ref sig .tc := ⟨.hbm, 182, rfl⟩
abbrev main_v62 : Ref sig .tc := ⟨.hbm, 183, rfl⟩
abbrev main_v63 : Ref sig .tc := ⟨.hbm, 184, rfl⟩
abbrev main_v64 : Ref sig .tc := ⟨.hbm, 185, rfl⟩
abbrev main_v65 : Ref sig .tc := ⟨.hbm, 186, rfl⟩
abbrev main_v66 : Ref sig .tc := ⟨.hbm, 187, rfl⟩
abbrev main_v67 : Ref sig .tc := ⟨.hbm, 188, rfl⟩
abbrev main_v68 : Ref sig .tc := ⟨.hbm, 189, rfl⟩
abbrev main_v69 : Ref sig .tc := ⟨.hbm, 190, rfl⟩
abbrev main_v70 : Ref sig .tc := ⟨.hbm, 191, rfl⟩
abbrev main_cst_22 : Ref sig .tc := ⟨.hbm, 192, rfl⟩
abbrev main_v71 : Ref sig .tc := ⟨.hbm, 193, rfl⟩
abbrev main_v72 : Ref sig .tc := ⟨.hbm, 194, rfl⟩
abbrev main_v73 : Ref sig .tc := ⟨.hbm, 195, rfl⟩
abbrev main_v74 : Ref sig .tc := ⟨.hbm, 196, rfl⟩
abbrev main_v75 : Ref sig .tc := ⟨.hbm, 197, rfl⟩
abbrev main_v76 : Ref sig .tc := ⟨.hbm, 198, rfl⟩
abbrev main_call11_cst : Ref sig .tc := ⟨.hbm, 199, rfl⟩
abbrev main_call11_v0 : Ref sig .tc := ⟨.hbm, 200, rfl⟩
abbrev main_v77 : Ref sig .tc := ⟨.hbm, 201, rfl⟩
abbrev main_v78 : Ref sig .tc := ⟨.hbm, 202, rfl⟩
abbrev main_v79 : Ref sig .tc := ⟨.hbm, 203, rfl⟩
abbrev main_v80 : Ref sig .tc := ⟨.hbm, 204, rfl⟩
abbrev main_v81 : Ref sig .tc := ⟨.hbm, 205, rfl⟩
abbrev main_call12_cst : Ref sig .tc := ⟨.hbm, 206, rfl⟩
abbrev main_call12_v0 : Ref sig .tc := ⟨.hbm, 207, rfl⟩
abbrev main_v82 : Ref sig .tc := ⟨.hbm, 208, rfl⟩
abbrev main_v83 : Ref sig .tc := ⟨.hbm, 209, rfl⟩
abbrev main_v84 : Ref sig .tc := ⟨.hbm, 210, rfl⟩
abbrev main_v85 : Ref sig .tc := ⟨.hbm, 211, rfl⟩
abbrev main_v86 : Ref sig .tc := ⟨.hbm, 212, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  shapeCasts_S1024x1024_S1048576 : S1024x1024.ShapeCasts S1048576
  natLt_1_32 : 1 < 32
  bcast_S_S_ : S_.BroadcastsInDim S_ (![] : Fin 0 → Fin S_.rank)
  reduceWindows_S1048576_S1048576_w1048576s1p1048575_0 : S1048576.ReduceWindows (![1048576] : Fin 1 → Nat) ![1] ![1048575] ![0] S1048576
  h_S_ : 0 < S_.numel
  bcast_S_S1048576 : S_.BroadcastsInDim S1048576 (![] : Fin 0 → Fin S1048576.rank)
  bcast_S1048576_S1048576x1_0 : S1048576.BroadcastsInDim S1048576x1 (![0] : Fin 1 → Fin S1048576x1.rank)
  reducesTo_S1024x1024_S_d0_1 : S1024x1024.ReducesTo [0, 1] S_
  concatenates_S1048576_S1024_S1049600_d0 : Shape.Concatenates [S1048576, S1024] S1049600 0
  bcast_S_S1024 : S_.BroadcastsInDim S1024 (![] : Fin 0 → Fin S1024.rank)
  bcast_S1049600_S1049600x1_0 : S1049600.BroadcastsInDim S1049600x1 (![0] : Fin 1 → Fin S1049600x1.rank)
  bcast_S_S1049600 : S_.BroadcastsInDim S1049600 (![] : Fin 0 → Fin S1049600.rank)
  bcast_S1049600x1_S1049600x128_0_1 : S1049600x1.BroadcastsInDim S1049600x128 (![0, 1] : Fin 2 → Fin S1049600x128.rank)
  bcast_S_S1024x128 : S_.BroadcastsInDim S1024x128 (![] : Fin 0 → Fin S1024x128.rank)
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  scatter_S1048576_S1048576x1_S1048576_n_0_0_1_wf : ScatterDims.WF S1048576 S1048576x1 S1048576 [] [0] [0] 1
  dot_S1024x128_S128x128_S1024x128_1_0_0_1_n_n_wf : DotDims.WF S1024x128 S128x128 S1024x128 [1] [0] [0] [1] [] []
  scatter_S1024_S1049600x1_S1049600_n_0_0_1_wf : ScatterDims.WF S1024 S1049600x1 S1049600 [] [0] [0] 1
  gather_S1024_S1049600x1_S1049600_n_0_n_n_0_1_1_wf : GatherDims.WF S1024 S1049600x1 S1049600 [] [0] [] [0] [] 1 ![1]
  gather_S1024x128_S1049600x1_S1049600x128_1_0_n_n_0_1_1128_wf : GatherDims.WF S1024x128 S1049600x1 S1049600x128 [1] [0] [] [0] [] 1 ![1, 128]
  scatter_S1024x128_S1049600x1_S1049600x128_1_0_0_1_wf : ScatterDims.WF S1024x128 S1049600x1 S1049600x128 [1] [0] [0] 1

variable [Facts₀]

def scatter_S1048576_S1048576x1_S1048576_n_0_0_1 : ScatterDims S1048576 S1048576x1 S1048576 where
  updateWindowDims := []
  insertedWindowDims := [0]
  scatterDimsToOperandDims := [0]
  indexVectorDim := 1
  wf := scatter_S1048576_S1048576x1_S1048576_n_0_0_1_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def scatter_S1024_S1049600x1_S1049600_n_0_0_1 : ScatterDims S1024 S1049600x1 S1049600 where
  updateWindowDims := []
  insertedWindowDims := [0]
  scatterDimsToOperandDims := [0]
  indexVectorDim := 1
  wf := scatter_S1024_S1049600x1_S1049600_n_0_0_1_wf
def gather_S1024_S1049600x1_S1049600_n_0_n_n_0_1_1 : GatherDims S1024 S1049600x1 S1049600 where
  offsetDims := []
  collapsedSliceDims := [0]
  operandBatchingDims := []
  startIndicesBatchingDims := []
  startIndexMap := [0]
  indexVectorDim := 1
  sliceSizes := ![1]
  wf := gather_S1024_S1049600x1_S1049600_n_0_n_n_0_1_1_wf
def gather_S1024x128_S1049600x1_S1049600x128_1_0_n_n_0_1_1128 : GatherDims S1024x128 S1049600x1 S1049600x128 where
  offsetDims := [1]
  collapsedSliceDims := [0]
  operandBatchingDims := []
  startIndicesBatchingDims := []
  startIndexMap := [0]
  indexVectorDim := 1
  sliceSizes := ![1, 128]
  wf := gather_S1024x128_S1049600x1_S1049600x128_1_0_n_n_0_1_1128_wf
def scatter_S1024x128_S1049600x1_S1049600x128_1_0_0_1 : ScatterDims S1024x128 S1049600x1 S1049600x128 where
  updateWindowDims := [1]
  insertedWindowDims := [0]
  scatterDimsToOperandDims := [0]
  indexVectorDim := 1
  wf := scatter_S1024x128_S1049600x1_S1049600x128_1_0_0_1_wf

class Facts : Prop extends Facts₀ where

variable [Facts]
-- ==== Proof.KernelArray.lean ====
/-
  The kernel's output array as ONE function of the argument arrays.

  The kernel has a single grid point and every operand is staged whole, so the block a window holds at that point
  is its whole array, and what the point writes back is the body's result on the whole arrays: the product
  `convWᵀ·dataᵀ` scaled by the inverse square roots of the column degrees, aggregated through the adjacency matrix,
  then two affine layers with clamps at zero, stored transposed back. The three bias vectors reach the kernel as a
  column, a column and a row: reshapes of the one-axis arguments made before the launch.
-/
import proofs.«180595_g20298015441659_fold_wed_m_942_9_alg».proof.Proof.Gen.KernelIdeal.Value
import Idealize.ShloMosaic.Lib.Pipeline.Value
import Idealize.ShloMosaic.Lib.ValueIdx
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem origin : (![0, 0] : Fin 2 → Nat) = fun _ => 0 := funext fun a => by fin_cases a <;> rfl

/-- The body's result as a function of its eight whole operands, in operand order: node features, adjacency words,
    the convolution weight, its bias as a column, the first dense weight, its bias as a column, the second dense
    weight, its bias as a row. -/
def body (x0 : Vec F S1024x128 .f32) (x1 : Vec F S1024x1024 .i32) (x2 : Vec F S128x128 .f32) (x3 : Vec F S128x1 .f32) (x4 : Vec F S128x128 .f32) (x5 : Vec F S128x1 .f32) (x6 : Vec F S128x128 .f32) (x7 : Vec F S1x128 .f32) : Vec F S1024x128 .f32 :=
  k0_pay1 (k0_pay2 x1 x2 x0 x3 x4 x5) x6 x7

/-- The one store covers the output buffer from the origin, and every load reads a whole buffer from the origin:
    what the body leaves in the output buffer is `body` of the buffers' contents. -/
theorem out_eq (x0 : Vec F S1024x128 .f32) (x1 : Vec F S1024x1024 .i32) (x2 : Vec F S128x128 .f32) (x3 : Vec F S128x1 .f32) (x4 : Vec F S128x128 .f32) (x5 : Vec F S128x1 .f32) (x6 : Vec F S128x128 .f32) (x7 : Vec F S1x128 .f32) :
    out0_8 x0 x1 x2 x3 x4 x5 x6 x7 = body x0 x1 x2 x3 x4 x5 x6 x7 := by
  unfold out0_8
  rw [View.canon_unit_zero origin]
  simp only [View.ld_unit_zero (S := S1024x1024) origin, View.ld_unit_zero (S := S128x128) origin, View.ld_unit_zero (S := S1024x128) origin, View.ld_unit_zero (S := S128x1) origin, View.ld_unit_zero (S := S1x128) origin]
  rfl

/-- Window 0 is the whole array, so its block at the one grid point is the array itself. -/
theorem block0 (c : Dev nD) (t : Fin cfg0.N) : (iblk m c 0 t : S1024x128.Idx → Elt F .f32) = V m c main_arg0 := by
  funext y
  show V m c main_arg0 (((cfg0.win 0).blk t).view.emb y) = V m c main_arg0 y
  congr 1
  funext a; apply Fin.ext
  match a with
  | ⟨0, _⟩ => show win0_0.index t (0 : Fin 2) * 1024 + 1 * (y 0).val = (y 0).val; show 0 * 1024 + 1 * (y 0).val = (y 0).val; omega
  | ⟨1, _⟩ => show win0_0.index t (1 : Fin 2) * 128 + 1 * (y 1).val = (y 1).val; show 0 * 128 + 1 * (y 1).val = (y 1).val; omega

/-- Window 1 is the whole array, so its block at the one grid point is the array itself. -/
theorem block1 (c : Dev nD) (t : Fin cfg0.N) : (iblk m c 1 t : S1024x1024.Idx → Elt F .i32) = V m c main_arg1 := by
  funext y
  show V m c main_arg1 (((cfg0.win 1).blk t).view.emb y) = V m c main_arg1 y
  congr 1
  funext a; apply Fin.ext
  match a with
  | ⟨0, _⟩ => show win0_1.index t (0 : Fin 2) * 1024 + 1 * (y 0).val = (y 0).val; show 0 * 1024 + 1 * (y 0).val = (y 0).val; omega
  | ⟨1, _⟩ => show win0_1.index t (1 : Fin 2) * 1024 + 1 * (y 1).val = (y 1).val; show 0 * 1024 + 1 * (y 1).val = (y 1).val; omega

/-- Window 2 is the whole array, so its block at the one grid point is the array itself. -/
theorem block2 (c : Dev nD) (t : Fin cfg0.N) : (iblk m c 2 t : S128x128.Idx → Elt F .f32) = V m c main_arg2 := by
  funext y
  show V m c main_arg2 (((cfg0.win 2).blk t).view.emb y) = V m c main_arg2 y
  congr 1
  funext a; apply Fin.ext
  match a with
  | ⟨0, _⟩ => show win0_2.index t (0 : Fin 2) * 128 + 1 * (y 0).val = (y 0).val; show 0 * 128 + 1 * (y 0).val = (y 0).val; omega
  | ⟨1, _⟩ => show win0_2.index t (1 : Fin 2) * 128 + 1 * (y 1).val = (y 1).val; show 0 * 128 + 1 * (y 1).val = (y 1).val; omega

/-- Window 3 is the whole array, so its block at the one grid point is the array itself. -/
theorem block3 (c : Dev nD) (t : Fin cfg0.N) : (iblk m c 3 t : S128x1.Idx → Elt F .f32) = V m c main_v0 := by
  funext y
  show V m c main_v0 (((cfg0.win 3).blk t).view.emb y) = V m c main_v0 y
  congr 1
  funext a; apply Fin.ext
  match a with
  | ⟨0, _⟩ => show win0_3.index t (0 : Fin 2) * 128 + 1 * (y 0).val = (y 0).val; show 0 * 128 + 1 * (y 0).val = (y 0).val; omega
  | ⟨1, _⟩ => show win0_3.index t (1 : Fin 2) * 1 + 1 * (y 1).val = (y 1).val; show 0 * 1 + 1 * (y 1).val = (y 1).val; omega

/-- Window 4 is the whole array, so its block at the one grid point is the array itself. -/
theorem block4 (c : Dev nD) (t : Fin cfg0.N) : (iblk m c 4 t : S128x128.Idx → Elt F .f32) = V m c main_arg4 := by
  funext y
  show V m c main_arg4 (((cfg0.win 4).blk t).view.emb y) = V m c main_arg4 y
  congr 1
  funext a; apply Fin.ext
  match a with
  | ⟨0, _⟩ => show win0_4.index t (0 : Fin 2) * 128 + 1 * (y 0).val = (y 0).val; show 0 * 128 + 1 * (y 0).val = (y 0).val; omega
  | ⟨1, _⟩ => show win0_4.index t (1 : Fin 2) * 128 + 1 * (y 1).val = (y 1).val; show 0 * 128 + 1 * (y 1).val = (y 1).val; omega

/-- Window 5 is the whole array, so its block at the one grid point is the array itself. -/
theorem block5 (c : Dev nD) (t : Fin cfg0.N) : (iblk m c 5 t : S128x1.Idx → Elt F .f32) = V m c main_v1 := by
  funext y
  show V m c main_v1 (((cfg0.win 5).blk t).view.emb y) = V m c main_v1 y
  congr 1
  funext a; apply Fin.ext
  match a with
  | ⟨0, _⟩ => show win0_5.index t (0 : Fin 2) * 128 + 1 * (y 0).val = (y 0).val; show 0 * 128 + 1 * (y 0).val = (y 0).val; omega
  | ⟨1, _⟩ => show win0_5.index t (1 : Fin 2) * 1 + 1 * (y 1).val = (y 1).val; show 0 * 1 + 1 * (y 1).val = (y 1).val; omega

/-- Window 6 is the whole array, so its block at the one grid point is the array itself. -/
theorem block6 (c : Dev nD) (t : Fin cfg0.N) : (iblk m c 6 t : S128x128.Idx → Elt F .f32) = V m c main_arg6 := by
  funext y
  show V m c main_arg6 (((cfg0.win 6).blk t).view.emb y) = V m c main_arg6 y
  congr 1
  funext a; apply Fin.ext
  match a with
  | ⟨0, _⟩ => show win0_6.index t (0 : Fin 2) * 128 + 1 * (y 0).val = (y 0).val; show 0 * 128 + 1 * (y 0).val = (y 0).val; omega
  | ⟨1, _⟩ => show win0_6.index t (1 : Fin 2) * 128 + 1 * (y 1).val = (y 1).val; show 0 * 128 + 1 * (y 1).val = (y 1).val; omega

/-- Window 7 is the whole array, so its block at the one grid point is the array itself. -/
theorem block7 (c : Dev nD) (t : Fin cfg0.N) : (iblk m c 7 t : S1x128.Idx → Elt F .f32) = V m c main_v2 := by
  funext y
  show V m c main_v2 (((cfg0.win 7).blk t).view.emb y) = V m c main_v2 y
  congr 1
  funext a; apply Fin.ext
  match a with
  | ⟨0, _⟩ => show win0_7.index t (0 : Fin 2) * 1 + 1 * (y 0).val = (y 0).val; show 0 * 1 + 1 * (y 0).val = (y 0).val; omega
  | ⟨1, _⟩ => show win0_7.index t (1 : Fin 2) * 128 + 1 * (y 1).val = (y 1).val; show 0 * 128 + 1 * (y 1).val = (y 1).val; omega

/-- The whole result array as the region's launch finds the operands. -/
def result (c : Dev nD) : Vec F S1024x128 .f32 :=
  body (V m c main_arg0) (V m c main_arg1) (V m c main_arg2) (V m c main_v0) (V m c main_arg4) (V m c main_v1) (V m c main_arg6) (V m c main_v2)

/-- What the one grid point writes back is the whole result, read through the output window's (whole) block. -/
theorem flushed_eq (c : Dev nD) (t : Fin cfg0.N) :
    (dats m 0 c).flushed 8 t = ((cfg0.win 8).blk t).view.read (Elt F) (result m c) := by
  rw [Value.flushed8, out_eq, block0, block1, block2, block3, block4, block5, block6, block7]
  funext y
  show result m c y = result m c (((cfg0.win 8).blk t).view.emb y)
  congr 1
  funext a; apply Fin.ext
  match a with
  | ⟨0, _⟩ => show (y 0).val = win0_8.index t (0 : Fin 2) * 1024 + 1 * (y 0).val; show (y 0).val = 0 * 1024 + 1 * (y 0).val; omega
  | ⟨1, _⟩ => show (y 1).val = win0_8.index t (1 : Fin 2) * 128 + 1 * (y 1).val; show (y 1).val = 0 * 128 + 1 * (y 1).val; omega

/-- The one block is the whole array: every index of the result array lies in it. -/
theorem mem_block (t : Fin cfg0.N) (i : S1024x128.Idx) : i ∈ ((cfg0.win 8).blk t).view.set := by
  have h : i ∈ ((cfg0.win 8).blk t).view.set ↔ ∀ a : Fin 2, win0_8.index t a * S1024x128.size a ≤ (i a).val ∧ (i a).val < win0_8.index t a * S1024x128.size a + S1024x128.size a := by
    show i ∈ ((View.whole main_v3).slice (win0_8.rect t)).set ↔ _
    rw [View.set_slice_whole, Rect.mem_set_unit]
    exact Iff.rfl
  rw [h]
  intro a
  match a with
  | ⟨0, _⟩ => show 0 * 1024 ≤ (i 0).val ∧ (i 0).val < 0 * 1024 + 1024; have : (i 0).val < 1024 := (i 0).isLt; omega
  | ⟨1, _⟩ => show 0 * 128 ≤ (i 1).val ∧ (i 1).val < 0 * 128 + 128; have : (i 1).val < 128 := (i 1).isLt; omega

/-- After the run the result array is `result`: the one point's block covers it. -/
theorem final (c : Dev nD) : (dats m 0 c).arrAt 8 cfg0.N = result m c :=
  (dats m 0 c).arrAt_eq_of_cover 8 (result m c) (fun t _ => flushed_eq m c t)
    (fun i => ⟨⟨0, by decide⟩, flush0_8 _, mem_block _ i⟩)

/-- The convolution bias reaches the kernel as a column: the reshape of the one-axis argument made before the launch. -/
theorem column0 (c : Dev nD) : (V m c main_v0 : S128x1.Idx → Elt F .f32) = shapeCast S128x1 (m ((c : Thread nD τ).loc main_arg3)) Facts₀.shapeCasts_S128_S128x1 := by
  dsimp only [Gen.V, Gen.hostOps0]; after_results; rfl

/-- The first dense bias as a column. -/
theorem column1 (c : Dev nD) : (V m c main_v1 : S128x1.Idx → Elt F .f32) = shapeCast S128x1 (m ((c : Thread nD τ).loc main_arg5)) Facts₀.shapeCasts_S128_S128x1 := by
  dsimp only [Gen.V, Gen.hostOps0]; after_results; rfl

/-- The second dense bias as a row. -/
theorem row2 (c : Dev nD) : (V m c main_v2 : S1x128.Idx → Elt F .f32) = shapeCast S1x128 (m ((c : Thread nD τ).loc main_arg7)) Facts₀.shapeCasts_S128_S1x128 := by
  dsimp only [Gen.V, Gen.hostOps0]; after_results; rfl

/-- The result array as a function of the eight ARGUMENT arrays. -/
def resultOf (data : Vec F S1024x128 .f32) (adj : Vec F S1024x1024 .i32) (convW : Vec F S128x128 .f32) (convB : Vec F S128 .f32)
    (fc1W : Vec F S128x128 .f32) (fc1B : Vec F S128 .f32) (fc2W : Vec F S128x128 .f32) (fc2B : Vec F S128 .f32) : Vec F S1024x128 .f32 :=
  body data adj convW (shapeCast S128x1 convB Facts₀.shapeCasts_S128_S128x1) fc1W (shapeCast S128x1 fc1B Facts₀.shapeCasts_S128_S128x1) fc2W
    (shapeCast S1x128 fc2B Facts₀.shapeCasts_S128_S1x128)

theorem result_eq (c : Dev nD) : result m c = resultOf (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) := by
  unfold result resultOf
  rw [V_main_arg0, V_main_arg1, V_main_arg2, column0, V_main_arg4, column1, V_main_arg6, row2]

/-- The kernel's run with the result array named as a function of the argument arrays, the arguments unchanged. -/
theorem run : θ_run defs (onTc (τ := τ) (main (F := F))) ⟨m, fun _ => 0, ρ⟩ fun r => ∀ c : Dev nD,
      r.2.mem ((c : Thread nD τ).loc main_v3) = resultOf (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans ((final m c).trans (result_eq m c)), (h c).2⟩) (Value.run_blocks m ρ)

end Cert.KernelIdeal.Whole

end
-- ==== Proof.LibMatmul.lean ====
/-
  A matrix product into a zero accumulator, read at an entry on the extended reals, for any extents.

  Two contractions of rank-2 operands with one contracting axis each: Aᵀ B, contracting the FIRST axis of both
  ([k, m] and [k, n] into [m, n]: entry (a, b) is Σ_c A(c, a) · B(c, b)), and the plain A B, contracting the last
  axis of the left operand with the first of the right ([m, k] and [k, n] into [m, n]: Σ_c A(a, c) · B(c, b)).
  The sum over the contraction's one-axis index set is re-indexed by its one coordinate.
-/
import Idealize.ShloMosaic.PureOps.Ideal.Laws
import Idealize.ShloMosaic.Lib.ValueIdx

noncomputable section

namespace Cert.LibMatmul

open Idealize.ShloMosaic Idealize.ShloMosaic.ValueIdx

variable {k m n : ℕ} {φ₁ φ₂ : FTy}

/-- Aᵀ B into the zero accumulator, at (a, b): the sum over the shared first coordinate c of A(c, a) · B(c, b). -/
theorem matmul_tn_apply (w : DotDims.WF ⟨2, ![k, m]⟩ ⟨2, ![k, n]⟩ ⟨2, ![m, n]⟩ [0] [0] [1] [1] [] [])
    (prec : Option ContractPrecision) (A : FVec Ideal ⟨2, ![k, m]⟩ φ₁) (B : FVec Ideal ⟨2, ![k, n]⟩ φ₂)
    (a : Fin m) (b : Fin n) :
    matmul (⟨[0], [0], [1], [1], [], [], w⟩ : DotDims _ _ _) prec A B (constant ⟨2, ![m, n]⟩ .f32 0x00000000#32) (ix2 a b)
      = ∑ c : Fin k, A (ix2 c a) * B (ix2 c b) := by
  show FloatOps.matmul _ prec A B _ (ix2 a b) = _
  rw [Ideal.matmul_constant_zero_apply,
    ← Equiv.sum_comp (contrEquiv1 (⟨[0], [0], [1], [1], [], [], w⟩ : DotDims _ _ _) k rfl rfl).symm]
  refine Finset.sum_congr rfl fun c _ => ?_
  have c2 := contrEquiv1_symm_val
    (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A B into the zero accumulator, at (a, b): the sum over the contracted coordinate c of A(a, c) · B(c, b). -/
theorem matmul_nn_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMatmul

end
-- ==== Proof.LibMatmulCross.lean ====
/-
  A matrix product into a zero accumulator, read at an entry on the extended reals, for any extents, when the FIRST
  axis of the left operand is contracted with the LAST axis of the right one: Aᵀ Bᵀ, [k, m] and [n, k] into [m, n],
  entry (a, b) = Σ_c A(c, a) · B(b, c). The sum over the contraction's one-axis index set is re-indexed by its one
  coordinate.
-/
import Idealize.ShloMosaic.PureOps.Ideal.Laws
import Idealize.ShloMosaic.Lib.ValueIdx

noncomputable section

namespace Cert.LibMatmulCross

open Idealize.ShloMosaic Idealize.ShloMosaic.ValueIdx

variable {k m n : ℕ} {φ₁ φ₂ : FTy}

/-- Aᵀ Bᵀ into the zero accumulator, at (a, b): the sum over the shared coordinate c of A(c, a) · B(b, c). -/
theorem matmul_tt_apply (w : DotDims.WF ⟨2, ![k, m]⟩ ⟨2, ![n, k]⟩ ⟨2, ![m, n]⟩ [0] [1] [1] [0] [] [])
    (prec : Option ContractPrecision) (A : FVec Ideal ⟨2, ![k, m]⟩ φ₁) (B : FVec Ideal ⟨2, ![n, k]⟩ φ₂)
    (a : Fin m) (b : Fin n) :
    matmul (⟨[0], [1], [1], [0], [], [], w⟩ : DotDims _ _ _) prec A B (constant ⟨2, ![m, n]⟩ .f32 0x00000000#32) (ix2 a b)
      = ∑ c : Fin k, A (ix2 c a) * B (ix2 b c) := by
  show FloatOps.matmul _ prec A B _ (ix2 a b) = _
  rw [Ideal.matmul_constant_zero_apply,
    ← Equiv.sum_comp (contrEquiv1 (⟨[0], [1], [1], [0], [], [], w⟩ : DotDims _ _ _) k rfl rfl).symm]
  refine Finset.sum_congr rfl fun c _ => ?_
  have c2 := contrEquiv1_symm_val
    (⟨[0], [1], [1], [0], [], [], w⟩ : DotDims ⟨2, ![k, m]⟩ ⟨2, ![n, k]⟩ ⟨2, ![m, n]⟩) k rfl rfl c
  have l2 : (⟨[0], [1], [1], [0], [], [], w⟩ : DotDims ⟨2, ![k, m]⟩ ⟨2, ![n, k]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [1], [1], [0], [], [], w⟩ : DotDims ⟨2, ![k, m]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.LibMatmulCross

end
-- ==== Proof.LibStack.lean ====
/-
  Two matrices joined into one, read at an entry given by its coordinates, for any extents.

  Side by side (`[a, b₁]` and `[a, b₂]` joined along the last axis into `[a, t]`): a column below `b₁` reads the left
  matrix at that column, a column `b₁ + k` reads the right matrix at column `k` (`beside_left`, `beside_right`).
  One above the other (`[a₁, b]` and `[a₂, b]` joined along the first axis into `[t, b]`): a row below `a₁` reads the
  upper matrix, a row `a₁ + k` the lower one at row `k` (`above_top`, `above_bottom`).
  The joined extent `t` and the coordinate in it are separate variables tied by an equation between naturals, so the
  lemmas apply to a literal extent such as 128 with pieces of 64 without any arithmetic in a type.
-/
import Idealize.ShloMosaic.Lib.Pipeline.Value
import Idealize.ShloMosaic.Lib.ValueIdx

noncomputable section

namespace Cert.LibStack

open Idealize.ShloMosaic Idealize.ShloMosaic.ValueIdx

variable {α : Type}

/-- Side by side, a column among the first `b₁`: the left matrix at the same row and column. -/
theorem beside_left {a b₁ b₂ t : ℕ} (x : (⟨2, ![a, b₁]⟩ : Shape).Idx → α) (y : (⟨2, ![a, b₂]⟩ : Shape).Idx → α)
    (h : Shape.Concatenates [(⟨2, ![a, b₁]⟩ : Shape), ⟨2, ![a, b₂]⟩] ⟨2, ![a, t]⟩ 1)
    (p : Fin a) (k : Fin b₁) (k' : Fin t) (hk : k'.val = k.val) :
    concatenate ⟨2, ![a, t]⟩ 1 [⟨⟨2, ![a, b₁]⟩, x⟩, ⟨⟨2, ![a, b₂]⟩, y⟩] h (ix2 p k') = x (ix2 p k) :=
  concatenate_pair_apply_left 1 x y h (ix2 p k') rfl (ix2 p k) fun b => by
    match b with
    | ⟨0, _⟩ => rfl
    | ⟨1, _⟩ => exact hk.symm

/-- Side by side, column `b₁ + k`: the right matrix at the same row and column `k`. -/
theorem beside_right {a b₁ b₂ t : ℕ} (x : (⟨2, ![a, b₁]⟩ : Shape).Idx → α) (y : (⟨2, ![a, b₂]⟩ : Shape).Idx → α)
    (h : Shape.Concatenates [(⟨2, ![a, b₁]⟩ : Shape), ⟨2, ![a, b₂]⟩] ⟨2, ![a, t]⟩ 1)
    (p : Fin a) (k : Fin b₂) (k' : Fin t) (hk : k'.val = k.val + b₁) :
    concatenate ⟨2, ![a, t]⟩ 1 [⟨⟨2, ![a, b₁]⟩, x⟩, ⟨⟨2, ![a, b₂]⟩, y⟩] h (ix2 p k') = y (ix2 p k) :=
  concatenate_pair_apply_right 1 x y h (ix2 p k') rfl rfl (ix2 p k)
    (fun b hb => by
      match b with
      | ⟨0, _⟩ => rfl
      | ⟨1, _⟩ => exact absurd rfl hb)
    (by show k.val + b₁ = k'.val; exact hk.symm)

/-- One above the other, a row among the first `a₁`: the upper matrix at the same row and column. -/
theorem above_top {a₁ a₂ b t : ℕ} (x : (⟨2, ![a₁, b]⟩ : Shape).Idx → α) (y : (⟨2, ![a₂, b]⟩ : Shape).Idx → α)
    (h : Shape.Concatenates [(⟨2, ![a₁, b]⟩ : Shape), ⟨2, ![a₂, b]⟩] ⟨2, ![t, b]⟩ 0)
    (k : Fin a₁) (k' : Fin t) (q : Fin b) (hk : k'.val = k.val) :
    concatenate ⟨2, ![t, b]⟩ 0 [⟨⟨2, ![a₁, b]⟩, x⟩, ⟨⟨2, ![a₂, b]⟩, y⟩] h (ix2 k' q) = x (ix2 k q) :=
  concatenate_pair_apply_left 0 x y h (ix2 k' q) rfl (ix2 k q) fun b => by
    match b with
    | ⟨0, _⟩ => exact hk.symm
    | ⟨1, _⟩ => rfl

/-- One above the other, row `a₁ + k`: the lower matrix at row `k` and the same column. -/
theorem above_bottom {a₁ a₂ b t : ℕ} (x : (⟨2, ![a₁, b]⟩ : Shape).Idx → α) (y : (⟨2, ![a₂, b]⟩ : Shape).Idx → α)
    (h : Shape.Concatenates [(⟨2, ![a₁, b]⟩ : Shape), ⟨2, ![a₂, b]⟩] ⟨2, ![t, b]⟩ 0)
    (k : Fin a₂) (k' : Fin t) (q : Fin b) (hk : k'.val = k.val + a₁) :
    concatenate ⟨2, ![t, b]⟩ 0 [⟨⟨2, ![a₁, b]⟩, x⟩, ⟨⟨2, ![a₂, b]⟩, y⟩] h (ix2 k' q) = y (ix2 k q) :=
  concatenate_pair_apply_right 0 x y h (ix2 k' q) rfl rfl (ix2 k q)
    (fun b hb => by
      match b with
      | ⟨0, _⟩ => exact absurd rfl hb
      | ⟨1, _⟩ => rfl)
    (by show k.val + a₁ = k'.val; exact hk.symm)

end Cert.LibStack

end
-- ==== Proof.LibColumn.lean ====
/-
  Rank-2 "keepdims" forms read at an index given by coordinates, for any extents a × b:
  a vector [a] cast to a column [a, 1] (`shapeCast_a_a1_apply`), a column [a, 1] broadcast across b lanes
  (`broadcastTo_a1_ab_apply`), and the sum of a matrix along its last axis, on the extended reals, as a sum over
  the lane coordinate (`sum_last_apply`). Together with the row forms [a] → [1, a] → [b, a] of the layout library
  they read `sum(x·x, axis=-1, keepdims=True)`-style expressions entry by entry.
-/
import Idealize.ShloMosaic.Lib.ValueLayout
import Idealize.ShloMosaic.PureOps.Ideal.Laws

noncomputable section

namespace Cert.LibColumn

open Idealize.ShloMosaic Idealize.ShloMosaic.ValueIdx

variable {α : Type}

/-- An `[a]` array cast to `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an `[a, b]` matrix along its last axis, read at row `p` on the extended reals, is the sum over the
    lane coordinate of that row's entries (the accumulator word is the neutral one, zero). -/
theorem sum_last_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ x 0x00000000#32 h hφ hacc (ix1 p) = ∑ d : Fin b, x (ix2 p d) := by
  refine (Ideal.multiReduction_add_single x 0x00000000#32 h hφ hacc (ix1 p)).trans ?_
  show ∑ d : Fin b, x (h.lift (ix1 p) d) = ∑ d : Fin b, x (ix2 p d)
  refine Finset.sum_congr rfl fun d _ => congrArg x (funext fun c => Fin.ext ?_)
  match c with
  | ⟨0, _⟩ => rfl
  | ⟨1, _⟩ => rfl

end Cert.LibColumn

end
-- ==== Proof.LibRowMax.lean ====
/-
  Reading a "subtract the column maximum" expression over a matrix at an index given by its coordinates, for any
  extents a × b.

  * The index over the column coordinate `q` with row coordinate `k` inserted on the first axis is `(k, q)`; hence, on
    the extended reals, a vector maximum along the FIRST axis of an `[a, b]` matrix is the fold of `max` over the row
    coordinate, and the host's maximum along the first axis is the same fold from its initial value; the vector maxima
    kept as a row `[1, b]` and broadcast down the rows again read the column's maximum at every row.
  * The host's keepdims forms: a `[b]` vector placed as the one row of `[1, b]`, that row broadcast down `a` rows, and
    a column `[a, 1]` broadcast across `b` columns.
  * A plain matrix product `[a, k] × [k, b] → [a, b]` (the left operand's last axis contracted with the right
    operand's first): its sum over the contraction index is the sum over `e : Fin k` of `lhs (i, e) * rhs (e, j)`, for
    the vector unit's product into a zero accumulator and for the host's.
-/
import Idealize.ShloMosaic.Lib.ValueLayout
import Idealize.ShloMosaic.Lib.Pipeline.Value
import Idealize.ShloMosaic.PureOps.Ideal.Laws

noncomputable section

namespace Cert.LibRowMax

open Idealize.ShloMosaic Idealize.ShloMosaic.ValueIdx

variable {α : Type} {a b : ℕ}

/-! ## The maximum along the first axis -/

/-- Over the column coordinate `q`, with `k` inserted on the first axis: `(k, q)`. -/
theorem lift_first (h : (⟨2, ![a, b]⟩ : Shape).Reduces [0] ⟨1, ![b]⟩) (q : Fin b) (k : Fin a) :
    h.lift (ix1 q) k = ix2 k q := by
  funext ax
  apply Fin.ext
  match ax with
  | ⟨0, _⟩ => rfl
  | ⟨1, _⟩ => rfl

variable {φ : FTy}

/-- A vector maximum along the first axis, at column `q`: the fold of `max` from the accumulator's value over the rows. -/
theorem multiReduction_max_first (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction .maximumf [0] ⟨1, ![b]⟩ src acc h hφ hacc (ix1 q)
      = (Finset.univ : Finset (Fin a)).fold max (Ideal.ofBits φ acc) fun k => src (ix2 k q) := by
  refine (Ideal.multiReduction_maximumf_single src acc h hφ hacc (ix1 q)).trans ?_
  refine congrArg (Finset.fold max (Ideal.ofBits φ acc) · Finset.univ) (funext fun k => ?_)
  exact congrArg src (lift_first h q k)

/-- The host's maximum along the first axis, at column `q`: the fold of `max` from the initial value over the rows. -/
theorem hostReduce_max_first {u : Shape} (x : (⟨2, ![a, b]⟩ : Shape).Idx → Ideal φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.maximumf (F := Ideal) (φ := φ)) x init h' hu (ix1 q)
      = (Finset.univ : Finset (Fin a)).fold max (init (Shape.Idx.first hu)) fun k => x (ix2 k q) := by
  refine (Host.reduce_eq_fold_single (FloatOps.maximumf (F := Ideal) (φ := φ)) x init h' h hu (ix1 q)).trans ?_
  refine congrArg (Finset.fold max (init (Shape.Idx.first hu)) · Finset.univ) (funext fun k => ?_)
  exact congrArg x (lift_first h q k)

/-- The column maxima kept as one row `[1, b]` and broadcast down `a` rows again read, at `(p, q)`, the maximum of
    column `q`. -/
theorem colMax_broadcastTo_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ (multiReduction .maximumf [0] ⟨1, ![b]⟩ src acc h hφ hacc) hc) hb (ix2 p q)
      = (Finset.univ : Finset (Fin a)).fold max (Ideal.ofBits φ acc) fun k => src (ix2 k q) :=
  (broadcastTo_1b_ab_apply _ hb p q).trans
    ((shapeCast_a_1a_apply _ hc (0 : Fin 1) q).trans (multiReduction_max_first src acc h hφ hacc q))

/-! ## The host's keepdims forms -/

/-- A `[b]` vector placed as the row of `[1, b]` reads, at `(u, q)`, the vector at `q`. -/
theorem broadcastInDim_b_1b_apply (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A `[1, b]` row broadcast down `a` rows reads, at `(p, q)`, the row at `q`. -/
theorem broadcastInDim_1b_ab_apply (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

/-- An `[a, 1]` column broadcast across `b` columns reads, at `(p, q)`, the column's entry in row `p`. -/
theorem broadcastInDim_a1_ab_apply (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-! ## A plain matrix product -/

variable {k : ℕ}

/-- The dimension numbers of a plain product `[a, k] × [k, b] → [a, b]`: no batch axis, the left operand's last axis
    contracted with the right operand's first. -/
abbrev plainDims (a k b : ℕ)
    (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

/-- The left operand's index at output `(i, j)` and contraction coordinate `e` is `(i, e)`. -/
theorem plain_lhsIdx (wf : DotDims.WF ⟨2, ![a, k]⟩ ⟨2, ![k, b]⟩ ⟨2, ![a, b]⟩ [1] [0] [0] [1] [] [])
    (i : Fin a) (j : Fin b) (e : Fin k) :
    (plainDims a k b wf).lhsIdx (ix2 i j) ((contrEquiv1 (plainDims a k b wf) k rfl rfl).symm e) = ix2 i e := by
  funext ax
  apply Fin.ext
  match ax with
  | ⟨0, _⟩ => rfl
  | ⟨1, _⟩ =>
    exact ((plainDims a k b wf).lhsIdx_val_of_single rfl (ix2 i j) _).trans
      (contrEquiv1_symm_val (plainDims a k b wf) k rfl rfl e)

/-- The right operand's index at output `(i, j)` and contraction coordinate `e` is `(e, j)`. -/
theorem plain_rhsIdx (wf : DotDims.WF ⟨2, ![a, k]⟩ ⟨2, ![k, b]⟩ ⟨2, ![a, b]⟩ [1] [0] [0] [1] [] [])
    (i : Fin a) (j : Fin b) (e : Fin k) :
    (plainDims a k b wf).rhsIdx (ix2 i j) ((contrEquiv1 (plainDims a k b wf) k rfl rfl).symm e) = ix2 e j := by
  funext ax
  apply Fin.ext
  match ax with
  | ⟨0, _⟩ =>
    exact ((plainDims a k b wf).rhsIdx_val_of_single rfl (ix2 i j) _).trans
      (contrEquiv1_symm_val (plainDims a k b wf) k rfl rfl e)
  | ⟨1, _⟩ => rfl

/-- The contraction's sum of products, over the contracted coordinate. -/
theorem plain_sum (wf : DotDims.WF ⟨2, ![a, k]⟩ ⟨2, ![k, b]⟩ ⟨2, ![a, b]⟩ [1] [0] [0] [1] [] [])
    (lhs : (⟨2, ![a, k]⟩ : Shape).Idx → EReal) (rhs : (⟨2, ![k, b]⟩ : Shape).Idx → EReal) (i : Fin a) (j : Fin b) :
    ∑ kk : (plainDims a k b wf).contr.Idx,
        lhs ((plainDims a k b wf).lhsIdx (ix2 i j) kk) * rhs ((plainDims a k b wf).rhsIdx (ix2 i j) kk)
      = ∑ e : Fin k, lhs (ix2 i e) * rhs (ix2 e j) := by
  rw [← Equiv.sum_comp (contrEquiv1 (plainDims a k b wf) k rfl rfl).symm]
  refine Finset.sum_congr rfl fun e _ => ?_
  rw [plain_lhsIdx wf i j e, plain_rhsIdx wf i j e]

/-- The vector unit's plain product into a zero accumulator, at `(i, j)`: the sum over `e` of `lhs (i, e) * rhs (e, j)`. -/
theorem matmul_plain_apply {φ₁ φ₂ : FTy} (wf : DotDims.WF ⟨2, ![a, k]⟩ ⟨2, ![k, b]⟩ ⟨2, ![a, b]⟩ [1] [0] [0] [1] [] [])
    (prec : Option ContractPrecision) (lhs : FVec Ideal ⟨2, ![a, k]⟩ φ₁) (rhs : FVec Ideal ⟨2, ![k, b]⟩ φ₂)
    (i : Fin a) (j : Fin b) :
    FloatOps.matmul (plainDims a k b wf) prec lhs rhs (constant ⟨2, ![a, b]⟩ .f32 0x00000000#32) (ix2 i j)
      = ∑ e : Fin k, lhs (ix2 i e) * rhs (ix2 e j) :=
  (Ideal.matmul_constant_zero_apply (plainDims a k b wf) prec lhs rhs (ix2 i j)).trans (plain_sum wf lhs rhs i j)

/-- The host's plain product, at `(i, j)`: the same sum. -/
theorem dotGeneral_plain_apply {φ₁ φ₂ : FTy} (wf : DotDims.WF ⟨2, ![a, k]⟩ ⟨2, ![k, b]⟩ ⟨2, ![a, b]⟩ [1] [0] [0] [1] [] [])
    (prec : Option ContractPrecision) (sched : HostSchedule) (lhs : FVec Ideal ⟨2, ![a, k]⟩ φ₁)
    (rhs : FVec Ideal ⟨2, ![k, b]⟩ φ₂) (i : Fin a) (j : Fin b) :
    FloatOps.dotGeneral (plainDims a k b wf) prec sched lhs rhs (ix2 i j)
      = ∑ e : Fin k, lhs (ix2 i e) * rhs (ix2 e j) :=
  (Ideal.dotGeneral_apply (plainDims a k b wf) prec sched lhs rhs (ix2 i j)).trans (plain_sum wf lhs rhs i j)

end Cert.LibRowMax

end
-- ==== Proof.KernelEntry.lean ====
/-
  The kernel's result array read entry by entry on the extended reals.

  Every float operation is exact there and the two format changes are the identity, so each stage of the body is a
  closed formula in the coordinates: the adjacency words as numbers, the column degrees and the inverse square roots of
  (degree + 1), the product convWᵀ·dataᵀ scaled column by column, its aggregation through the adjacency matrix (computed
  as one product of the scaled matrix stacked above its own rounding remainder, whose two halves are then added back),
  and the two dense layers with their clamps at zero, the last one stored transposed.
-/
import proofs.«180595_g20298015441659_fold_wed_m_942_9_alg».proof.Proof.KernelArray
import proofs.«180595_g20298015441659_fold_wed_m_942_9_alg».proof.Proof.LibMatmul
import proofs.«180595_g20298015441659_fold_wed_m_942_9_alg».proof.Proof.LibMatmulCross
import proofs.«180595_g20298015441659_fold_wed_m_942_9_alg».proof.Proof.LibStack
import proofs.«180595_g20298015441659_fold_wed_m_942_9_alg».proof.Proof.LibColumn
import proofs.«180595_g20298015441659_fold_wed_m_942_9_alg».proof.Proof.LibRowMax
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Entry

open Cert.KernelIdeal Cert.KernelIdeal.Gen Cert.KernelIdeal.Whole Idealize.ShloMosaic Idealize.ShloMosaic.ValueIdx

/-! ## The stages as formulas in the coordinates -/

section Formulas

variable (data : FVec Ideal S1024x128 .f32) (adj : IVec S1024x1024 32) (convW : FVec Ideal S128x128 .f32)
  (convB : FVec Ideal S128 .f32) (fc1W : FVec Ideal S128x128 .f32) (fc1B : FVec Ideal S128 .f32)
  (fc2W : FVec Ideal S128x128 .f32) (fc2B : FVec Ideal S128 .f32)

/-- The adjacency word at (i, j) as a number: the signed integer the word encodes. -/
def wt (i j : Fin 1024) : EReal := FloatOps.sitofp (F := Ideal) .f32 (adj (ix2 i j))

/-- The degree of column j: deg j = ∑ i, wt i j. -/
def deg (j : Fin 1024) : EReal := ∑ i : Fin 1024, wt adj i j

/-- dinv j = rsqrt (deg j + 1). -/
def dinv (j : Fin 1024) : EReal := Ideal.rsqrt (deg adj j + Ideal.ofBits .f32 0x3F800000#32)

/-- The transformed features, transposed: xw h i = ∑ d, convW (d, h) · data (i, d). -/
def xw (h : Fin 128) (i : Fin 1024) : EReal := ∑ d : Fin 128, convW (ix2 d h) * data (ix2 i d)

/-- The transformed features scaled column by column: z h i = xw h i · dinv i. -/
def z (h : Fin 128) (i : Fin 1024) : EReal := xw data convW h i * dinv adj i

/-- The aggregation with the self term: agg h j = ((∑ i, z h i · wt i j) + (∑ i, (z h i − z h i) · wt i j)) + z h j. -/
def agg (h : Fin 128) (j : Fin 1024) : EReal :=
  ((∑ i : Fin 1024, z data adj convW h i * wt adj i j) + (∑ i : Fin 1024, (z data adj convW h i - z data adj convW h i) * wt adj i j))
    + z data adj convW h j

/-- The first layer, transposed: h1 h j = max (agg h j · dinv j + convB h) 0. -/
def h1 (h : Fin 128) (j : Fin 1024) : EReal :=
  max (agg data adj convW h j * dinv adj j + convB (ix1 h)) (Ideal.ofBits .f32 0x00000000#32)

/-- The second layer, transposed: h2 k j = max ((∑ h, fc1W (h, k) · h1 h j) + fc1B k) 0. -/
def h2 (k : Fin 128) (j : Fin 1024) : EReal :=
  max ((∑ h : Fin 128, fc1W (ix2 h k) * h1 data adj convW convB h j) + fc1B (ix1 k)) (Ideal.ofBits .f32 0x00000000#32)

/-- The result: out j o = (∑ k, h2 k j · fc2W (k, o)) + fc2B o. -/
def out (j : Fin 1024) (o : Fin 128) : EReal :=
  (∑ k : Fin 128, h2 data adj convW convB fc1W fc1B k j * fc2W (ix2 k o)) + fc2B (ix1 o)

end Formulas

/-! ## One lemma per stage, over arbitrary operands -/

section Stages

/-- A sum along the first axis of an [a, b] matrix, read at column q: the sum over the row coordinate. -/
theorem sum_first_apply {a b : ℕ} (x : FVec Ideal ⟨2, ![a, b]⟩ .f32) (h : (⟨2, ![a, b]⟩ : Shape).Reduces [0] ⟨1, ![b]⟩)
    (hφ : FKind.Formats .f32) (hacc : (0x00000000#32 : BitVec 32) = FKind.add.neutral .f32 hφ) (q : Fin b) :
    multiReduction .add [0] ⟨1, ![b]⟩ x 0x00000000#32 h hφ hacc (ix1 q) = ∑ k : Fin a, x (ix2 k q) := by
  refine (Ideal.multiReduction_add_single x 0x00000000#32 h hφ hacc (ix1 q)).trans ?_
  show ∑ k : Fin a, x (h.lift (ix1 q) k) = ∑ k : Fin a, x (ix2 k q)
  exact Finset.sum_congr rfl fun k _ => congrArg x (Cert.LibRowMax.lift_first h q k)

/-- The row of inverse square roots: the column sums of W kept as a row, plus one, under the reciprocal square root. -/
theorem dinvRow_apply (W : FVec Ideal S1024x1024 .f32) (j : Fin 1024) :
    rsqrt (addf (shapeCast S1x1024 (multiReduction .add [0] S1024 W 0x00000000#32 Facts₀.reduces_S1024x1024_S1024 (.inl rfl) rfl)
        Facts₀.shapeCasts_S1024_S1x1024) (broadcast S1x1024 (Scalar.ofBits (F := Ideal) .f32 0x3F800000#32))) (ix2 (0 : Fin 1) j)
      = Ideal.rsqrt ((∑ i : Fin 1024, W (ix2 i j)) + Ideal.ofBits .f32 0x3F800000#32) := by
  show Ideal.rsqrt (shapeCast S1x1024 (multiReduction .add [0] S1024 W 0x00000000#32 Facts₀.reduces_S1024x1024_S1024 (.inl rfl) rfl)
        Facts₀.shapeCasts_S1024_S1x1024 (ix2 (0 : Fin 1) j) + Ideal.ofBits .f32 0x3F800000#32) = _
  refine congrArg (fun t => Ideal.rsqrt (t + Ideal.ofBits .f32 0x3F800000#32)) ?_
  exact (shapeCast_a_1a_apply _ Facts₀.shapeCasts_S1024_S1x1024 (0 : Fin 1) j).trans
    (sum_first_apply W Facts₀.reduces_S1024x1024_S1024 (.inl rfl) rfl j)

/-- The scaled product: Aᵀ·Bᵀ times a row R broadcast down the rows, at (h, i). -/
theorem scaled_apply (A : FVec Ideal S128x128 .f32) (B : FVec Ideal S1024x128 .f32) (R : FVec Ideal S1x1024 .f32)
    (h : Fin 128) (i : Fin 1024) :
    mulf (matmul dot_S128x128_S1024x128_S128x1024_0_1_1_0_n_n none A B (constant S128x1024 .f32 0x00000000#32))
        (broadcastTo S128x1024 R Facts₀.broadcasts_S1x1024_S128x1024) (ix2 h i)
      = (∑ d : Fin 128, A (ix2 d h) * B (ix2 i d)) * R (ix2 (0 : Fin 1) i) := by
  show matmul dot_S128x128_S1024x128_S128x1024_0_1_1_0_n_n none A B (constant S128x1024 .f32 0x00000000#32) (ix2 h i)
      * broadcastTo S128x1024 R Facts₀.broadcasts_S1x1024_S128x1024 (ix2 h i) = _
  rw [broadcastTo_1b_ab_apply R Facts₀.broadcasts_S1x1024_S128x1024 h i]
  exact congrArg (· * R (ix2 (0 : Fin 1) i))
    (Cert.LibMatmulCross.matmul_tt_apply Facts₀.dot_S128x128_S1024x128_S128x1024_0_1_1_0_n_n_wf none A B h i)

end Stages

section Aggregate

/-- The product of Z stacked above its own rounding remainder (Z − Z) with W: [256, 1024]. -/
def stacked (Z : FVec Ideal S128x1024 .f32) (W : FVec Ideal S1024x1024 .f32) : FVec Ideal S256x1024 .f32 :=
  matmul dot_S256x1024_S1024x1024_S256x1024_1_0_0_1_n_n none
    (concatenate S256x1024 0 [⟨S128x1024, truncf .bf16 Z Facts₀.bitsLt_bf16_f32⟩,
      ⟨S128x1024, truncf .bf16 (subf Z Z) Facts₀.bitsLt_bf16_f32⟩] Facts₀.concatenates_S128x1024_S128x1024_S256x1024_d0)
    (truncf .bf16 W Facts₀.bitsLt_bf16_f32) (constant S256x1024 .f32 0x00000000#32)

/-- A row of the upper half of the stacked product: Z·W at (h, j). -/
theorem stacked_top (Z : FVec Ideal S128x1024 .f32) (W : FVec Ideal S1024x1024 .f32) (h : Fin 128) (h' : Fin 256)
    (j : Fin 1024) (hk : h'.val = h.val) :
    stacked Z W (ix2 h' j) = ∑ i : Fin 1024, Z (ix2 h i) * W (ix2 i j) := by
  refine (Cert.LibMatmul.matmul_nn_apply Facts₀.dot_S256x1024_S1024x1024_S256x1024_1_0_0_1_n_n_wf none _ _ h' j).trans ?_
  refine Finset.sum_congr rfl fun i _ => ?_
  exact congrArg (· * W (ix2 i j))
    (Cert.LibStack.above_top (truncf .bf16 Z Facts₀.bitsLt_bf16_f32) (truncf .bf16 (subf Z Z) Facts₀.bitsLt_bf16_f32)
      Facts₀.concatenates_S128x1024_S128x1024_S256x1024_d0 h h' i hk)

/-- A row of the lower half of the stacked product: (Z − Z)·W at (h, j). -/
theorem stacked_bottom (Z : FVec Ideal S128x1024 .f32) (W : FVec Ideal S1024x1024 .f32) (h : Fin 128) (h' : Fin 256)
    (j : Fin 1024) (hk : h'.val = h.val + 128) :
    stacked Z W (ix2 h' j) = ∑ i : Fin 1024, (Z (ix2 h i) - Z (ix2 h i)) * W (ix2 i j) := by
  refine (Cert.LibMatmul.matmul_nn_apply Facts₀.dot_S256x1024_S1024x1024_S256x1024_1_0_0_1_n_n_wf none _ _ h' j).trans ?_
  refine Finset.sum_congr rfl fun i _ => ?_
  exact congrArg (· * W (ix2 i j))
    (Cert.LibStack.above_bottom (truncf .bf16 Z Facts₀.bitsLt_bf16_f32) (truncf .bf16 (subf Z Z) Facts₀.bitsLt_bf16_f32)
      Facts₀.concatenates_S128x1024_S128x1024_S256x1024_d0 h h' i hk)

/-- The two halves of the stacked product added back, plus Z itself, at (h, j). -/
theorem aggregate_apply (Z : FVec Ideal S128x1024 .f32) (W : FVec Ideal S1024x1024 .f32) (h : Fin 128) (j : Fin 1024) :
    addf (addf (extractStridedSlice S128x1024 ![0, 0] (stacked Z W) Facts₀.slices_S256x1024_o0_0_S128x1024)
        (extractStridedSlice S128x1024 ![128, 0] (stacked Z W) Facts₀.slices_S256x1024_o128_0_S128x1024)) Z (ix2 h j)
      = ((∑ i : Fin 1024, Z (ix2 h i) * W (ix2 i j)) + (∑ i : Fin 1024, (Z (ix2 h i) - Z (ix2 h i)) * W (ix2 i j)))
          + Z (ix2 h j) := by
  show (extractStridedSlice S128x1024 ![0, 0] (stacked Z W) Facts₀.slices_S256x1024_o0_0_S128x1024 (ix2 h j)
      + extractStridedSlice S128x1024 ![128, 0] (stacked Z W) Facts₀.slices_S256x1024_o128_0_S128x1024 (ix2 h j))
      + Z (ix2 h j) = _
  refine congrArg₂ (· + ·) (congrArg₂ (· + ·) ?_ ?_) rfl
  · exact (slice2_axis0_apply 0 (stacked Z W) Facts₀.slices_S256x1024_o0_0_S128x1024 h j
      (⟨h.val, by have := h.isLt; omega⟩ : Fin 256) (Nat.zero_add _).symm).trans (stacked_top Z W h _ j rfl)
  · exact (slice2_axis0_apply 128 (stacked Z W) Facts₀.slices_S256x1024_o128_0_S128x1024 h j
      (⟨128 + h.val, by have := h.isLt; omega⟩ : Fin 256) rfl).trans (stacked_bottom Z W h _ j (Nat.add_comm _ _))

end Aggregate

section Layers

/-- The first layer: G scaled by the row R, plus the bias column, clamped at zero, at (h, j). -/
theorem layer1_apply (G : FVec Ideal S128x1024 .f32) (R : FVec Ideal S1x1024 .f32) (β : FVec Ideal S128x1 .f32)
    (h : Fin 128) (j : Fin 1024) :
    maximumf (addf (mulf G (broadcastTo S128x1024 R Facts₀.broadcasts_S1x1024_S128x1024))
        (broadcastTo S128x1024 (shapeCast S128x1 β Facts₀.shapeCasts_S128x1_S128x1) Facts₀.broadcasts_S128x1_S128x1024))
        (broadcast S128x1024 (Scalar.ofBits (F := Ideal) .f32 0x00000000#32)) (ix2 h j)
      = max (G (ix2 h j) * R (ix2 (0 : Fin 1) j) + β (ix2 h (0 : Fin 1))) (Ideal.ofBits .f32 0x00000000#32) := by
  rw [shapeCast_self]
  show max (G (ix2 h j) * broadcastTo S128x1024 R Facts₀.broadcasts_S1x1024_S128x1024 (ix2 h j)
      + broadcastTo S128x1024 β Facts₀.broadcasts_S128x1_S128x1024 (ix2 h j)) (Ideal.ofBits .f32 0x00000000#32) = _
  rw [broadcastTo_1b_ab_apply R Facts₀.broadcasts_S1x1024_S128x1024 h j,
    Cert.LibColumn.broadcastTo_a1_ab_apply β Facts₀.broadcasts_S128x1_S128x1024 h j]

/-- The second layer: Aᵀ·X plus the bias column, clamped at zero, at (k, j). -/
theorem layer2_apply (A : FVec Ideal S128x128 .f32) (X : FVec Ideal S128x1024 .f32) (β : FVec Ideal S128x1 .f32)
    (k : Fin 128) (j : Fin 1024) :
    maximumf (addf (matmul dot_S128x128_S128x1024_S128x1024_0_0_1_1_n_n none A X (constant S128x1024 .f32 0x00000000#32))
        (broadcastTo S128x1024 (shapeCast S128x1 β Facts₀.shapeCasts_S128x1_S128x1) Facts₀.broadcasts_S128x1_S128x1024))
        (broadcast S128x1024 (Scalar.ofBits (F := Ideal) .f32 0x00000000#32)) (ix2 k j)
      = max ((∑ h : Fin 128, A (ix2 h k) * X (ix2 h j)) + β (ix2 k (0 : Fin 1))) (Ideal.ofBits .f32 0x00000000#32) := by
  rw [shapeCast_self]
  show max (matmul dot_S128x128_S128x1024_S128x1024_0_0_1_1_n_n none A X (constant S128x1024 .f32 0x00000000#32) (ix2 k j)
      + broadcastTo S128x1024 β Facts₀.broadcasts_S128x1_S128x1024 (ix2 k j)) (Ideal.ofBits .f32 0x00000000#32) = _
  rw [Cert.LibColumn.broadcastTo_a1_ab_apply β Facts₀.broadcasts_S128x1_S128x1024 k j]
  exact congrArg (fun t => max (t + β (ix2 k (0 : Fin 1))) (Ideal.ofBits .f32 0x00000000#32))
    (Cert.LibMatmul.matmul_tn_apply Facts₀.dot_S128x128_S128x1024_S128x1024_0_0_1_1_n_n_wf none A X k j)

/-- The last layer, stored transposed: Yᵀ·B plus the bias row, at (j, o). -/
theorem layer3_apply (Y : FVec Ideal S128x1024 .f32) (B : FVec Ideal S128x128 .f32) (ρ : FVec Ideal S1x128 .f32)
    (j : Fin 1024) (o : Fin 128) :
    k0_pay1 Y B ρ (ix2 j o) = (∑ k : Fin 128, Y (ix2 k j) * B (ix2 k o)) + ρ (ix2 (0 : Fin 1) o) := by
  unfold k0_pay1
  show matmul dot_S128x1024_S128x128_S1024x128_0_0_1_1_n_n none Y B (constant S1024x128 .f32 0x00000000#32) (ix2 j o)
      + broadcastTo S1024x128 (shapeCast S1x128 ρ Facts₀.shapeCasts_S1x128_S1x128) Facts₀.broadcasts_S1x128_S1024x128 (ix2 j o) = _
  rw [shapeCast_self, broadcastTo_1b_ab_apply ρ Facts₀.broadcasts_S1x128_S1024x128 j o]
  exact congrArg (· + ρ (ix2 (0 : Fin 1) o))
    (Cert.LibMatmul.matmul_tn_apply Facts₀.dot_S128x1024_S128x128_S1024x128_0_0_1_1_n_n_wf none Y B j o)

end Layers

/-! ## The body's intermediate arrays, and their entries -/

section Compose

variable (data : FVec Ideal S1024x128 .f32) (adj : IVec S1024x1024 32) (convW : FVec Ideal S128x128 .f32)
  (convB : FVec Ideal S128 .f32) (fc1W : FVec Ideal S128x128 .f32) (fc1B : FVec Ideal S128 .f32)
  (fc2W : FVec Ideal S128x128 .f32) (fc2B : FVec Ideal S128 .f32)

/-- The adjacency words as numbers: [1024, 1024]. -/
def wtV : FVec Ideal S1024x1024 .f32 := sitofp .f32 adj

/-- The inverse square roots of (column degree + 1), as a row: [1, 1024]. -/
def dinvRow : FVec Ideal S1x1024 .f32 :=
  rsqrt (addf (shapeCast S1x1024 (multiReduction .add [0] S1024 (wtV adj) 0x00000000#32 Facts₀.reduces_S1024x1024_S1024 (.inl rfl) rfl)
    Facts₀.shapeCasts_S1024_S1x1024) (broadcast S1x1024 (Scalar.ofBits (F := Ideal) .f32 0x3F800000#32)))

/-- The transformed features, transposed and scaled column by column: [128, 1024]. -/
def zV : FVec Ideal S128x1024 .f32 :=
  mulf (matmul dot_S128x128_S1024x128_S128x1024_0_1_1_0_n_n none convW data (constant S128x1024 .f32 0x00000000#32))
    (broadcastTo S128x1024 (dinvRow adj) Facts₀.broadcasts_S1x1024_S128x1024)

/-- The aggregation through the adjacency matrix, with the self term: [128, 1024]. -/
def aggV : FVec Ideal S128x1024 .f32 :=
  addf (addf (extractStridedSlice S128x1024 ![0, 0] (stacked (zV data adj convW) (wtV adj)) Facts₀.slices_S256x1024_o0_0_S128x1024)
    (extractStridedSlice S128x1024 ![128, 0] (stacked (zV data adj convW) (wtV adj)) Facts₀.slices_S256x1024_o128_0_S128x1024))
    (zV data adj convW)

/-- The first layer, transposed: [128, 1024]. -/
def h1V (β : FVec Ideal S128x1 .f32) : FVec Ideal S128x1024 .f32 :=
  maximumf (addf (mulf (aggV data adj convW) (broadcastTo S128x1024 (dinvRow adj) Facts₀.broadcasts_S1x1024_S128x1024))
      (broadcastTo S128x1024 (shapeCast S128x1 β Facts₀.shapeCasts_S128x1_S128x1) Facts₀.broadcasts_S128x1_S128x1024))
    (broadcast S128x1024 (Scalar.ofBits (F := Ideal) .f32 0x00000000#32))

/-- The second layer, transposed: [128, 1024]. -/
def h2V (β₁ β₂ : FVec Ideal S128x1 .f32) : FVec Ideal S128x1024 .f32 :=
  maximumf (addf (matmul dot_S128x128_S128x1024_S128x1024_0_0_1_1_n_n none fc1W (h1V data adj convW β₁) (constant S128x1024 .f32 0x00000000#32))
      (broadcastTo S128x1024 (shapeCast S128x1 β₂ Facts₀.shapeCasts_S128x1_S128x1) Facts₀.broadcasts_S128x1_S128x1024))
    (broadcast S128x1024 (Scalar.ofBits (F := Ideal) .f32 0x00000000#32))

/-- The body's second-layer payload is the composition of the stages above. -/
theorem pay2_eq (β₁ β₂ : FVec Ideal S128x1 .f32) :
    k0_pay2 adj convW data β₁ fc1W β₂ = h2V data adj convW fc1W β₁ β₂ := rfl

theorem wtV_entry (i j : Fin 1024) : wtV adj (ix2 i j) = wt adj i j := rfl

theorem dinvRow_entry (j : Fin 1024) : dinvRow adj (ix2 (0 : Fin 1) j) = dinv adj j :=
  dinvRow_apply (wtV adj) j

theorem zV_entry (h : Fin 128) (i : Fin 1024) : zV data adj convW (ix2 h i) = z data adj convW h i :=
  (scaled_apply convW data (dinvRow adj) h i).trans
    (congrArg (fun t => xw data convW h i * t) (dinvRow_entry adj i))

theorem aggV_entry (h : Fin 128) (j : Fin 1024) : aggV data adj convW (ix2 h j) = agg data adj convW h j := by
  refine (aggregate_apply (zV data adj convW) (wtV adj) h j).trans ?_
  refine congrArg₂ (· + ·) (congrArg₂ (· + ·) (Finset.sum_congr rfl fun i _ => ?_) (Finset.sum_congr rfl fun i _ => ?_))
    (zV_entry data adj convW h j)
  · exact congrArg (· * wt adj i j) (zV_entry data adj convW h i)
  · exact congrArg (fun t => (t - t) * wt adj i j) (zV_entry data adj convW h i)

theorem h1V_entry (h : Fin 128) (j : Fin 1024) :
    h1V data adj convW (shapeCast S128x1 convB Facts₀.shapeCasts_S128_S128x1) (ix2 h j) = h1 data adj convW convB h j := by
  refine (layer1_apply (aggV data adj convW) (dinvRow adj) _ h j).trans ?_
  exact congrArg₂ (fun s t => max (s + t) (Ideal.ofBits .f32 0x00000000#32))
    (congrArg₂ (· * ·) (aggV_entry data adj convW h j) (dinvRow_entry adj j))
    (Cert.LibColumn.shapeCast_a_a1_apply convB Facts₀.shapeCasts_S128_S128x1 h (0 : Fin 1))

theorem h2V_entry (k : Fin 128) (j : Fin 1024) :
    h2V data adj convW fc1W (shapeCast S128x1 convB Facts₀.shapeCasts_S128_S128x1)
        (shapeCast S128x1 fc1B Facts₀.shapeCasts_S128_S128x1) (ix2 k j)
      = h2 data adj convW convB fc1W fc1B k j := by
  refine (layer2_apply fc1W (h1V data adj convW (shapeCast S128x1 convB Facts₀.shapeCasts_S128_S128x1)) _ k j).trans ?_
  refine congrArg₂ (fun s t => max (s + t) (Ideal.ofBits .f32 0x00000000#32))
    (Finset.sum_congr rfl fun h _ => ?_)
    (Cert.LibColumn.shapeCast_a_a1_apply fc1B Facts₀.shapeCasts_S128_S128x1 k (0 : Fin 1))
  exact congrArg (fc1W (ix2 h k) * ·) (h1V_entry data adj convW convB h j)

/-- The result array is the last layer applied to the second-layer array. -/
theorem resultOf_eq :
    resultOf (F := Ideal) data adj convW convB fc1W fc1B fc2W fc2B
      = k0_pay1 (h2V data adj convW fc1W (shapeCast S128x1 convB Facts₀.shapeCasts_S128_S128x1)
          (shapeCast S128x1 fc1B Facts₀.shapeCasts_S128_S128x1)) fc2W (shapeCast S1x128 fc2B Facts₀.shapeCasts_S128_S1x128) := by
  unfold resultOf body
  rw [pay2_eq]

/-- THE KERNEL'S RESULT AT AN ENTRY. -/
theorem entry (j : Fin 1024) (o : Fin 128) :
    resultOf (F := Ideal) data adj convW convB fc1W fc1B fc2W fc2B (ix2 j o)
      = out data adj convW convB fc1W fc1B fc2W fc2B j o := by
  refine (congrFun (resultOf_eq data adj convW convB fc1W fc1B fc2W fc2B) (ix2 j o)).trans ?_
  refine (layer3_apply _ fc2W _ j o).trans ?_
  refine congrArg₂ (· + ·) (Finset.sum_congr rfl fun k _ => ?_)
    (shapeCast_a_1a_apply fc2B Facts₀.shapeCasts_S128_S1x128 (0 : Fin 1) o)
  exact congrArg (· * fc2W (ix2 k o)) (h2V_entry data adj convW convB fc1W fc1B k j)

end Compose

end Cert.KernelIdeal.Entry

end
-- ==== Proof.Spec.lean ====
/-
  What both programs compute, as one function of the argument arrays.

  A graph convolution with self loops and symmetric normalisation over the 1024 nodes, then two dense layers:
  node j receives, from every node i with a nonzero adjacency entry (i, j) and from itself, the transformed feature
  (data · convW)(i, ·) scaled by r(i) · r(j), where r(j) = 1/√(1 + the number of nonzero entries in column j); the
  bias is added and the result clamped at zero; then x ↦ max(x · fc1W + fc1B, 0) and x ↦ x · fc2W + fc2B.
  The aggregation is stated over the reals (the entries' real values; the programs' inputs are finite), the dense
  layers over the extended reals.
-/
import Idealize.ShloMosaic.PureOps.Ideal
import Idealize.ShloMosaic.Lib.ValueIdx

noncomputable section

namespace Cert.Spec

open Idealize.ShloMosaic Idealize.ShloMosaic.ValueIdx

abbrev Nodes : Shape := ⟨2, ![1024, 128]⟩
abbrev Adj : Shape := ⟨2, ![1024, 1024]⟩
abbrev Weights : Shape := ⟨2, ![128, 128]⟩
abbrev Bias : Shape := ⟨1, ![128]⟩

variable (data : Nodes.Idx → EReal) (adj : Adj.Idx → BitVec 32) (convW : Weights.Idx → EReal) (convB : Bias.Idx → EReal)
  (fc1W : Weights.Idx → EReal) (fc1B : Bias.Idx → EReal) (fc2W : Weights.Idx → EReal) (fc2B : Bias.Idx → EReal)

/-- There is an edge from node i to node j: the adjacency entry is not zero. -/
def edge (i j : Fin 1024) : Prop := adj (ix2 i j) ≠ 0#32

instance (i j : Fin 1024) : Decidable (edge adj i j) := by unfold edge; infer_instance

/-- The degree of node j with its self loop: one plus the number of edges into j. -/
def degree (j : Fin 1024) : ℝ := ((Finset.univ.filter fun i : Fin 1024 => edge adj i j).card : ℝ) + 1

/-- The normalisation weight of node j: one over the square root of its degree. -/
def weight (j : Fin 1024) : ℝ := (Real.sqrt (degree adj j))⁻¹

/-- The transformed feature h of node i: row i of data times column h of convW, over the entries' real values. -/
def feature (i : Fin 1024) (h : Fin 128) : ℝ := ∑ d : Fin 128, (data (ix2 i d)).toReal * (convW (ix2 d h)).toReal

/-- The normalised aggregation at node j, feature h: over the edges into j and the self loop. -/
def aggregate (j : Fin 1024) (h : Fin 128) : ℝ :=
  (∑ i : Fin 1024, if edge adj i j then feature data convW i h * weight adj i * weight adj j else 0)
    + feature data convW j h * weight adj j * weight adj j

/-- The convolution layer: the aggregation plus the bias, clamped at zero. -/
def layer1 (j : Fin 1024) (h : Fin 128) : EReal := max ((aggregate data adj convW j h : EReal) + convB (ix1 h)) 0

/-- The first dense layer, clamped at zero. -/
def layer2 (j : Fin 1024) (k : Fin 128) : EReal :=
  max ((∑ h : Fin 128, layer1 data adj convW convB j h * fc1W (ix2 h k)) + fc1B (ix1 k)) 0

/-- The result: the second dense layer. -/
def result (j : Fin 1024) (o : Fin 128) : EReal :=
  (∑ k : Fin 128, layer2 data adj convW convB fc1W fc1B j k * fc2W (ix2 k o)) + fc2B (ix1 o)

theorem degree_pos (j : Fin 1024) : 0 < degree adj j := by
  unfold degree; positivity

theorem weight_pos (j : Fin 1024) : 0 < weight adj j := by
  unfold weight; exact inv_pos.mpr (Real.sqrt_pos.mpr (degree_pos adj j))

end Cert.Spec

end
-- ==== Proof.GcnLaw.lean ====
/-
  The algebra that joins the two spellings of one normalised graph convolution, on the extended reals.

  With real features x, real positive weights r (the inverse square roots of the degrees) and a 0/1 adjacency
  column a(·, j): scaling the features by r, summing them through the adjacency column, adding the node's own scaled
  feature and scaling the total by r(j) is the same number as summing, over the edges into j and the self loop, the
  feature times r(source)·r(j).  Every quantity is a real, so the extended-real operations are the real ones; the
  high/low split of the scaled features contributes a second sum whose terms are all (v − v)·a = 0.
-/
import Idealize.ShloMosaic.PureOps.Ideal
import Idealize.ShloMosaic.PureOps.Ideal.Laws

noncomputable section

namespace Cert.GcnLaw

open Idealize.ShloMosaic

/-- The coercion of a finite sum of reals is the sum of the coercions. -/
theorem coe_sum {ι : Type} (s : Finset ι) (f : ι → ℝ) : ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- A 0/1 indicator on the extended reals is the coercion of the real indicator. -/
theorem coe_indicator (p : Prop) [Decidable p] : (if p then (1 : EReal) else 0) = ((if p then (1 : ℝ) else 0 : ℝ) : EReal) := by
  split_ifs <;> simp

/-- The inverse square root of a positive real, as the vector unit spells it. -/
theorem rsqrt_of_pos {D : ℝ} (hD : 0 < D) : Ideal.rsqrt (D : EReal) = (((Real.sqrt D)⁻¹ : ℝ) : EReal) := by
  rw [Ideal.rsqrt_coe, if_neg (not_lt.mpr hD.le), if_neg hD.ne']

/-- The inverse square root of a positive real, as one over the square root. -/
theorem one_div_sqrt_of_pos {D : ℝ} (hD : 0 < D) :
    Ideal.div 1 (Ideal.sqrt (D : EReal)) = (((Real.sqrt D)⁻¹ : ℝ) : EReal) := by
  rw [Ideal.sqrt_coe, if_neg (not_lt.mpr hD.le), Ideal.div_coe (Real.sqrt_ne_zero'.mpr hD), one_mul, one_div]

/-- THE KERNEL'S SPELLING of one aggregated entry: the scaled features through the 0/1 column, the (vanishing) low
    halves through the same column, plus the node's own scaled feature, all scaled by r(j). -/
theorem dense_form {n : ℕ} (x r : Fin n → ℝ) (a : Fin n → Prop) [DecidablePred a] (xj rj : ℝ) :
    (((∑ i, ((x i : EReal) * (r i : EReal)) * (if a i then (1 : EReal) else 0))
        + (∑ i, (((x i : EReal) * (r i : EReal)) - ((x i : EReal) * (r i : EReal))) * (if a i then (1 : EReal) else 0)))
        + (xj : EReal) * (rj : EReal)) * (rj : EReal)
      = (((∑ i, if a i then x i * r i * rj else 0) + xj * rj * rj : ℝ) : EReal) := by
  have key : ((∑ i, x i * r i * (if a i then (1 : ℝ) else 0)) + (∑ i, (x i * r i - x i * r i) * (if a i then (1 : ℝ) else 0))
      + xj * rj) * rj = (∑ i, if a i then x i * r i * rj else 0) + xj * rj * rj := by
    simp only [sub_self, zero_mul, Finset.sum_const_zero, add_zero]
    rw [add_mul, Finset.sum_mul]
    congr 1
    refine Finset.sum_congr rfl fun i _ => ?_
    split_ifs <;> ring
  simp only [coe_indicator, ← EReal.coe_mul, ← EReal.coe_sub, ← coe_sum, ← EReal.coe_add]
  rw [key]

end Cert.GcnLaw

end
-- ==== Proof.KernelSpec.lean ====
/-
  The kernel's entry formulas are the graph convolution of the specification.

  With every entry of the node features and of the convolution weight a real, and every adjacency word 0 or 1: the
  adjacency word as a number is the 0/1 indicator of an edge, so the column sums plus one are the degrees (a positive
  real each) and their inverse square roots the normalisation weights; the transposed product is the coercion of the
  real feature; and the aggregation scaled by the weight of its column is, by the distributive algebra of real numbers,
  the sum over the edges and the self loop. The dense layers then agree term by term (a product commuted under a sum).
-/
import proofs.«180595_g20298015441659_fold_wed_m_942_9_alg».proof.Proof.KernelEntry
import proofs.«180595_g20298015441659_fold_wed_m_942_9_alg».proof.Proof.Spec
import proofs.«180595_g20298015441659_fold_wed_m_942_9_alg».proof.Proof.GcnLaw
import Idealize.ShloMosaic.PureOps.Ideal.Laws
import Idealize.ShloMosaic.Lib.ValueIdx

noncomputable section

namespace Cert.KernelIdeal.Bridge

open Cert.KernelIdeal Cert.KernelIdeal.Entry Idealize.ShloMosaic Idealize.ShloMosaic.ValueIdx
open Cert.Spec (edge degree weight feature aggregate layer1 layer2 result)

/-- The f32 word of 1.0 is the number one. -/
theorem ofBits_one_f32 : Ideal.ofBits .f32 0x3F800000#32 = 1 := by
  simp [Ideal.ofBits, Ideal.ieee]
  rw [← EReal.coe_mul]
  norm_num

variable (data : FVec Ideal S1024x128 .f32) (adj : IVec S1024x1024 32) (convW : FVec Ideal S128x128 .f32)
  (convB : FVec Ideal S128 .f32) (fc1W : FVec Ideal S128x128 .f32) (fc1B : FVec Ideal S128 .f32)
  (fc2W : FVec Ideal S128x128 .f32) (fc2B : FVec Ideal S128 .f32)
  (hdata : ∀ i, ∃ r : ℝ, data i = (r : EReal)) (hconvW : ∀ i, ∃ r : ℝ, convW i = (r : EReal))
  (hadj : ∀ i, adj i = 0#32 ∨ adj i = 1#32)

include hadj in
/-- A 0/1 adjacency word as a number is the indicator of an edge. -/
theorem wt_eq (i j : Fin 1024) : wt adj i j = if edge adj i j then (1 : EReal) else 0 := by
  unfold wt
  rcases hadj (ix2 i j) with h | h
  · have he : ¬ edge adj i j := fun hne => hne h
    rw [if_neg he, h]
    show (((0#32 : BitVec 32).toInt : ℝ) : EReal) = 0
    rw [show (0#32 : BitVec 32).toInt = 0 from by decide]; simp
  · have he : edge adj i j := by unfold edge; rw [h]; decide
    rw [if_pos he, h]
    show (((1#32 : BitVec 32).toInt : ℝ) : EReal) = 1
    rw [show (1#32 : BitVec 32).toInt = 1 from by decide]; simp

include hadj in
/-- The column sum plus one is the degree. -/
theorem deg_add_one (j : Fin 1024) : deg adj j + Ideal.ofBits .f32 0x3F800000#32 = ((degree adj j : ℝ) : EReal) := by
  unfold deg degree
  rw [ofBits_one_f32, EReal.coe_add, EReal.coe_one]
  refine congrArg (· + (1 : EReal)) ?_
  rw [← Finset.sum_boole, Cert.GcnLaw.coe_sum]
  exact Finset.sum_congr rfl fun i _ => (wt_eq adj hadj i j).trans (Cert.GcnLaw.coe_indicator _)

include hadj in
/-- The inverse square root of the degree is the normalisation weight. -/
theorem dinv_eq (j : Fin 1024) : dinv adj j = ((weight adj j : ℝ) : EReal) := by
  unfold dinv weight
  rw [deg_add_one adj hadj j]
  exact Cert.GcnLaw.rsqrt_of_pos (Cert.Spec.degree_pos adj j)

include hdata hconvW in
/-- The transposed product is the coercion of the real feature. -/
theorem xw_eq (h : Fin 128) (i : Fin 1024) : xw data convW h i = ((feature data convW i h : ℝ) : EReal) := by
  unfold xw feature
  rw [Cert.GcnLaw.coe_sum]
  refine Finset.sum_congr rfl fun d _ => ?_
  obtain ⟨a, ha⟩ := hdata (ix2 i d)
  obtain ⟨b, hb⟩ := hconvW (ix2 d h)
  rw [ha, hb, EReal.toReal_coe, EReal.toReal_coe, EReal.coe_mul, mul_comm]

include hdata hconvW hadj in
/-- The scaled feature. -/
theorem z_eq (h : Fin 128) (i : Fin 1024) :
    z data adj convW h i = ((feature data convW i h : ℝ) : EReal) * ((weight adj i : ℝ) : EReal) := by
  unfold z
  rw [xw_eq data convW hdata hconvW h i, dinv_eq adj hadj i]

include hdata hconvW hadj in
/-- The aggregation scaled by its column's weight is the normalised sum over the edges and the self loop. -/
theorem agg_mul_dinv (h : Fin 128) (j : Fin 1024) :
    agg data adj convW h j * dinv adj j = ((aggregate data adj convW j h : ℝ) : EReal) := by
  have hz : ∀ i, z data adj convW h i = ((feature data convW i h : ℝ) : EReal) * ((weight adj i : ℝ) : EReal) :=
    fun i => z_eq data adj convW hdata hconvW hadj h i
  have hw : ∀ i, wt adj i j = if edge adj i j then (1 : EReal) else 0 := fun i => wt_eq adj hadj i j
  unfold agg
  rw [dinv_eq adj hadj j]
  simp only [hz, hw]
  exact Cert.GcnLaw.dense_form (fun i => feature data convW i h) (weight adj) (fun i => edge adj i j)
    (feature data convW j h) (weight adj j)

include hdata hconvW hadj in
theorem h1_eq (h : Fin 128) (j : Fin 1024) : h1 data adj convW convB h j = layer1 data adj convW convB j h := by
  unfold h1 layer1
  rw [agg_mul_dinv data adj convW hdata hconvW hadj h j, Ideal.ofBits_zero_f32]

include hdata hconvW hadj in
theorem h2_eq (k : Fin 128) (j : Fin 1024) :
    h2 data adj convW convB fc1W fc1B k j = layer2 data adj convW convB fc1W fc1B j k := by
  unfold h2 layer2
  rw [Ideal.ofBits_zero_f32]
  refine congrArg (fun t => max (t + fc1B (ix1 k)) 0) (Finset.sum_congr rfl fun h _ => ?_)
  rw [h1_eq data adj convW convB hdata hconvW hadj h j, mul_comm]

include hdata hconvW hadj in
/-- THE KERNEL'S ENTRY FORMULA IS THE SPECIFICATION'S RESULT. -/
theorem out_eq_spec (j : Fin 1024) (o : Fin 128) :
    Entry.out data adj convW convB fc1W fc1B fc2W fc2B j o = result data adj convW convB fc1W fc1B fc2W fc2B j o := by
  unfold Entry.out result
  refine congrArg (· + fc2B (ix1 o)) (Finset.sum_congr rfl fun k _ => ?_)
  rw [h2_eq data adj convW convB fc1W fc1B hdata hconvW hadj k j]

end Cert.KernelIdeal.Bridge

end
-- ==== Proof.PreDecode.lean ====
/-
  The printed precondition read back on the extended reals.

  The precondition is one conjunction of eight "all" tests: for each float argument, every entry's absolute value is
  below +∞, and every adjacency word equals 0 or equals 1. A conjunction of one-bit words is 1 only if every word is;
  a reduction by "and" into a single result is 1 only if every element is; an extended real whose absolute value is
  below +∞ is neither infinity, so it is a real; and a word comparison that is 1 is an equality of words.
-/
import proofs.«180595_g20298015441659_fold_wed_m_942_9_alg».proof.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.Pre_finite_inputs.Decode

open Cert.Pre_finite_inputs Idealize.ShloMosaic Idealize.ShloMosaic.ValueIdx

variable [Facts]
open Facts

/-- The rank-0 shape has one index. -/
instance : Subsingleton S_.Idx := ⟨fun a b => funext fun d => d.elim0⟩

/-- The f32 word 0x7F800000 is +∞. -/
theorem ofBits_inf_f32 : Ideal.ofBits .f32 0x7F800000#32 = ⊤ := by
  simp [Ideal.ofBits, Ideal.ieee]

/-- An extended real whose absolute value is below +∞ is a real. -/
theorem real_of_abs_lt_top (x : EReal) (h : Ideal.cmp .olt (max x (-x)) ⊤ = 1#1) : ∃ r : ℝ, x = (r : EReal) := by
  unfold Ideal.cmp at h
  induction x using EReal.rec with
  | bot => simp at h
  | top => simp at h
  | coe r => exact ⟨r, rfl⟩

/-- "Every |x| is below +∞" being true says every entry of x is a real. -/
theorem all_real {s : Shape} {axes : List (Fin s.rank)} (x : FVec Ideal s .f32)
    (hb : S_.BroadcastsInDim s (![] : Fin 0 → Fin s.rank)) (hr : s.ReducesTo axes S_) (hu : 0 < S_.numel)
    (h : Host.reduce IntOp.andi (cmpf .olt (Host.absf x) (broadcastInDim s ![] hb (constant (F := Ideal) S_ .f32 0x7F800000#32)))
      (constantI S_ 1 1#1) hr hu ix0 = 1#1)
    (i : s.Idx) : ∃ r : ℝ, x i = (r : EReal) := by
  have e := Host.reduce_andi_all _ _ hr hu ix0 h i
  have hb' : broadcastInDim s ![] hb (constant (F := Ideal) S_ .f32 0x7F800000#32) i = ⊤ :=
    (broadcastInDim_apply _ hb _ i ix0 (fun ax => ax.elim0)).trans ofBits_inf_f32
  have e' : Ideal.cmp .olt (max (x i) (-(x i)))
      (broadcastInDim s ![] hb (constant (F := Ideal) S_ .f32 0x7F800000#32) i) = 1#1 := e
  rw [hb'] at e'
  exact real_of_abs_lt_top _ e'

/-- "Every word is 0 or is 1" being true says so of every entry. -/
theorem all_bit {s : Shape} {axes : List (Fin s.rank)} (x : IVec s 32)
    (hb : S_.BroadcastsInDim s (![] : Fin 0 → Fin s.rank)) (hr : s.ReducesTo axes S_) (hu : 0 < S_.numel)
    (h : Host.reduce IntOp.andi (ori (cmpi .eq x (broadcastInDim s ![] hb (constantI S_ 32 0#32)))
        (cmpi .eq x (broadcastInDim s ![] hb (constantI S_ 32 1#32)))) (constantI S_ 1 1#1) hr hu ix0 = 1#1)
    (i : s.Idx) : x i = 0#32 ∨ x i = 1#32 := by
  have e := Host.reduce_andi_all _ _ hr hu ix0 h i
  have h0 : broadcastInDim s ![] hb (constantI S_ 32 0#32) i = 0#32 :=
    broadcastInDim_apply _ hb _ i ix0 (fun ax => ax.elim0)
  have h1 : broadcastInDim s ![] hb (constantI S_ 32 1#32) i = 1#32 :=
    broadcastInDim_apply _ hb _ i ix0 (fun ax => ax.elim0)
  have e' : IntOp.ori (IntOp.cmpi .eq (x i) (broadcastInDim s ![] hb (constantI S_ 32 0#32) i))
      (IntOp.cmpi .eq (x i) (broadcastInDim s ![] hb (constantI S_ 32 1#32) i)) = 1#1 := e
  rw [h0, h1] at e'
  rcases IntOp.ori_eq_one.1 e' with c | c
  · exact Or.inl (IntOp.cmpi_eq.1 c)
  · exact Or.inr (IntOp.cmpi_eq.1 c)

/-- THE PRECONDITION READ BACK: every float argument entry is a real and every adjacency word is 0 or 1. -/
theorem decode (a0 : FVec Ideal S1024x128 .f32) (a1 : IVec S1024x1024 32) (a2 : FVec Ideal S128x128 .f32)
    (a3 : FVec Ideal S128 .f32) (a4 : FVec Ideal S128x128 .f32) (a5 : FVec Ideal S128 .f32)
    (a6 : FVec Ideal S128x128 .f32) (a7 : FVec Ideal S128 .f32)
    (h : fn (F := Ideal) a0 a1 a2 a3 a4 a5 a6 a7 = fun _ => 1#1) :
    (∀ i, ∃ r : ℝ, a0 i = (r : EReal)) ∧ (∀ i, a1 i = 0#32 ∨ a1 i = 1#32) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) ∧ (∀ i, ∃ r : ℝ, a7 i = (r : EReal)) := by
  have h40 := congrFun h ix0
  dsimp only [fn, fn_part1, fn_part2] at h40
  obtain ⟨h33, h39⟩ := IntOp.andi_eq_one.1 h40
  obtain ⟨h28, h32⟩ := IntOp.andi_eq_one.1 h33
  obtain ⟨h23, h27⟩ := IntOp.andi_eq_one.1 h28
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  exact ⟨all_real a0 _ _ _ h3, all_bit a1 _ _ _ h39, all_real a2 _ _ _ h7, all_real a3 _ _ _ h12, all_real a4 _ _ _ h17,
    all_real a5 _ _ _ h22, all_real a6 _ _ _ h27, all_real a7 _ _ _ h32⟩

end Cert.Pre_finite_inputs.Decode

end
-- ==== Proof.RefStages.lean ====
/- The reference program's value, stage by stage: each definition below is the composition of the
   operations the program prints for that stage (the outlined functions unfolded at their call
   sites), as a function of the program's ARGUMENT arrays only. The last one, `out`, is the [1024,128]
   result. Nothing is proved here; the run module shows that the program's result buffer holds `out`
   of the arguments' launch contents. -/
import proofs.«180595_g20298015441659_fold_wed_m_942_9_alg».proof.ReferenceIdeal

noncomputable section

namespace Cert.ReferenceIdeal.RefValue

open Cert.ReferenceIdeal Idealize.ShloMosaic Idealize.SL.Sem

variable {F : FTy → Type} [FloatOps F] [Facts]
open Facts₀ Facts

/-! ## The edge list out of the adjacency matrix (integer stages) -/

/-- The scalar word `b` at every position of a [1048576] array. -/
def splatE (b : BitVec 32) : IVec S1048576 32 :=
  broadcastInDim S1048576 ![] bcast_S_S1048576 (constantI S_ 32 b)

/-- The scalar word `b` at every position of a [1049600] array. -/
def splatN (b : BitVec 32) : IVec S1049600 32 :=
  broadcastInDim S1049600 ![] bcast_S_S1049600 (constantI S_ 32 b)

/-- The mask: entry (i, j) is 1 where the adjacency entry is not zero. [1024,1024] i1. -/
def mask (A : IVec S1024x1024 32) : IVec S1024x1024 1 :=
  cmpi .ne A (broadcastInDim S1024x1024 ![] bcast_S_S1024x1024 (constantI S_ 32 0#32))

/-- The running sum over a [1048576] array of words: position k holds the sum of positions 0..k
    (a window of 1048576 ending at k, padded in front with the initial value 0). -/
def cumsumE (x : IVec S1048576 32) : IVec S1048576 32 :=
  Host.reduceWindow IntOp.addi ![1048576] ![1] ![1048575] ![0] x
    (broadcastInDim S_ ![] bcast_S_S_ (constantI S_ 32 0#32))
    reduceWindows_S1048576_S1048576_w1048576s1p1048575_0 h_S_

/-- The mask flattened row-major and widened to words. [1048576] i32. -/
def maskFlat (A : IVec S1024x1024 32) : IVec S1048576 32 :=
  extui 32 (shapeCast S1048576 (mask A) shapeCasts_S1024x1024_S1048576) natLt_1_32

/-- The running count of nonzero entries, row-major: position k holds how many of the flattened
    entries 0..k are nonzero. [1048576] i32. -/
def prefixSum (A : IVec S1024x1024 32) : IVec S1048576 32 :=
  cumsumE (maskFlat A)

/-- The prefix count clipped below at 0. [1048576] i32. -/
def clipped (A : IVec S1024x1024 32) : IVec S1048576 32 :=
  maxsi (splatE 0#32) (prefixSum A)

/-- The scatter positions: the clipped prefix, with 1048576 added where negative, as a column
    of index vectors. [1048576,1] i32. -/
def binIdx (A : IVec S1024x1024 32) : IVec S1048576x1 32 :=
  broadcastInDim S1048576x1 ![0] bcast_S1048576_S1048576x1_0
    (select (cmpi .slt (clipped A) (splatE 0#32)) (addi (clipped A) (splatE 1048576#32)) (clipped A))

/-- The bins: a zero array with 1 added at each scatter position (one update per flattened
    entry). [1048576] i32. -/
def bins (A : IVec S1024x1024 32) : IVec S1048576 32 :=
  Host.scatter scatter_S1048576_S1048576x1_S1048576_n_0_0_1 IntOp.addi (splatE 0#32) (binIdx A) (splatE 1#32)

/-- The running sum of the bins: for output slot k, the flattened position of the k-th nonzero
    entry (for slots below the count). [1048576] i32. -/
def pos (A : IVec S1024x1024 32) : IVec S1048576 32 :=
  cumsumE (bins A)

/-- Floor division of each word of `x` by the scalar `c`: the truncated quotient, less 1
    where the signs differ and the remainder is not zero. -/
def floorDiv (x : IVec S1048576 32) (c : IVec S_ 32) : IVec S1048576 32 :=
  select
    (andi
      (cmpi .ne (signi x) (broadcastInDim S1048576 ![] bcast_S_S1048576 (signi c)))
      (cmpi .ne (Host.remsi x (broadcastInDim S1048576 ![] bcast_S_S1048576 c)) (splatE 0#32)))
    (subi (Host.divsi x (broadcastInDim S1048576 ![] bcast_S_S1048576 c)) (splatE 1#32))
    (Host.divsi x (broadcastInDim S1048576 ![] bcast_S_S1048576 c))

/-- The divisor a remainder uses: 1 in place of 0. Scalar i32. -/
def safeDiv (c : IVec S_ 32) : IVec S_ 32 :=
  select (cmpi .eq c (constantI S_ 32 0#32)) (constantI S_ 32 1#32) c

/-- The floored remainder of each word of `x` by the scalar `c`: the truncated remainder,
    with the divisor added where it is not zero and its sign differs from the divisor's. -/
def floorRem (x : IVec S1048576 32) (c : IVec S_ 32) : IVec S1048576 32 :=
  select
    (andi
      (cmpi .ne
        (cmpi .slt (Host.remsi x (broadcastInDim S1048576 ![] bcast_S_S1048576 (safeDiv c))) (splatE 0#32))
        (broadcastInDim S1048576 ![] bcast_S_S1048576 (cmpi .slt (safeDiv c) (constantI S_ 32 0#32))))
      (cmpi .ne (Host.remsi x (broadcastInDim S1048576 ![] bcast_S_S1048576 (safeDiv c))) (splatE 0#32)))
    (addi (Host.remsi x (broadcastInDim S1048576 ![] bcast_S_S1048576 (safeDiv c)))
      (broadcastInDim S1048576 ![] bcast_S_S1048576 (safeDiv c)))
    (Host.remsi x (broadcastInDim S1048576 ![] bcast_S_S1048576 (safeDiv c)))

/-- The row of the k-th nonzero entry before the fill: (pos div 1024) mod 1024. [1048576] i32. -/
def rowsRaw (A : IVec S1024x1024 32) : IVec S1048576 32 :=
  floorRem (floorDiv (pos A) (constantI S_ 32 1024#32)) (constantI S_ 32 1024#32)

/-- The column of the k-th nonzero entry before the fill: (pos div 1) mod 1024. [1048576] i32. -/
def colsRaw (A : IVec S1024x1024 32) : IVec S1048576 32 :=
  floorRem (floorDiv (pos A) (constantI S_ 32 1#32)) (constantI S_ 32 1024#32)

/-- The total number of nonzero entries, as the sum of the widened mask. Scalar i32. -/
def total (A : IVec S1024x1024 32) : IVec S_ 32 :=
  Host.reduce IntOp.addi (extui 32 (mask A) natLt_1_32) (constantI S_ 32 0#32) reducesTo_S1024x1024_S_d0_1 h_S_

/-- Slot k is past the nonzero entries: k ≥ total. [1048576] i1. -/
def pastEnd (A : IVec S1024x1024 32) : IVec S1048576 1 :=
  cmpi .sge (iotaInDim S1048576 32 0) (broadcastInDim S1048576 ![] bcast_S_S1048576 (total A))

/-- The edge rows: the row of the k-th nonzero entry, 0 in the slots past the end. [1048576] i32. -/
def rows (A : IVec S1024x1024 32) : IVec S1048576 32 :=
  select (pastEnd A) (splatE 0#32) (rowsRaw A)

/-- The edge columns: the column of the k-th nonzero entry, 0 in the slots past the end. [1048576] i32. -/
def cols (A : IVec S1024x1024 32) : IVec S1048576 32 :=
  select (pastEnd A) (splatE 0#32) (colsRaw A)

/-- The number of nonzero entries (the count_nonzero scalar). Scalar i32. -/
def count (A : IVec S1024x1024 32) : IVec S_ 32 :=
  Host.reduce IntOp.addi
    (extui 32 (cmpi .ne A (broadcastInDim S1024x1024 ![] bcast_S_S1024x1024 (constantI S_ 32 0#32))) natLt_1_32)
    (constantI S_ 32 0#32) reducesTo_S1024x1024_S_d0_1 h_S_

/-- Slot k holds an edge: k < count. [1048576] i1. -/
def valid (A : IVec S1024x1024 32) : IVec S1048576 1 :=
  cmpi .slt (iotaInDim S1048576 32 0) (broadcastInDim S1048576 ![] bcast_S_S1048576 (count A))

/-- The edge sources with the 1024 self loops appended: rows, then 0..1023. [1049600] i32. -/
def src (A : IVec S1024x1024 32) : IVec S1049600 32 :=
  concatenate S1049600 0 [⟨S1048576, rows A⟩, ⟨S1024, iotaInDim S1024 32 0⟩] concatenates_S1048576_S1024_S1049600_d0

/-- The edge targets with the 1024 self loops appended: cols, then 0..1023. [1049600] i32. -/
def dst (A : IVec S1024x1024 32) : IVec S1049600 32 :=
  concatenate S1049600 0 [⟨S1048576, cols A⟩, ⟨S1024, iotaInDim S1024 32 0⟩] concatenates_S1048576_S1024_S1049600_d0

/-- The edge validity with the self loops (always valid) appended. [1049600] i1. -/
def validAll (A : IVec S1024x1024 32) : IVec S1049600 1 :=
  concatenate S1049600 0
    [⟨S1048576, valid A⟩, ⟨S1024, broadcastInDim S1024 ![] bcast_S_S1024 (constantI S_ 1 1#1)⟩]
    concatenates_S1048576_S1024_S1049600_d0

/-! ## The normalised aggregation (float stages) -/

/-- The edge weights: 1.0 on a valid slot, 0.0 otherwise. [1049600] f32. -/
def ones (A : IVec S1024x1024 32) : FVec F S1049600 .f32 :=
  uitofp .f32 (validAll A)

/-- A [1049600] array of node indices, with 1024 added where negative, as a column of index
    vectors. [1049600,1] i32. -/
def wrapIdx (x : IVec S1049600 32) : IVec S1049600x1 32 :=
  broadcastInDim S1049600x1 ![0] bcast_S1049600_S1049600x1_0
    (select (cmpi .slt x (splatN 0#32)) (addi x (splatN 1024#32)) x)

/-- The degrees: the sum of the edge weights into each target node. [1024] f32. -/
def deg (A : IVec S1024x1024 32) : FVec F S1024 .f32 :=
  Host.scatterAdd scatter_S1024_S1049600x1_S1049600_n_0_0_1
    (broadcastInDim S1024 ![] bcast_S_S1024 (constant (F := F) S_ .f32 0x00000000#32))
    (broadcastInDim S1049600x1 ![0] bcast_S1049600_S1049600x1_0 (dst A))
    (ones (F := F) A)

/-- The inverse square root of the degree where it is positive, 0 elsewhere. [1024] f32. -/
def dinv (A : IVec S1024x1024 32) : FVec F S1024 .f32 :=
  select
    (cmpf .ogt (deg (F := F) A) (broadcastInDim S1024 ![] bcast_S_S1024 (constant (F := F) S_ .f32 0x00000000#32)))
    (Host.divf (broadcastInDim S1024 ![] bcast_S_S1024 (constant (F := F) S_ .f32 0x3F800000#32))
      (Host.sqrt (deg (F := F) A)))
    (broadcastInDim S1024 ![] bcast_S_S1024 (constant (F := F) S_ .f32 0x00000000#32))

/-- The transformed features: data times the convolution weight. [1024,128] f32. -/
def xw (data : FVec F S1024x128 .f32) (convW : FVec F S128x128 .f32) : FVec F S1024x128 .f32 :=
  Host.dotGeneral dot_S1024x128_S128x128_S1024x128_1_0_0_1_n_n none data convW

/-- The edge normalisation: dinv at the source times dinv at the target. [1049600] f32. -/
def norm (A : IVec S1024x1024 32) : FVec F S1049600 .f32 :=
  mulf
    (Host.gather gather_S1024_S1049600x1_S1049600_n_0_n_n_0_1_1 (dinv (F := F) A) (wrapIdx (src A)))
    (Host.gather gather_S1024_S1049600x1_S1049600_n_0_n_n_0_1_1 (dinv (F := F) A) (wrapIdx (dst A)))

/-- The messages: the transformed features of the source node, scaled by the normalisation times
    the edge weight. [1049600,128] f32. -/
def msgs (data : FVec F S1024x128 .f32) (A : IVec S1024x1024 32) (convW : FVec F S128x128 .f32) :
    FVec F S1049600x128 .f32 :=
  mulf
    (Host.gather gather_S1024x128_S1049600x1_S1049600x128_1_0_n_n_0_1_1128 (xw data convW) (wrapIdx (src A)))
    (broadcastInDim S1049600x128 ![0, 1] bcast_S1049600x1_S1049600x128_0_1
      (broadcastInDim S1049600x1 ![0] bcast_S1049600_S1049600x1_0
        (mulf (norm (F := F) A) (ones (F := F) A))))

/-- The aggregation: the messages summed into their target nodes. [1024,128] f32. -/
def agg (data : FVec F S1024x128 .f32) (A : IVec S1024x1024 32) (convW : FVec F S128x128 .f32) :
    FVec F S1024x128 .f32 :=
  Host.scatterAdd scatter_S1024x128_S1049600x1_S1049600x128_1_0_0_1
    (broadcastInDim S1024x128 ![] bcast_S_S1024x128 (constant (F := F) S_ .f32 0x00000000#32))
    (broadcastInDim S1049600x1 ![0] bcast_S1049600_S1049600x1_0 (dst A))
    (msgs data A convW)

/-- A [128] bias as a [1024,128] array: the same row at every node. -/
def biasRows (b : FVec F S128 .f32) : FVec F S1024x128 .f32 :=
  broadcastInDim S1024x128 ![0, 1] bcast_S1x128_S1024x128_0_1 (broadcastInDim S1x128 ![1] bcast_S128_S1x128_1 b)

/-- The maximum with 0.0, entry by entry. [1024,128] f32. -/
def relu (x : FVec F S1024x128 .f32) : FVec F S1024x128 .f32 :=
  maximumf x (broadcastInDim S1024x128 ![] bcast_S_S1024x128 (constant (F := F) S_ .f32 0x00000000#32))

/-- The first layer: the aggregation plus the convolution bias, then the maximum with 0. [1024,128] f32. -/
def layer1 (data : FVec F S1024x128 .f32) (A : IVec S1024x1024 32) (convW : FVec F S128x128 .f32)
    (convB : FVec F S128 .f32) : FVec F S1024x128 .f32 :=
  relu (addf (agg data A convW) (biasRows convB))

/-- The second layer: the first times the first dense weight, plus its bias, then the maximum with 0. -/
def layer2 (data : FVec F S1024x128 .f32) (A : IVec S1024x1024 32) (convW : FVec F S128x128 .f32)
    (convB : FVec F S128 .f32) (fc1W : FVec F S128x128 .f32) (fc1B : FVec F S128 .f32) : FVec F S1024x128 .f32 :=
  relu (addf (Host.dotGeneral dot_S1024x128_S128x128_S1024x128_1_0_0_1_n_n none (layer1 data A convW convB) fc1W)
    (biasRows fc1B))

/-- The result: the second layer times the second dense weight, plus its bias. [1024,128] f32. -/
def out (data : FVec F S1024x128 .f32) (A : IVec S1024x1024 32) (convW : FVec F S128x128 .f32)
    (convB : FVec F S128 .f32) (fc1W : FVec F S128x128 .f32) (fc1B : FVec F S128 .f32)
    (fc2W : FVec F S128x128 .f32) (fc2B : FVec F S128 .f32) : FVec F S1024x128 .f32 :=
  addf (Host.dotGeneral dot_S1024x128_S128x128_S1024x128_1_0_0_1_n_n none (layer2 data A convW convB fc1W fc1B) fc2W)
    (biasRows fc2B)

end Cert.ReferenceIdeal.RefValue

end
-- ==== Proof.RefRun.lean ====
/- The run of the reference program, read back. Its @main, with the outlined functions unfolded at
   their call sites, is a straight line of 205 host operations (147 in the first window, 58 in the second).
   The line is cut into four stretches; for each stretch the contents of the buffers that later
   stretches read are computed from the contents the stretch starts from (each operation's result at its
   own buffer, every other buffer unchanged), and stated with the stage functions of the stages module.
   Chaining the four stretches gives: from any memory with zero counters every weakly fair execution
   terminates with the result buffer at `out` of the eight arguments' launch contents and the arguments
   unchanged. An operation of an outlined function is listed over the buffers of the call it belongs to, its
   function at the buffers' literal types (the same operation as the typed-reference form the program
   prints: the transports along the buffers' type equations are identities). -/
import proofs.«180595_g20298015441659_fold_wed_m_942_9_alg».proof.Proof.RefStages
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo

variable {F : FTy → Type} [FloatOps F] [Facts]
open Facts₀ Facts
/-- Two arrays one after the other along axis 0: a [1048576] array, then a [1024] array. -/
def cat2 {α : Type} (a : S1048576.Idx → α) (b : S1024.Idx → α) : S1049600.Idx → α :=
  concatenate S1049600 0 [⟨S1048576, a⟩, ⟨S1024, b⟩] concatenates_S1048576_S1024_S1049600_d0

/-- The first 28 operations: the mask, its flattened running count, the bins and their running sum. -/
abbrev opsA : List (HloOp τ sig (Elt F)) :=
  [ StableHlo.nullary main_c (constantI S_ 32 0#32),
    StableHlo.unary main_c main_v0 (broadcastInDim S1024x1024 ![] bcast_S_S1024x1024 : (⟨S_, .i32⟩ : BufTy).Contents (Elt F) → (⟨S1024x1024, .i32⟩ : BufTy).Contents (Elt F)),
    StableHlo.binary main_arg1 main_v0 main_v1 (cmpi .ne : (⟨S1024x1024, .i32⟩ : BufTy).Contents (Elt F) → (⟨S1024x1024, .i32⟩ : BufTy).Contents (Elt F) → (⟨S1024x1024, .i1⟩ : BufTy).Contents (Elt F)),
    StableHlo.reshape main_v1 main_call0_v0 rfl shapeCasts_S1024x1024_S1048576,
    StableHlo.unary main_call0_v0 main_call0_v1 ((extui 32 · natLt_1_32) : (⟨S1048576, .i1⟩ : BufTy).Contents (Elt F) → (⟨S1048576, .i32⟩ : BufTy).Contents (Elt F)),
    StableHlo.nullary main_call0_call0_c (constantI S_ 32 0#32),
    StableHlo.unary main_call0_call0_c main_call0_call0_v0 ((broadcastInDim S_ ![] bcast_S_S_) : (⟨S_, .i32⟩ : BufTy).Contents (Elt F) → (⟨S_, .i32⟩ : BufTy).Contents (Elt F)),
    StableHlo.binary main_call0_v1 main_call0_call0_v0 main_v2 ((fun x v => Host.reduceWindow IntOp.addi ![1048576] ![1] ![1048575] ![0] x v reduceWindows_S1048576_S1048576_w1048576s1p1048575_0 h_S_) : (⟨S1048576, .i32⟩ : BufTy).Contents (Elt F) → (⟨S_, .i32⟩ : BufTy).Contents (Elt F) → (⟨S1048576, .i32⟩ : BufTy).Contents (Elt F)),
    StableHlo.nullary main_c_0 (constantI S_ 32 0#32),
    StableHlo.unary main_c_0 main_v3 (broadcastInDim S1048576 ![] bcast_S_S1048576 : (⟨S_, .i32⟩ : BufTy).Contents (Elt F) → (⟨S1048576, .i32⟩ : BufTy).Contents (Elt F)),
    StableHlo.nullary main_c_1 (constantI S_ 32 0#32),
    StableHlo.unary main_c_1 main_call1_v0 (id : (⟨S_, .i32⟩ : BufTy).Contents (Elt F) → (⟨S_, .i32⟩ : BufTy).Contents (Elt F)),
    StableHlo.unary main_call1_v0 main_call1_v1 ((broadcastInDim S1048576 ![] bcast_S_S1048576) : (⟨S_, .i32⟩ : BufTy).Contents (Elt F) → (⟨S1048576, .i32⟩ : BufTy).Contents (Elt F)),
    StableHlo.binary main_call1_v1 main_v2 main_v4 (maxsi : (⟨S1048576, .i32⟩ : BufTy).Contents (Elt F) → (⟨S1048576, .i32⟩ : BufTy).Contents (Elt F) → (⟨S1048576, .i32⟩ : BufTy).Contents (Elt F)),
    StableHlo.nullary main_c_2 (constantI S_ 32 0#32),
    StableHlo.unary main_c_2 main_v5 (broadcastInDim S1048576 ![] bcast_S_S1048576 : (⟨S_, .i32⟩ : BufTy).Contents (Elt F) → (⟨S1048576, .i32⟩ : BufTy).Contents (Elt F)),
    StableHlo.binary main_v4 main_v5 main_v6 (cmpi .slt : (⟨S1048576, .i32⟩ : BufTy).Contents (Elt F) → (⟨S1048576, .i32⟩ : BufTy).Contents (Elt F) → (⟨S1048576, .i1⟩ : BufTy).Contents (Elt F)),
    StableHlo.nullary main_c_3 (constantI S_ 32 1048576#32),
    StableHlo.unary main_c_3 main_v7 (broadcastInDim S1048576 ![] bcast_S_S1048576 : (⟨S_, .i32⟩ : BufTy).Contents (Elt F) → (⟨S1048576, .i32⟩ : BufTy).Contents (Elt F)),
    StableHlo.binary main_v4 main_v7 main_v8 (addi : (⟨S1048576, .i32⟩ : BufTy).Contents (Elt F) → (⟨S1048576, .i32⟩ : BufTy).Contents (Elt F) → (⟨S1048576, .i32⟩ : BufTy).Contents (Elt F)),
    StableHlo.ternary main_v6 main_v8 main_v4 main_v9 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v9 main_v10 (broadcastInDim S1048576x1 ![0] bcast_S1048576_S1048576x1_0 : (⟨S1048576, .i32⟩ : BufTy).Contents (Elt F) → (⟨S1048576x1, .i32⟩ : BufTy).Contents (Elt F)),
    StableHlo.nullary main_c_4 (constantI S_ 32 1#32),
    StableHlo.unary main_c_4 main_v11 (broadcastInDim S1048576 ![] bcast_S_S1048576 : (⟨S_, .i32⟩ : BufTy).Contents (Elt F) → (⟨S1048576, .i32⟩ : BufTy).Contents (Elt F)),
    StableHlo.ternary main_v3 main_v10 main_v11 main_v12 ((fun x i u => Host.scatter scatter_S1048576_S1048576x1_S1048576_n_0_0_1 IntOp.addi x i u) : (⟨S1048576, .i32⟩ : BufTy).Contents (Elt F) → (⟨S1048576x1, .i32⟩ : BufTy).Contents (Elt F) → (⟨S1048576, .i32⟩ : BufTy).Contents (Elt F) → (⟨S1048576, .i32⟩ : BufTy).Contents (Elt F)),
    StableHlo.nullary main_call2_call0_c (constantI S_ 32 0#32),
    StableHlo.unary main_call2_call0_c main_call2_call0_v0 ((broadcastInDim S_ ![] bcast_S_S_) : (⟨S_, .i32⟩ : BufTy).Contents (Elt F) → (⟨S_, .i32⟩ : BufTy).Contents (Elt F)),
    StableHlo.binary main_v12 main_call2_call0_v0 main_v13 ((fun x v => Host.reduceWindow IntOp.addi ![1048576] ![1] ![1048575] ![0] x v reduceWindows_S1048576_S1048576_w1048576s1p1048575_0 h_S_) : (⟨S1048576, .i32⟩ : BufTy).Contents (Elt F) → (⟨S_, .i32⟩ : BufTy).Contents (Elt F) → (⟨S1048576, .i32⟩ : BufTy).Contents (Elt F)) ]

/-- The next 78 operations: the two floor-division / remainder chains giving the row and the column of each slot. -/
abbrev opsB : List (HloOp τ sig (Elt F)) :=
  [ StableHlo.nullary main_c_5 (constantI S_ 32 1024#32),
    StableHlo.unary main_c_5 main_call3_v0 ((broadcastInDim S1048576 ![] bcast_S_S1048576) : (⟨S_, .i32⟩ : BufTy).Contents (Elt F) → (⟨S1048576, .i32⟩ : BufTy).Contents (Elt F)),
    StableHlo.binary main_v13 main_call3_v0 main_call3_v1 (Host.divsi : (⟨S1048576, .i32⟩ : BufTy).Contents (Elt F) → (⟨S1048576, .i32⟩ : BufTy).Contents (Elt F) → (⟨S1048576, .i32⟩ : BufTy).Contents (Elt F)),
    StableHlo.unary main_v13 main_call3_v2 (signi : (⟨S1048576, .i32⟩ : BufTy).Contents (Elt F) → (⟨S1048576, .i32⟩ : BufTy).Contents (Elt F)),
    StableHlo.unary main_c_5 main_call3_v3 (signi : (⟨S_, .i32⟩ : BufTy).Contents (Elt F) → (⟨S_, .i32⟩ : BufTy).Contents (Elt F)),
    StableHlo.unary main_call3_v3 main_call3_v4 ((broadcastInDim S1048576 ![] bcast_S_S1048576) : (⟨S_, .i32⟩ : BufTy).Contents (Elt F) → (⟨S1048576, .i32⟩ : BufTy).Contents (Elt F)),
    StableHlo.binary main_call3_v2 main_call3_v4 main_call3_v5 ((cmpi .ne) : (⟨S1048576, .i32⟩ : BufTy).Contents (Elt F) → (⟨S1048576, .i32⟩ : BufTy).Contents (Elt F) → (⟨S1048576, .i1⟩ : BufTy).Contents (Elt F)),
    StableHlo.unary main_c_5 main_call3_v6 ((broadcastInDim S1048576 ![] bcast_S_S1048576) : (⟨S_, .i32⟩ : BufTy).Contents (Elt F) → (⟨S1048576, .i32⟩ : BufTy).Contents (Elt F)),
    StableHlo.binary main_v13 main_call3_v6 main_call3_v7 (Host.remsi : (⟨S1048576, .i32⟩ : BufTy).Contents (Elt F) → (⟨S1048576, .i32⟩ : BufTy).Contents (Elt F) → (⟨S1048576, .i32⟩ : BufTy).Contents (Elt F)),
    StableHlo.nullary main_call3_c (constantI S_ 32 0#32),
    StableHlo.unary main_call3_c main_call3_v8 ((broadcastInDim S1048576 ![] bcast_S_S1048576) : (⟨S_, .i32⟩ : BufTy).Contents (Elt F) → (⟨S1048576, .i32⟩ : BufTy).Contents (Elt F)),
    StableHlo.binary main_call3_v7 main_call3_v8 main_call3_v9 ((cmpi .ne) : (⟨S1048576, .i32⟩ : BufTy).Contents (Elt F) → (⟨S1048576, .i32⟩ : BufTy).Contents (Elt F) → (⟨S1048576, .i1⟩ : BufTy).Contents (Elt F)),
    StableHlo.binary main_call3_v5 main_call3_v9 main_call3_v10 (andi : (⟨S1048576, .i1⟩ : BufTy).Contents (Elt F) → (⟨S1048576, .i1⟩ : BufTy).Contents (Elt F) → (⟨S1048576, .i1⟩ : BufTy).Contents (Elt F)),
    StableHlo.nullary main_call3_c_0 (constantI S_ 32 1#32),
    StableHlo.unary main_call3_c_0 main_call3_v11 ((broadcastInDim S1048576 ![] bcast_S_S1048576) : (⟨S_, .i32⟩ : BufTy).Contents (Elt F) → (⟨S1048576, .i32⟩ : BufTy).Contents (Elt F)),
    StableHlo.binary main_call3_v1 main_call3_v11 main_call3_v12 (subi : (⟨S1048576, .i32⟩ : BufTy).Contents (Elt F) → (⟨S1048576, .i32⟩ : BufTy).Contents (Elt F) → (⟨S1048576, .i32⟩ : BufTy).Contents (Elt F)),
    StableHlo.ternary main_call3_v10 main_call3_v12 main_call3_v1 main_v14 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.nullary main_c_6 (constantI S_ 32 1024#32),
    StableHlo.unary main_c_6 main_call4_v0 (id : (⟨S_, .i32⟩ : BufTy).Contents (Elt F) → (⟨S_, .i32⟩ : BufTy).Contents (Elt F)),
    StableHlo.nullary main_call4_c (constantI S_ 32 0#32),
    StableHlo.binary main_call4_v0 main_call4_c main_call4_v1 ((cmpi .eq) : (⟨S_, .i32⟩ : BufTy).Contents (Elt F) → (⟨S_, .i32⟩ : BufTy).Contents (Elt F) → (⟨S_, .i1⟩ : BufTy).Contents (Elt F)),
    StableHlo.nullary main_call4_c_0 (constantI S_ 32 1#32),
    StableHlo.ternary main_call4_v1 main_call4_c_0 main_call4_v0 main_call4_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_call4_v2 main_call4_v3 ((broadcastInDim S1048576 ![] bcast_S_S1048576) : (⟨S_, .i32⟩ : BufTy).Contents (Elt F) → (⟨S1048576, .i32⟩ : BufTy).Contents (Elt F)),
    StableHlo.binary main_v14 main_call4_v3 main_call4_v4 (Host.remsi : (⟨S1048576, .i32⟩ : BufTy).Contents (Elt F) → (⟨S1048576, .i32⟩ : BufTy).Contents (Elt F) → (⟨S1048576, .i32⟩ : BufTy).Contents (Elt F)),
    StableHlo.nullary main_call4_c_1 (constantI S_ 32 0#32),
    StableHlo.unary main_call4_c_1 main_call4_v5 ((broadcastInDim S1048576 ![] bcast_S_S1048576) : (⟨S_, .i32⟩ : BufTy).Contents (Elt F) → (⟨S1048576, .i32⟩ : BufTy).Contents (Elt F)),
    StableHlo.binary main_call4_v4 main_call4_v5 main_call4_v6 ((cmpi .ne) : (⟨S1048576, .i32⟩ : BufTy).Contents (Elt F) → (⟨S1048576, .i32⟩ : BufTy).Contents (Elt F) → (⟨S1048576, .i1⟩ : BufTy).Contents (Elt F)),
    StableHlo.nullary main_call4_c_2 (constantI S_ 32 0#32),
    StableHlo.unary main_call4_c_2 main_call4_v7 ((broadcastInDim S1048576 ![] bcast_S_S1048576) : (⟨S_, .i32⟩ : BufTy).Contents (Elt F) → (⟨S1048576, .i32⟩ : BufTy).Contents (Elt F)),
    StableHlo.binary main_call4_v4 main_call4_v7 main_call4_v8 ((cmpi .slt) : (⟨S1048576, .i32⟩ : BufTy).Contents (Elt F) → (⟨S1048576, .i32⟩ : BufTy).Contents (Elt F) → (⟨S1048576, .i1⟩ : BufTy).Contents (Elt F)),
    StableHlo.nullary main_call4_c_3 (constantI S_ 32 0#32),
    StableHlo.binary main_call4_v2 main_call4_c_3 main_call4_v9 ((cmpi .slt) : (⟨S_, .i32⟩ : BufTy).Contents (Elt F) → (⟨S_, .i32⟩ : BufTy).Contents (Elt F) → (⟨S_, .i1⟩ : BufTy).Contents (Elt F)),
    StableHlo.unary main_call4_v9 main_call4_v10 ((broadcastInDim S1048576 ![] bcast_S_S1048576) : (⟨S_, .i1⟩ : BufTy).Contents (Elt F) → (⟨S1048576, .i1⟩ : BufTy).Contents (Elt F)),
    StableHlo.binary main_call4_v8 main_call4_v10 main_call4_v11 ((cmpi .ne) : (⟨S1048576, .i1⟩ : BufTy).Contents (Elt F) → (⟨S1048576, .i1⟩ : BufTy).Contents (Elt F) → (⟨S1048576, .i1⟩ : BufTy).Contents (Elt F)),
    StableHlo.binary main_call4_v11 main_call4_v6 main_call4_v12 (andi : (⟨S1048576, .i1⟩ : BufTy).Contents (Elt F) → (⟨S1048576, .i1⟩ : BufTy).Contents (Elt F) → (⟨S1048576, .i1⟩ : BufTy).Contents (Elt F)),
    StableHlo.unary main_call4_v2 main_call4_v13 ((broadcastInDim S1048576 ![] bcast_S_S1048576) : (⟨S_, .i32⟩ : BufTy).Contents (Elt F) → (⟨S1048576, .i32⟩ : BufTy).Contents (Elt F)),
    StableHlo.binary main_call4_v4 main_call4_v13 main_call4_v14 (addi : (⟨S1048576, .i32⟩ : BufTy).Contents (Elt F) → (⟨S1048576, .i32⟩ : BufTy).Contents (Elt F) → (⟨S1048576, .i32⟩ : BufTy).Contents (Elt F)),
    StableHlo.ternary main_call4_v12 main_call4_v14 main_call4_v4 main_v15 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.nullary main_c_7 (constantI S_ 32 1#32),
    StableHlo.unary main_c_7 main_call5_v0 ((broadcastInDim S1048576 ![] bcast_S_S1048576) : (⟨S_, .i32⟩ : BufTy).Contents (Elt F) → (⟨S1048576, .i32⟩ : BufTy).Contents (Elt F)),
    StableHlo.binary main_v13 main_call5_v0 main_call5_v1 (Host.divsi : (⟨S1048576, .i32⟩ : BufTy).Contents (Elt F) → (⟨S1048576, .i32⟩ : BufTy).Contents (Elt F) → (⟨S1048576, .i32⟩ : BufTy).Contents (Elt F)),
    StableHlo.unary main_v13 main_call5_v2 (signi : (⟨S1048576, .i32⟩ : BufTy).Contents (Elt F) → (⟨S1048576, .i32⟩ : BufTy).Contents (Elt F)),
    StableHlo.unary main_c_7 main_call5_v3 (signi : (⟨S_, .i32⟩ : BufTy).Contents (Elt F) → (⟨S_, .i32⟩ : BufTy).Contents (Elt F)),
    StableHlo.unary main_call5_v3 main_call5_v4 ((broadcastInDim S1048576 ![] bcast_S_S1048576) : (⟨S_, .i32⟩ : BufTy).Contents (Elt F) → (⟨S1048576, .i32⟩ : BufTy).Contents (Elt F)),
    StableHlo.binary main_call5_v2 main_call5_v4 main_call5_v5 ((cmpi .ne) : (⟨S1048576, .i32⟩ : BufTy).Contents (Elt F) → (⟨S1048576, .i32⟩ : BufTy).Contents (Elt F) → (⟨S1048576, .i1⟩ : BufTy).Contents (Elt F)),
    StableHlo.unary main_c_7 main_call5_v6 ((broadcastInDim S1048576 ![] bcast_S_S1048576) : (⟨S_, .i32⟩ : BufTy).Contents (Elt F) → (⟨S1048576, .i32⟩ : BufTy).Contents (Elt F)),
    StableHlo.binary main_v13 main_call5_v6 main_call5_v7 (Host.remsi : (⟨S1048576, .i32⟩ : BufTy).Contents (Elt F) → (⟨S1048576, .i32⟩ : BufTy).Contents (Elt F) → (⟨S1048576, .i32⟩ : BufTy).Contents (Elt F)),
    StableHlo.nullary main_call5_c (constantI S_ 32 0#32),
    StableHlo.unary main_call5_c main_call5_v8 ((broadcastInDim S1048576 ![] bcast_S_S1048576) : (⟨S_, .i32⟩ : BufTy).Contents (Elt F) → (⟨S1048576, .i32⟩ : BufTy).Contents (Elt F)),
    StableHlo.binary main_call5_v7 main_call5_v8 main_call5_v9 ((cmpi .ne) : (⟨S1048576, .i32⟩ : BufTy).Contents (Elt F) → (⟨S1048576, .i32⟩ : BufTy).Contents (Elt F) → (⟨S1048576, .i1⟩ : BufTy).Contents (Elt F)),
    StableHlo.binary main_call5_v5 main_call5_v9 main_call5_v10 (andi : (⟨S1048576, .i1⟩ : BufTy).Contents (Elt F) → (⟨S1048576, .i1⟩ : BufTy).Contents (Elt F) → (⟨S1048576, .i1⟩ : BufTy).Contents (Elt F)),
    StableHlo.nullary main_call5_c_0 (constantI S_ 32 1#32),
    StableHlo.unary main_call5_c_0 main_call5_v11 ((broadcastInDim S1048576 ![] bcast_S_S1048576) : (⟨S_, .i32⟩ : BufTy).Contents (Elt F) → (⟨S1048576, .i32⟩ : BufTy).Contents (Elt F)),
    StableHlo.binary main_call5_v1 main_call5_v11 main_call5_v12 (subi : (⟨S1048576, .i32⟩ : BufTy).Contents (Elt F) → (⟨S1048576, .i32⟩ : BufTy).Contents (Elt F) → (⟨S1048576, .i32⟩ : BufTy).Contents (Elt F)),
    StableHlo.ternary main_call5_v10 main_call5_v12 main_call5_v1 main_v16 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.nullary main_c_8 (constantI S_ 32 1024#32),
    StableHlo.unary main_c_8 main_call6_v0 (id : (⟨S_, .i32⟩ : BufTy).Contents (Elt F) → (⟨S_, .i32⟩ : BufTy).Contents (Elt F)),
    StableHlo.nullary main_call6_c (constantI S_ 32 0#32),
    StableHlo.binary main_call6_v0 main_call6_c main_call6_v1 ((cmpi .eq) : (⟨S_, .i32⟩ : BufTy).Contents (Elt F) → (⟨S_, .i32⟩ : BufTy).Contents (Elt F) → (⟨S_, .i1⟩ : BufTy).Contents (Elt F)),
    StableHlo.nullary main_call6_c_0 (constantI S_ 32 1#32),
    StableHlo.ternary main_call6_v1 main_call6_c_0 main_call6_v0 main_call6_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_call6_v2 main_call6_v3 ((broadcastInDim S1048576 ![] bcast_S_S1048576) : (⟨S_, .i32⟩ : BufTy).Contents (Elt F) → (⟨S1048576, .i32⟩ : BufTy).Contents (Elt F)),
    StableHlo.binary main_v16 main_call6_v3 main_call6_v4 (Host.remsi : (⟨S1048576, .i32⟩ : BufTy).Contents (Elt F) → (⟨S1048576, .i32⟩ : BufTy).Contents (Elt F) → (⟨S1048576, .i32⟩ : BufTy).Contents (Elt F)),
    StableHlo.nullary main_call6_c_1 (constantI S_ 32 0#32),
    StableHlo.unary main_call6_c_1 main_call6_v5 ((broadcastInDim S1048576 ![] bcast_S_S1048576) : (⟨S_, .i32⟩ : BufTy).Contents (Elt F) → (⟨S1048576, .i32⟩ : BufTy).Contents (Elt F)),
    StableHlo.binary main_call6_v4 main_call6_v5 main_call6_v6 ((cmpi .ne) : (⟨S1048576, .i32⟩ : BufTy).Contents (Elt F) → (⟨S1048576, .i32⟩ : BufTy).Contents (Elt F) → (⟨S1048576, .i1⟩ : BufTy).Contents (Elt F)),
    StableHlo.nullary main_call6_c_2 (constantI S_ 32 0#32),
    StableHlo.unary main_call6_c_2 main_call6_v7 ((broadcastInDim S1048576 ![] bcast_S_S1048576) : (⟨S_, .i32⟩ : BufTy).Contents (Elt F) → (⟨S1048576, .i32⟩ : BufTy).Contents (Elt F)),
    StableHlo.binary main_call6_v4 main_call6_v7 main_call6_v8 ((cmpi .slt) : (⟨S1048576, .i32⟩ : BufTy).Contents (Elt F) → (⟨S1048576, .i32⟩ : BufTy).Contents (Elt F) → (⟨S1048576, .i1⟩ : BufTy).Contents (Elt F)),
    StableHlo.nullary main_call6_c_3 (constantI S_ 32 0#32),
    StableHlo.binary main_call6_v2 main_call6_c_3 main_call6_v9 ((cmpi .slt) : (⟨S_, .i32⟩ : BufTy).Contents (Elt F) → (⟨S_, .i32⟩ : BufTy).Contents (Elt F) → (⟨S_, .i1⟩ : BufTy).Contents (Elt F)),
    StableHlo.unary main_call6_v9 main_call6_v10 ((broadcastInDim S1048576 ![] bcast_S_S1048576) : (⟨S_, .i1⟩ : BufTy).Contents (Elt F) → (⟨S1048576, .i1⟩ : BufTy).Contents (Elt F)),
    StableHlo.binary main_call6_v8 main_call6_v10 main_call6_v11 ((cmpi .ne) : (⟨S1048576, .i1⟩ : BufTy).Contents (Elt F) → (⟨S1048576, .i1⟩ : BufTy).Contents (Elt F) → (⟨S1048576, .i1⟩ : BufTy).Contents (Elt F)),
    StableHlo.binary main_call6_v11 main_call6_v6 main_call6_v12 (andi : (⟨S1048576, .i1⟩ : BufTy).Contents (Elt F) → (⟨S1048576, .i1⟩ : BufTy).Contents (Elt F) → (⟨S1048576, .i1⟩ : BufTy).Contents (Elt F)),
    StableHlo.unary main_call6_v2 main_call6_v13 ((broadcastInDim S1048576 ![] bcast_S_S1048576) : (⟨S_, .i32⟩ : BufTy).Contents (Elt F) → (⟨S1048576, .i32⟩ : BufTy).Contents (Elt F)),
    StableHlo.binary main_call6_v4 main_call6_v13 main_call6_v14 (addi : (⟨S1048576, .i32⟩ : BufTy).Contents (Elt F) → (⟨S1048576, .i32⟩ : BufTy).Contents (Elt F) → (⟨S1048576, .i32⟩ : BufTy).Contents (Elt F)),
    StableHlo.ternary main_call6_v12 main_call6_v14 main_call6_v4 main_v17 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)) ]

/-- The next 41 operations: the fill of the unused slots, the edge lists with the self loops, the edge weights, the degrees and the start of their inverse square root. -/
abbrev opsC : List (HloOp τ sig (Elt F)) :=
  [ StableHlo.nullary main_v18 (iotaInDim S1048576 32 0),
    StableHlo.unary main_v1 main_v19 ((extui 32 · natLt_1_32) : (⟨S1024x1024, .i1⟩ : BufTy).Contents (Elt F) → (⟨S1024x1024, .i32⟩ : BufTy).Contents (Elt F)),
    StableHlo.nullary main_c_9 (constantI S_ 32 0#32),
    StableHlo.binary main_v19 main_c_9 main_v20 ((fun x v => Host.reduce IntOp.addi x v reducesTo_S1024x1024_S_d0_1 h_S_) : (⟨S1024x1024, .i32⟩ : BufTy).Contents (Elt F) → (⟨S_, .i32⟩ : BufTy).Contents (Elt F) → (⟨S_, .i32⟩ : BufTy).Contents (Elt F)),
    StableHlo.unary main_v20 main_v21 (broadcastInDim S1048576 ![] bcast_S_S1048576 : (⟨S_, .i32⟩ : BufTy).Contents (Elt F) → (⟨S1048576, .i32⟩ : BufTy).Contents (Elt F)),
    StableHlo.binary main_v18 main_v21 main_v22 (cmpi .sge : (⟨S1048576, .i32⟩ : BufTy).Contents (Elt F) → (⟨S1048576, .i32⟩ : BufTy).Contents (Elt F) → (⟨S1048576, .i1⟩ : BufTy).Contents (Elt F)),
    StableHlo.nullary main_c_10 (constantI S_ 32 0#32),
    StableHlo.unary main_c_10 main_call7_v0 (id : (⟨S_, .i32⟩ : BufTy).Contents (Elt F) → (⟨S_, .i32⟩ : BufTy).Contents (Elt F)),
    StableHlo.unary main_call7_v0 main_call7_v1 ((broadcastInDim S1048576 ![] bcast_S_S1048576) : (⟨S_, .i32⟩ : BufTy).Contents (Elt F) → (⟨S1048576, .i32⟩ : BufTy).Contents (Elt F)),
    StableHlo.ternary main_v22 main_call7_v1 main_v15 main_v23 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.nullary main_c_11 (constantI S_ 32 0#32),
    StableHlo.unary main_c_11 main_call8_v0 (id : (⟨S_, .i32⟩ : BufTy).Contents (Elt F) → (⟨S_, .i32⟩ : BufTy).Contents (Elt F)),
    StableHlo.unary main_call8_v0 main_call8_v1 ((broadcastInDim S1048576 ![] bcast_S_S1048576) : (⟨S_, .i32⟩ : BufTy).Contents (Elt F) → (⟨S1048576, .i32⟩ : BufTy).Contents (Elt F)),
    StableHlo.ternary main_v22 main_call8_v1 main_v17 main_v24 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.nullary main_v25 (iotaInDim S1048576 32 0),
    StableHlo.nullary main_call9_c (constantI S_ 32 0#32),
    StableHlo.unary main_call9_c main_call9_v0 ((broadcastInDim S1024x1024 ![] bcast_S_S1024x1024) : (⟨S_, .i32⟩ : BufTy).Contents (Elt F) → (⟨S1024x1024, .i32⟩ : BufTy).Contents (Elt F)),
    StableHlo.binary main_arg1 main_call9_v0 main_call9_v1 ((cmpi .ne) : (⟨S1024x1024, .i32⟩ : BufTy).Contents (Elt F) → (⟨S1024x1024, .i32⟩ : BufTy).Contents (Elt F) → (⟨S1024x1024, .i1⟩ : BufTy).Contents (Elt F)),
    StableHlo.unary main_call9_v1 main_call9_v2 ((extui 32 · natLt_1_32) : (⟨S1024x1024, .i1⟩ : BufTy).Contents (Elt F) → (⟨S1024x1024, .i32⟩ : BufTy).Contents (Elt F)),
    StableHlo.nullary main_call9_c_0 (constantI S_ 32 0#32),
    StableHlo.binary main_call9_v2 main_call9_c_0 main_v26 ((fun x v => Host.reduce IntOp.addi x v reducesTo_S1024x1024_S_d0_1 h_S_) : (⟨S1024x1024, .i32⟩ : BufTy).Contents (Elt F) → (⟨S_, .i32⟩ : BufTy).Contents (Elt F) → (⟨S_, .i32⟩ : BufTy).Contents (Elt F)),
    StableHlo.unary main_v26 main_v27 (broadcastInDim S1048576 ![] bcast_S_S1048576 : (⟨S_, .i32⟩ : BufTy).Contents (Elt F) → (⟨S1048576, .i32⟩ : BufTy).Contents (Elt F)),
    StableHlo.binary main_v25 main_v27 main_v28 (cmpi .slt : (⟨S1048576, .i32⟩ : BufTy).Contents (Elt F) → (⟨S1048576, .i32⟩ : BufTy).Contents (Elt F) → (⟨S1048576, .i1⟩ : BufTy).Contents (Elt F)),
    StableHlo.binary main_arg0 main_arg2 main_v29 ((fun l r => Host.dotGeneral dot_S1024x128_S128x128_S1024x128_1_0_0_1_n_n none l r) : (⟨S1024x128, .f32⟩ : BufTy).Contents (Elt F) → (⟨S128x128, .f32⟩ : BufTy).Contents (Elt F) → (⟨S1024x128, .f32⟩ : BufTy).Contents (Elt F)),
    StableHlo.nullary main_v30 (iotaInDim S1024 32 0),
    StableHlo.binary main_v23 main_v30 main_v31 (cat2 : (⟨S1048576, .i32⟩ : BufTy).Contents (Elt F) → (⟨S1024, .i32⟩ : BufTy).Contents (Elt F) → (⟨S1049600, .i32⟩ : BufTy).Contents (Elt F)),
    StableHlo.binary main_v24 main_v30 main_v32 (cat2 : (⟨S1048576, .i32⟩ : BufTy).Contents (Elt F) → (⟨S1024, .i32⟩ : BufTy).Contents (Elt F) → (⟨S1049600, .i32⟩ : BufTy).Contents (Elt F)),
    StableHlo.nullary main_c_12 (constantI S_ 1 1#1),
    StableHlo.unary main_c_12 main_v33 (broadcastInDim S1024 ![] bcast_S_S1024 : (⟨S_, .i1⟩ : BufTy).Contents (Elt F) → (⟨S1024, .i1⟩ : BufTy).Contents (Elt F)),
    StableHlo.binary main_v28 main_v33 main_v34 (cat2 : (⟨S1048576, .i1⟩ : BufTy).Contents (Elt F) → (⟨S1024, .i1⟩ : BufTy).Contents (Elt F) → (⟨S1049600, .i1⟩ : BufTy).Contents (Elt F)),
    StableHlo.unary main_v34 main_v35 (uitofp .f32 : (⟨S1049600, .i1⟩ : BufTy).Contents (Elt F) → (⟨S1049600, .f32⟩ : BufTy).Contents (Elt F)),
    StableHlo.nullary main_cst (constant S_ .f32 0x00000000#32),
    StableHlo.unary main_cst main_v36 (broadcastInDim S1024 ![] bcast_S_S1024 : (⟨S_, .f32⟩ : BufTy).Contents (Elt F) → (⟨S1024, .f32⟩ : BufTy).Contents (Elt F)),
    StableHlo.unary main_v32 main_v37 (broadcastInDim S1049600x1 ![0] bcast_S1049600_S1049600x1_0 : (⟨S1049600, .i32⟩ : BufTy).Contents (Elt F) → (⟨S1049600x1, .i32⟩ : BufTy).Contents (Elt F)),
    StableHlo.ternary main_v36 main_v37 main_v35 main_v38 ((fun x i u => Host.scatterAdd scatter_S1024_S1049600x1_S1049600_n_0_0_1 x i u) : (⟨S1024, .f32⟩ : BufTy).Contents (Elt F) → (⟨S1049600x1, .i32⟩ : BufTy).Contents (Elt F) → (⟨S1049600, .f32⟩ : BufTy).Contents (Elt F) → (⟨S1024, .f32⟩ : BufTy).Contents (Elt F)),
    StableHlo.nullary main_cst_13 (constant S_ .f32 0x00000000#32),
    StableHlo.unary main_cst_13 main_v39 (broadcastInDim S1024 ![] bcast_S_S1024 : (⟨S_, .f32⟩ : BufTy).Contents (Elt F) → (⟨S1024, .f32⟩ : BufTy).Contents (Elt F)),
    StableHlo.binary main_v38 main_v39 main_v40 (cmpf .ogt : (⟨S1024, .f32⟩ : BufTy).Contents (Elt F) → (⟨S1024, .f32⟩ : BufTy).Contents (Elt F) → (⟨S1024, .i1⟩ : BufTy).Contents (Elt F)),
    StableHlo.unary main_v38 main_v41 (Host.sqrt : (⟨S1024, .f32⟩ : BufTy).Contents (Elt F) → (⟨S1024, .f32⟩ : BufTy).Contents (Elt F)),
    StableHlo.nullary main_cst_14 (constant S_ .f32 0x3F800000#32),
    StableHlo.unary main_cst_14 main_v42 (broadcastInDim S1024 ![] bcast_S_S1024 : (⟨S_, .f32⟩ : BufTy).Contents (Elt F) → (⟨S1024, .f32⟩ : BufTy).Contents (Elt F)) ]

/-- The last 58 operations: the inverse square root of the degrees, the normalisation, the messages, their aggregation and the three layers. -/
abbrev opsD : List (HloOp τ sig (Elt F)) :=
  [ StableHlo.binary main_v42 main_v41 main_v43 (Host.divf : (⟨S1024, .f32⟩ : BufTy).Contents (Elt F) → (⟨S1024, .f32⟩ : BufTy).Contents (Elt F) → (⟨S1024, .f32⟩ : BufTy).Contents (Elt F)),
    StableHlo.nullary main_cst_15 (constant S_ .f32 0x00000000#32),
    StableHlo.unary main_cst_15 main_call10_v0 (id : (⟨S_, .f32⟩ : BufTy).Contents (Elt F) → (⟨S_, .f32⟩ : BufTy).Contents (Elt F)),
    StableHlo.unary main_call10_v0 main_call10_v1 ((broadcastInDim S1024 ![] bcast_S_S1024) : (⟨S_, .f32⟩ : BufTy).Contents (Elt F) → (⟨S1024, .f32⟩ : BufTy).Contents (Elt F)),
    StableHlo.ternary main_v40 main_v43 main_call10_v1 main_v44 (select : (⟨S1024, .i1⟩ : BufTy).Contents (Elt F) → (⟨S1024, .f32⟩ : BufTy).Contents (Elt F) → (⟨S1024, .f32⟩ : BufTy).Contents (Elt F) → (⟨S1024, .f32⟩ : BufTy).Contents (Elt F)),
    StableHlo.nullary main_c_16 (constantI S_ 32 0#32),
    StableHlo.unary main_c_16 main_v45 (broadcastInDim S1049600 ![] bcast_S_S1049600 : (⟨S_, .i32⟩ : BufTy).Contents (Elt F) → (⟨S1049600, .i32⟩ : BufTy).Contents (Elt F)),
    StableHlo.binary main_v31 main_v45 main_v46 (cmpi .slt : (⟨S1049600, .i32⟩ : BufTy).Contents (Elt F) → (⟨S1049600, .i32⟩ : BufTy).Contents (Elt F) → (⟨S1049600, .i1⟩ : BufTy).Contents (Elt F)),
    StableHlo.nullary main_c_17 (constantI S_ 32 1024#32),
    StableHlo.unary main_c_17 main_v47 (broadcastInDim S1049600 ![] bcast_S_S1049600 : (⟨S_, .i32⟩ : BufTy).Contents (Elt F) → (⟨S1049600, .i32⟩ : BufTy).Contents (Elt F)),
    StableHlo.binary main_v31 main_v47 main_v48 (addi : (⟨S1049600, .i32⟩ : BufTy).Contents (Elt F) → (⟨S1049600, .i32⟩ : BufTy).Contents (Elt F) → (⟨S1049600, .i32⟩ : BufTy).Contents (Elt F)),
    StableHlo.ternary main_v46 main_v48 main_v31 main_v49 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v49 main_v50 (broadcastInDim S1049600x1 ![0] bcast_S1049600_S1049600x1_0 : (⟨S1049600, .i32⟩ : BufTy).Contents (Elt F) → (⟨S1049600x1, .i32⟩ : BufTy).Contents (Elt F)),
    StableHlo.binary main_v44 main_v50 main_v51 ((fun x i => Host.gather gather_S1024_S1049600x1_S1049600_n_0_n_n_0_1_1 x i) : (⟨S1024, .f32⟩ : BufTy).Contents (Elt F) → (⟨S1049600x1, .i32⟩ : BufTy).Contents (Elt F) → (⟨S1049600, .f32⟩ : BufTy).Contents (Elt F)),
    StableHlo.nullary main_c_18 (constantI S_ 32 0#32),
    StableHlo.unary main_c_18 main_v52 (broadcastInDim S1049600 ![] bcast_S_S1049600 : (⟨S_, .i32⟩ : BufTy).Contents (Elt F) → (⟨S1049600, .i32⟩ : BufTy).Contents (Elt F)),
    StableHlo.binary main_v32 main_v52 main_v53 (cmpi .slt : (⟨S1049600, .i32⟩ : BufTy).Contents (Elt F) → (⟨S1049600, .i32⟩ : BufTy).Contents (Elt F) → (⟨S1049600, .i1⟩ : BufTy).Contents (Elt F)),
    StableHlo.nullary main_c_19 (constantI S_ 32 1024#32),
    StableHlo.unary main_c_19 main_v54 (broadcastInDim S1049600 ![] bcast_S_S1049600 : (⟨S_, .i32⟩ : BufTy).Contents (Elt F) → (⟨S1049600, .i32⟩ : BufTy).Contents (Elt F)),
    StableHlo.binary main_v32 main_v54 main_v55 (addi : (⟨S1049600, .i32⟩ : BufTy).Contents (Elt F) → (⟨S1049600, .i32⟩ : BufTy).Contents (Elt F) → (⟨S1049600, .i32⟩ : BufTy).Contents (Elt F)),
    StableHlo.ternary main_v53 main_v55 main_v32 main_v56 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v56 main_v57 (broadcastInDim S1049600x1 ![0] bcast_S1049600_S1049600x1_0 : (⟨S1049600, .i32⟩ : BufTy).Contents (Elt F) → (⟨S1049600x1, .i32⟩ : BufTy).Contents (Elt F)),
    StableHlo.binary main_v44 main_v57 main_v58 ((fun x i => Host.gather gather_S1024_S1049600x1_S1049600_n_0_n_n_0_1_1 x i) : (⟨S1024, .f32⟩ : BufTy).Contents (Elt F) → (⟨S1049600x1, .i32⟩ : BufTy).Contents (Elt F) → (⟨S1049600, .f32⟩ : BufTy).Contents (Elt F)),
    StableHlo.binary main_v51 main_v58 main_v59 (mulf : (⟨S1049600, .f32⟩ : BufTy).Contents (Elt F) → (⟨S1049600, .f32⟩ : BufTy).Contents (Elt F) → (⟨S1049600, .f32⟩ : BufTy).Contents (Elt F)),
    StableHlo.nullary main_c_20 (constantI S_ 32 0#32),
    StableHlo.unary main_c_20 main_v60 (broadcastInDim S1049600 ![] bcast_S_S1049600 : (⟨S_, .i32⟩ : BufTy).Contents (Elt F) → (⟨S1049600, .i32⟩ : BufTy).Contents (Elt F)),
    StableHlo.binary main_v31 main_v60 main_v61 (cmpi .slt : (⟨S1049600, .i32⟩ : BufTy).Contents (Elt F) → (⟨S1049600, .i32⟩ : BufTy).Contents (Elt F) → (⟨S1049600, .i1⟩ : BufTy).Contents (Elt F)),
    StableHlo.nullary main_c_21 (constantI S_ 32 1024#32),
    StableHlo.unary main_c_21 main_v62 (broadcastInDim S1049600 ![] bcast_S_S1049600 : (⟨S_, .i32⟩ : BufTy).Contents (Elt F) → (⟨S1049600, .i32⟩ : BufTy).Contents (Elt F)),
    StableHlo.binary main_v31 main_v62 main_v63 (addi : (⟨S1049600, .i32⟩ : BufTy).Contents (Elt F) → (⟨S1049600, .i32⟩ : BufTy).Contents (Elt F) → (⟨S1049600, .i32⟩ : BufTy).Contents (Elt F)),
    StableHlo.ternary main_v61 main_v63 main_v31 main_v64 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v64 main_v65 (broadcastInDim S1049600x1 ![0] bcast_S1049600_S1049600x1_0 : (⟨S1049600, .i32⟩ : BufTy).Contents (Elt F) → (⟨S1049600x1, .i32⟩ : BufTy).Contents (Elt F)),
    StableHlo.binary main_v29 main_v65 main_v66 ((fun x i => Host.gather gather_S1024x128_S1049600x1_S1049600x128_1_0_n_n_0_1_1128 x i) : (⟨S1024x128, .f32⟩ : BufTy).Contents (Elt F) → (⟨S1049600x1, .i32⟩ : BufTy).Contents (Elt F) → (⟨S1049600x128, .f32⟩ : BufTy).Contents (Elt F)),
    StableHlo.binary main_v59 main_v35 main_v67 (mulf : (⟨S1049600, .f32⟩ : BufTy).Contents (Elt F) → (⟨S1049600, .f32⟩ : BufTy).Contents (Elt F) → (⟨S1049600, .f32⟩ : BufTy).Contents (Elt F)),
    StableHlo.unary main_v67 main_v68 (broadcastInDim S1049600x1 ![0] bcast_S1049600_S1049600x1_0 : (⟨S1049600, .f32⟩ : BufTy).Contents (Elt F) → (⟨S1049600x1, .f32⟩ : BufTy).Contents (Elt F)),
    StableHlo.unary main_v68 main_v69 (broadcastInDim S1049600x128 ![0, 1] bcast_S1049600x1_S1049600x128_0_1 : (⟨S1049600x1, .f32⟩ : BufTy).Contents (Elt F) → (⟨S1049600x128, .f32⟩ : BufTy).Contents (Elt F)),
    StableHlo.binary main_v66 main_v69 main_v70 (mulf : (⟨S1049600x128, .f32⟩ : BufTy).Contents (Elt F) → (⟨S1049600x128, .f32⟩ : BufTy).Contents (Elt F) → (⟨S1049600x128, .f32⟩ : BufTy).Contents (Elt F)),
    StableHlo.nullary main_cst_22 (constant S_ .f32 0x00000000#32),
    StableHlo.unary main_cst_22 main_v71 (broadcastInDim S1024x128 ![] bcast_S_S1024x128 : (⟨S_, .f32⟩ : BufTy).Contents (Elt F) → (⟨S1024x128, .f32⟩ : BufTy).Contents (Elt F)),
    StableHlo.unary main_v32 main_v72 (broadcastInDim S1049600x1 ![0] bcast_S1049600_S1049600x1_0 : (⟨S1049600, .i32⟩ : BufTy).Contents (Elt F) → (⟨S1049600x1, .i32⟩ : BufTy).Contents (Elt F)),
    StableHlo.ternary main_v71 main_v72 main_v70 main_v73 ((fun x i u => Host.scatterAdd scatter_S1024x128_S1049600x1_S1049600x128_1_0_0_1 x i u) : (⟨S1024x128, .f32⟩ : BufTy).Contents (Elt F) → (⟨S1049600x1, .i32⟩ : BufTy).Contents (Elt F) → (⟨S1049600x128, .f32⟩ : BufTy).Contents (Elt F) → (⟨S1024x128, .f32⟩ : BufTy).Contents (Elt F)),
    StableHlo.unary main_arg3 main_v74 (broadcastInDim S1x128 ![1] bcast_S128_S1x128_1 : (⟨S128, .f32⟩ : BufTy).Contents (Elt F) → (⟨S1x128, .f32⟩ : BufTy).Contents (Elt F)),
    StableHlo.unary main_v74 main_v75 (broadcastInDim S1024x128 ![0, 1] bcast_S1x128_S1024x128_0_1 : (⟨S1x128, .f32⟩ : BufTy).Contents (Elt F) → (⟨S1024x128, .f32⟩ : BufTy).Contents (Elt F)),
    StableHlo.binary main_v73 main_v75 main_v76 (addf : (⟨S1024x128, .f32⟩ : BufTy).Contents (Elt F) → (⟨S1024x128, .f32⟩ : BufTy).Contents (Elt F) → (⟨S1024x128, .f32⟩ : BufTy).Contents (Elt F)),
    StableHlo.nullary main_call11_cst (constant S_ .f32 0x00000000#32),
    StableHlo.unary main_call11_cst main_call11_v0 ((broadcastInDim S1024x128 ![] bcast_S_S1024x128) : (⟨S_, .f32⟩ : BufTy).Contents (Elt F) → (⟨S1024x128, .f32⟩ : BufTy).Contents (Elt F)),
    StableHlo.binary main_v76 main_call11_v0 main_v77 (maximumf : (⟨S1024x128, .f32⟩ : BufTy).Contents (Elt F) → (⟨S1024x128, .f32⟩ : BufTy).Contents (Elt F) → (⟨S1024x128, .f32⟩ : BufTy).Contents (Elt F)),
    StableHlo.binary main_v77 main_arg4 main_v78 ((fun l r => Host.dotGeneral dot_S1024x128_S128x128_S1024x128_1_0_0_1_n_n none l r) : (⟨S1024x128, .f32⟩ : BufTy).Contents (Elt F) → (⟨S128x128, .f32⟩ : BufTy).Contents (Elt F) → (⟨S1024x128, .f32⟩ : BufTy).Contents (Elt F)),
    StableHlo.unary main_arg5 main_v79 (broadcastInDim S1x128 ![1] bcast_S128_S1x128_1 : (⟨S128, .f32⟩ : BufTy).Contents (Elt F) → (⟨S1x128, .f32⟩ : BufTy).Contents (Elt F)),
    StableHlo.unary main_v79 main_v80 (broadcastInDim S1024x128 ![0, 1] bcast_S1x128_S1024x128_0_1 : (⟨S1x128, .f32⟩ : BufTy).Contents (Elt F) → (⟨S1024x128, .f32⟩ : BufTy).Contents (Elt F)),
    StableHlo.binary main_v78 main_v80 main_v81 (addf : (⟨S1024x128, .f32⟩ : BufTy).Contents (Elt F) → (⟨S1024x128, .f32⟩ : BufTy).Contents (Elt F) → (⟨S1024x128, .f32⟩ : BufTy).Contents (Elt F)),
    StableHlo.nullary main_call12_cst (constant S_ .f32 0x00000000#32),
    StableHlo.unary main_call12_cst main_call12_v0 ((broadcastInDim S1024x128 ![] bcast_S_S1024x128) : (⟨S_, .f32⟩ : BufTy).Contents (Elt F) → (⟨S1024x128, .f32⟩ : BufTy).Contents (Elt F)),
    StableHlo.binary main_v81 main_call12_v0 main_v82 (maximumf : (⟨S1024x128, .f32⟩ : BufTy).Contents (Elt F) → (⟨S1024x128, .f32⟩ : BufTy).Contents (Elt F) → (⟨S1024x128, .f32⟩ : BufTy).Contents (Elt F)),
    StableHlo.binary main_v82 main_arg6 main_v83 ((fun l r => Host.dotGeneral dot_S1024x128_S128x128_S1024x128_1_0_0_1_n_n none l r) : (⟨S1024x128, .f32⟩ : BufTy).Contents (Elt F) → (⟨S128x128, .f32⟩ : BufTy).Contents (Elt F) → (⟨S1024x128, .f32⟩ : BufTy).Contents (Elt F)),
    StableHlo.unary main_arg7 main_v84 (broadcastInDim S1x128 ![1] bcast_S128_S1x128_1 : (⟨S128, .f32⟩ : BufTy).Contents (Elt F) → (⟨S1x128, .f32⟩ : BufTy).Contents (Elt F)),
    StableHlo.unary main_v84 main_v85 (broadcastInDim S1024x128 ![0, 1] bcast_S1x128_S1024x128_0_1 : (⟨S1x128, .f32⟩ : BufTy).Contents (Elt F) → (⟨S1024x128, .f32⟩ : BufTy).Contents (Elt F)),
    StableHlo.binary main_v83 main_v85 main_v86 (addf : (⟨S1024x128, .f32⟩ : BufTy).Contents (Elt F) → (⟨S1024x128, .f32⟩ : BufTy).Contents (Elt F) → (⟨S1024x128, .f32⟩ : BufTy).Contents (Elt F)) ]

theorem opsA_sub : (opsA : List (HloOp τ sig (Elt F))).Forall fun op => op.bufs ⊆ tcRefs τ sig :=
  ⟨nullary_bufs_sub .., unary_bufs_sub .., binary_bufs_sub .., reshape_bufs_sub .., unary_bufs_sub .., nullary_bufs_sub .., unary_bufs_sub .., binary_bufs_sub .., nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub ..⟩

theorem opsB_sub : (opsB : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

theorem opsC_sub : (opsC : List (HloOp τ sig (Elt F))).Forall fun op => op.bufs ⊆ tcRefs τ sig :=
  ⟨nullary_bufs_sub .., unary_bufs_sub .., nullary_bufs_sub .., binary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., nullary_bufs_sub .., unary_bufs_sub .., binary_bufs_sub .., unary_bufs_sub .., nullary_bufs_sub .., binary_bufs_sub .., unary_bufs_sub .., binary_bufs_sub .., binary_bufs_sub .., nullary_bufs_sub .., binary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub ..⟩

theorem opsD_sub : (opsD : List (HloOp τ sig (Elt F))).Forall fun op => op.bufs ⊆ tcRefs τ sig :=
  ⟨binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- @main's operations, in order: the four stretches one after the other. -/
abbrev ops : List (HloOp τ sig (Elt F)) := ((opsA ++ opsB) ++ opsC) ++ opsD

attribute [local irreducible] Host.reduceWindow Host.reduce Host.scatter Host.scatterAdd Host.gather concatenate broadcastInDim shapeCast iotaInDim maxsi addi subi andi cmpi cmpf select signi extui uitofp mulf addf maximumf Host.divsi Host.remsi Host.divf Host.sqrt constantI constant in
set_option maxRecDepth 32768 in
set_option maxHeartbeats 4000000 in
theorem part0_eq (c : Dev nD) : main_part0 (F := F) c = seq ((opsA ++ opsB) ++ opsC) := by
  rw [seq_append, seq_append]
  simp only [main_part0, fn_cumsum_0.body, fn_cumsum.body, fn_clip.body, fn_cumsum_1.body, fn_where.body, fn_floor_divide.body, fn_where_2.body, fn_remainder.body, fn_where_3.body, fn_count_nonzero.body, fn_where_4.body, fn_relu.body, seq, bind_assoc, pure_bind]
  all_goals rfl

attribute [local irreducible] Host.reduceWindow Host.reduce Host.scatter Host.scatterAdd Host.gather concatenate broadcastInDim shapeCast iotaInDim maxsi addi subi andi cmpi cmpf select signi extui uitofp mulf addf maximumf Host.divsi Host.remsi Host.divf Host.sqrt constantI constant in
set_option maxRecDepth 32768 in
set_option maxHeartbeats 4000000 in
theorem part1_eq (c : Dev nD) : main_part1 (F := F) c = seq opsD := by
  simp only [main_part1, fn_cumsum_0.body, fn_cumsum.body, fn_clip.body, fn_cumsum_1.body, fn_where.body, fn_floor_divide.body, fn_where_2.body, fn_remainder.body, fn_where_3.body, fn_count_nonzero.body, fn_where_4.body, fn_relu.body, seq, bind_assoc, pure_bind]
  all_goals rfl

theorem main_eq (c : Dev nD) : main (F := F) c = seq ops := by
  rw [ops, seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## The stretches, one by one -/

attribute [local irreducible] Host.reduceWindow Host.reduce Host.scatter Host.scatterAdd Host.gather concatenate broadcastInDim shapeCast iotaInDim maxsi addi subi andi cmpi cmpf select signi extui uitofp mulf addf maximumf Host.divsi Host.remsi Host.divf Host.sqrt constantI constant in
set_option maxRecDepth 8192 in
theorem spA_v1 (W : Valuation τ sig (Elt F)) :
    after opsA W (main_v1 : DevRef τ sig) = mask (W (main_arg1 : DevRef τ sig)) := by
  after_results_simp
  all_goals rfl

attribute [local irreducible] Host.reduceWindow Host.reduce Host.scatter Host.scatterAdd Host.gather concatenate broadcastInDim shapeCast iotaInDim maxsi addi subi andi cmpi cmpf select signi extui uitofp mulf addf maximumf Host.divsi Host.remsi Host.divf Host.sqrt constantI constant in
set_option maxRecDepth 8192 in
theorem spA_v13 (W : Valuation τ sig (Elt F)) :
    after opsA W (main_v13 : DevRef τ sig) = pos (W (main_arg1 : DevRef τ sig)) := by
  after_results_simp
  all_goals rfl

theorem frA_arg0 (W : Valuation τ sig (Elt F)) :
    after opsA W (main_arg0 : DevRef τ sig) = W (main_arg0 : DevRef τ sig) := by
  after_results_simp

theorem frA_arg1 (W : Valuation τ sig (Elt F)) :
    after opsA W (main_arg1 : DevRef τ sig) = W (main_arg1 : DevRef τ sig) := by
  after_results_simp

theorem frA_arg2 (W : Valuation τ sig (Elt F)) :
    after opsA W (main_arg2 : DevRef τ sig) = W (main_arg2 : DevRef τ sig) := by
  after_results_simp

theorem frA_arg3 (W : Valuation τ sig (Elt F)) :
    after opsA W (main_arg3 : DevRef τ sig) = W (main_arg3 : DevRef τ sig) := by
  after_results_simp

theorem frA_arg4 (W : Valuation τ sig (Elt F)) :
    after opsA W (main_arg4 : DevRef τ sig) = W (main_arg4 : DevRef τ sig) := by
  after_results_simp

theorem frA_arg5 (W : Valuation τ sig (Elt F)) :
    after opsA W (main_arg5 : DevRef τ sig) = W (main_arg5 : DevRef τ sig) := by
  after_results_simp

theorem frA_arg6 (W : Valuation τ sig (Elt F)) :
    after opsA W (main_arg6 : DevRef τ sig) = W (main_arg6 : DevRef τ sig) := by
  after_results_simp

theorem frA_arg7 (W : Valuation τ sig (Elt F)) :
    after opsA W (main_arg7 : DevRef τ sig) = W (main_arg7 : DevRef τ sig) := by
  after_results_simp

attribute [local irreducible] Host.reduceWindow Host.reduce Host.scatter Host.scatterAdd Host.gather concatenate broadcastInDim shapeCast iotaInDim maxsi addi subi andi cmpi cmpf select signi extui uitofp mulf addf maximumf Host.divsi Host.remsi Host.divf Host.sqrt constantI constant in
set_option maxRecDepth 8192 in
theorem spB_v15 (W : Valuation τ sig (Elt F)) :
    after opsB W (main_v15 : DevRef τ sig) = floorRem (floorDiv (W (main_v13 : DevRef τ sig)) (constantI S_ 32 1024#32)) (constantI S_ 32 1024#32) := by
  after_results_simp
  all_goals rfl

attribute [local irreducible] Host.reduceWindow Host.reduce Host.scatter Host.scatterAdd Host.gather concatenate broadcastInDim shapeCast iotaInDim maxsi addi subi andi cmpi cmpf select signi extui uitofp mulf addf maximumf Host.divsi Host.remsi Host.divf Host.sqrt constantI constant in
set_option maxRecDepth 8192 in
theorem spB_v17 (W : Valuation τ sig (Elt F)) :
    after opsB W (main_v17 : DevRef τ sig) = floorRem (floorDiv (W (main_v13 : DevRef τ sig)) (constantI S_ 32 1#32)) (constantI S_ 32 1024#32) := by
  after_results_simp
  all_goals rfl

theorem frB_v1 (W : Valuation τ sig (Elt F)) :
    after opsB W (main_v1 : DevRef τ sig) = W (main_v1 : DevRef τ sig) := by
  after_results_simp

theorem frB_arg0 (W : Valuation τ sig (Elt F)) :
    after opsB W (main_arg0 : DevRef τ sig) = W (main_arg0 : DevRef τ sig) := by
  after_results_simp

theorem frB_arg1 (W : Valuation τ sig (Elt F)) :
    after opsB W (main_arg1 : DevRef τ sig) = W (main_arg1 : DevRef τ sig) := by
  after_results_simp

theorem frB_arg2 (W : Valuation τ sig (Elt F)) :
    after opsB W (main_arg2 : DevRef τ sig) = W (main_arg2 : DevRef τ sig) := by
  after_results_simp

theorem frB_arg3 (W : Valuation τ sig (Elt F)) :
    after opsB W (main_arg3 : DevRef τ sig) = W (main_arg3 : DevRef τ sig) := by
  after_results_simp

theorem frB_arg4 (W : Valuation τ sig (Elt F)) :
    after opsB W (main_arg4 : DevRef τ sig) = W (main_arg4 : DevRef τ sig) := by
  after_results_simp

theorem frB_arg5 (W : Valuation τ sig (Elt F)) :
    after opsB W (main_arg5 : DevRef τ sig) = W (main_arg5 : DevRef τ sig) := by
  after_results_simp

theorem frB_arg6 (W : Valuation τ sig (Elt F)) :
    after opsB W (main_arg6 : DevRef τ sig) = W (main_arg6 : DevRef τ sig) := by
  after_results_simp

theorem frB_arg7 (W : Valuation τ sig (Elt F)) :
    after opsB W (main_arg7 : DevRef τ sig) = W (main_arg7 : DevRef τ sig) := by
  after_results_simp

attribute [local irreducible] Host.reduceWindow Host.reduce Host.scatter Host.scatterAdd Host.gather concatenate broadcastInDim shapeCast iotaInDim maxsi addi subi andi cmpi cmpf select signi extui uitofp mulf addf maximumf Host.divsi Host.remsi Host.divf Host.sqrt constantI constant in
set_option maxRecDepth 8192 in
theorem spC_v29 (W : Valuation τ sig (Elt F)) :
    after opsC W (main_v29 : DevRef τ sig) = xw (W (main_arg0 : DevRef τ sig)) (W (main_arg2 : DevRef τ sig)) := by
  after_results_simp
  all_goals rfl

attribute [local irreducible] Host.reduceWindow Host.reduce Host.scatter Host.scatterAdd Host.gather concatenate broadcastInDim shapeCast iotaInDim maxsi addi subi andi cmpi cmpf select signi extui uitofp mulf addf maximumf Host.divsi Host.remsi Host.divf Host.sqrt constantI constant in
set_option maxRecDepth 8192 in
theorem spC_v31 (W : Valuation τ sig (Elt F)) (A : IVec S1024x1024 32)
    (hv1 : W (main_v1 : DevRef τ sig) = mask A) (hv15 : W (main_v15 : DevRef τ sig) = rowsRaw A) :
    after opsC W (main_v31 : DevRef τ sig) = src A := by
  after_results_simp
  rw [hv1, hv15]
  all_goals rfl

attribute [local irreducible] Host.reduceWindow Host.reduce Host.scatter Host.scatterAdd Host.gather concatenate broadcastInDim shapeCast iotaInDim maxsi addi subi andi cmpi cmpf select signi extui uitofp mulf addf maximumf Host.divsi Host.remsi Host.divf Host.sqrt constantI constant in
set_option maxRecDepth 8192 in
theorem spC_v32 (W : Valuation τ sig (Elt F)) (A : IVec S1024x1024 32)
    (hv1 : W (main_v1 : DevRef τ sig) = mask A) (hv17 : W (main_v17 : DevRef τ sig) = colsRaw A) :
    after opsC W (main_v32 : DevRef τ sig) = dst A := by
  after_results_simp
  rw [hv1, hv17]
  all_goals rfl

attribute [local irreducible] Host.reduceWindow Host.reduce Host.scatter Host.scatterAdd Host.gather concatenate broadcastInDim shapeCast iotaInDim maxsi addi subi andi cmpi cmpf select signi extui uitofp mulf addf maximumf Host.divsi Host.remsi Host.divf Host.sqrt constantI constant in
set_option maxRecDepth 8192 in
theorem spC_v35 (W : Valuation τ sig (Elt F)) (A : IVec S1024x1024 32)
    (harg1 : W (main_arg1 : DevRef τ sig) = A) :
    after opsC W (main_v35 : DevRef τ sig) = ones (F := F) A := by
  after_results_simp
  rw [harg1]
  all_goals rfl

attribute [local irreducible] Host.reduceWindow Host.reduce Host.scatter Host.scatterAdd Host.gather concatenate broadcastInDim shapeCast iotaInDim maxsi addi subi andi cmpi cmpf select signi extui uitofp mulf addf maximumf Host.divsi Host.remsi Host.divf Host.sqrt constantI constant in
set_option maxRecDepth 8192 in
theorem spC_v38 (W : Valuation τ sig (Elt F)) (A : IVec S1024x1024 32)
    (hv1 : W (main_v1 : DevRef τ sig) = mask A) (hv17 : W (main_v17 : DevRef τ sig) = colsRaw A) (harg1 : W (main_arg1 : DevRef τ sig) = A) :
    after opsC W (main_v38 : DevRef τ sig) = deg (F := F) A := by
  after_results_simp
  rw [hv1, hv17, harg1]
  all_goals rfl

attribute [local irreducible] Host.reduceWindow Host.reduce Host.scatter Host.scatterAdd Host.gather concatenate broadcastInDim shapeCast iotaInDim maxsi addi subi andi cmpi cmpf select signi extui uitofp mulf addf maximumf Host.divsi Host.remsi Host.divf Host.sqrt constantI constant in
set_option maxRecDepth 8192 in
theorem spC_v40 (W : Valuation τ sig (Elt F)) (A : IVec S1024x1024 32)
    (hv1 : W (main_v1 : DevRef τ sig) = mask A) (hv17 : W (main_v17 : DevRef τ sig) = colsRaw A) (harg1 : W (main_arg1 : DevRef τ sig) = A) :
    after opsC W (main_v40 : DevRef τ sig) = cmpf .ogt (deg (F := F) A) (broadcastInDim S1024 ![] bcast_S_S1024 (constant (F := F) S_ .f32 0x00000000#32)) := by
  after_results_simp
  rw [hv1, hv17, harg1]
  all_goals rfl

attribute [local irreducible] Host.reduceWindow Host.reduce Host.scatter Host.scatterAdd Host.gather concatenate broadcastInDim shapeCast iotaInDim maxsi addi subi andi cmpi cmpf select signi extui uitofp mulf addf maximumf Host.divsi Host.remsi Host.divf Host.sqrt constantI constant in
set_option maxRecDepth 8192 in
theorem spC_v41 (W : Valuation τ sig (Elt F)) (A : IVec S1024x1024 32)
    (hv1 : W (main_v1 : DevRef τ sig) = mask A) (hv17 : W (main_v17 : DevRef τ sig) = colsRaw A) (harg1 : W (main_arg1 : DevRef τ sig) = A) :
    after opsC W (main_v41 : DevRef τ sig) = Host.sqrt (deg (F := F) A) := by
  after_results_simp
  rw [hv1, hv17, harg1]
  all_goals rfl

attribute [local irreducible] Host.reduceWindow Host.reduce Host.scatter Host.scatterAdd Host.gather concatenate broadcastInDim shapeCast iotaInDim maxsi addi subi andi cmpi cmpf select signi extui uitofp mulf addf maximumf Host.divsi Host.remsi Host.divf Host.sqrt constantI constant in
set_option maxRecDepth 8192 in
theorem spC_v42 (W : Valuation τ sig (Elt F)) :
    after opsC W (main_v42 : DevRef τ sig) = broadcastInDim S1024 ![] bcast_S_S1024 (constant (F := F) S_ .f32 0x3F800000#32) := by
  after_results_simp
  all_goals rfl

theorem frC_arg0 (W : Valuation τ sig (Elt F)) :
    after opsC W (main_arg0 : DevRef τ sig) = W (main_arg0 : DevRef τ sig) := by
  after_results_simp

theorem frC_arg1 (W : Valuation τ sig (Elt F)) :
    after opsC W (main_arg1 : DevRef τ sig) = W (main_arg1 : DevRef τ sig) := by
  after_results_simp

theorem frC_arg2 (W : Valuation τ sig (Elt F)) :
    after opsC W (main_arg2 : DevRef τ sig) = W (main_arg2 : DevRef τ sig) := by
  after_results_simp

theorem frC_arg3 (W : Valuation τ sig (Elt F)) :
    after opsC W (main_arg3 : DevRef τ sig) = W (main_arg3 : DevRef τ sig) := by
  after_results_simp

theorem frC_arg4 (W : Valuation τ sig (Elt F)) :
    after opsC W (main_arg4 : DevRef τ sig) = W (main_arg4 : DevRef τ sig) := by
  after_results_simp

theorem frC_arg5 (W : Valuation τ sig (Elt F)) :
    after opsC W (main_arg5 : DevRef τ sig) = W (main_arg5 : DevRef τ sig) := by
  after_results_simp

theorem frC_arg6 (W : Valuation τ sig (Elt F)) :
    after opsC W (main_arg6 : DevRef τ sig) = W (main_arg6 : DevRef τ sig) := by
  after_results_simp

theorem frC_arg7 (W : Valuation τ sig (Elt F)) :
    after opsC W (main_arg7 : DevRef τ sig) = W (main_arg7 : DevRef τ sig) := by
  after_results_simp

attribute [local irreducible] Host.reduceWindow Host.reduce Host.scatter Host.scatterAdd Host.gather concatenate broadcastInDim shapeCast iotaInDim maxsi addi subi andi cmpi cmpf select signi extui uitofp mulf addf maximumf Host.divsi Host.remsi Host.divf Host.sqrt constantI constant in
set_option maxRecDepth 8192 in
theorem spD_v86 (W : Valuation τ sig (Elt F))
    (data : FVec F S1024x128 .f32) (A : IVec S1024x1024 32) (convW : FVec F S128x128 .f32) (convB : FVec F S128 .f32)
    (fc1W : FVec F S128x128 .f32) (fc1B : FVec F S128 .f32) (fc2W : FVec F S128x128 .f32) (fc2B : FVec F S128 .f32)
    (hv29 : W (main_v29 : DevRef τ sig) = xw data convW) (hv31 : W (main_v31 : DevRef τ sig) = src A) (hv32 : W (main_v32 : DevRef τ sig) = dst A)
    (hv35 : W (main_v35 : DevRef τ sig) = ones (F := F) A)
    (hv40 : W (main_v40 : DevRef τ sig) = cmpf .ogt (deg (F := F) A) (broadcastInDim S1024 ![] bcast_S_S1024 (constant (F := F) S_ .f32 0x00000000#32)))
    (hv41 : W (main_v41 : DevRef τ sig) = Host.sqrt (deg (F := F) A))
    (hv42 : W (main_v42 : DevRef τ sig) = broadcastInDim S1024 ![] bcast_S_S1024 (constant (F := F) S_ .f32 0x3F800000#32))
    (harg3 : W (main_arg3 : DevRef τ sig) = convB) (harg4 : W (main_arg4 : DevRef τ sig) = fc1W) (harg5 : W (main_arg5 : DevRef τ sig) = fc1B) (harg6 : W (main_arg6 : DevRef τ sig) = fc2W) (harg7 : W (main_arg7 : DevRef τ sig) = fc2B) :
    after opsD W (main_v86 : DevRef τ sig) = out data A convW convB fc1W fc1B fc2W fc2B := by
  after_results_simp
  rw [hv29, hv31, hv32, hv35, hv40, hv41, hv42, harg3, harg4, harg5, harg6, harg7]
  all_goals rfl

theorem frD_arg0 (W : Valuation τ sig (Elt F)) :
    after opsD W (main_arg0 : DevRef τ sig) = W (main_arg0 : DevRef τ sig) := by
  after_results_simp

theorem frD_arg1 (W : Valuation τ sig (Elt F)) :
    after opsD W (main_arg1 : DevRef τ sig) = W (main_arg1 : DevRef τ sig) := by
  after_results_simp

theorem frD_arg2 (W : Valuation τ sig (Elt F)) :
    after opsD W (main_arg2 : DevRef τ sig) = W (main_arg2 : DevRef τ sig) := by
  after_results_simp

theorem frD_arg3 (W : Valuation τ sig (Elt F)) :
    after opsD W (main_arg3 : DevRef τ sig) = W (main_arg3 : DevRef τ sig) := by
  after_results_simp

theorem frD_arg4 (W : Valuation τ sig (Elt F)) :
    after opsD W (main_arg4 : DevRef τ sig) = W (main_arg4 : DevRef τ sig) := by
  after_results_simp

theorem frD_arg5 (W : Valuation τ sig (Elt F)) :
    after opsD W (main_arg5 : DevRef τ sig) = W (main_arg5 : DevRef τ sig) := by
  after_results_simp

theorem frD_arg6 (W : Valuation τ sig (Elt F)) :
    after opsD W (main_arg6 : DevRef τ sig) = W (main_arg6 : DevRef τ sig) := by
  after_results_simp

theorem frD_arg7 (W : Valuation τ sig (Elt F)) :
    after opsD W (main_arg7 : DevRef τ sig) = W (main_arg7 : DevRef τ sig) := by
  after_results_simp

/-! ## The whole line -/

/-- The result buffer after the whole line: each stretch's results, read at the contents the stretches before it leave. -/
theorem out_eq (V : Valuation τ sig (Elt F)) :
    after ops V (main_v86 : DevRef τ sig)
      = out (V (main_arg0 : DevRef τ sig)) (V (main_arg1 : DevRef τ sig)) (V (main_arg2 : DevRef τ sig)) (V (main_arg3 : DevRef τ sig))
          (V (main_arg4 : DevRef τ sig)) (V (main_arg5 : DevRef τ sig)) (V (main_arg6 : DevRef τ sig)) (V (main_arg7 : DevRef τ sig)) := by
  rw [ops, after_append, after_append, after_append]
  have a1 := spA_v1 V
  have a13 := spA_v13 V
  have b1 : after opsB (after opsA V) (main_v1 : DevRef τ sig) = mask (V (main_arg1 : DevRef τ sig)) := by rw [frB_v1, a1]
  have b15 : after opsB (after opsA V) (main_v15 : DevRef τ sig) = rowsRaw (V (main_arg1 : DevRef τ sig)) := by
    rw [spB_v15, a13]; all_goals rfl
  have b17 : after opsB (after opsA V) (main_v17 : DevRef τ sig) = colsRaw (V (main_arg1 : DevRef τ sig)) := by
    rw [spB_v17, a13]; all_goals rfl
  have barg0 : after opsB (after opsA V) (main_arg0 : DevRef τ sig) = V (main_arg0 : DevRef τ sig) := by rw [frB_arg0, frA_arg0]
  have barg1 : after opsB (after opsA V) (main_arg1 : DevRef τ sig) = V (main_arg1 : DevRef τ sig) := by rw [frB_arg1, frA_arg1]
  have barg2 : after opsB (after opsA V) (main_arg2 : DevRef τ sig) = V (main_arg2 : DevRef τ sig) := by rw [frB_arg2, frA_arg2]
  have barg3 : after opsB (after opsA V) (main_arg3 : DevRef τ sig) = V (main_arg3 : DevRef τ sig) := by rw [frB_arg3, frA_arg3]
  have barg4 : after opsB (after opsA V) (main_arg4 : DevRef τ sig) = V (main_arg4 : DevRef τ sig) := by rw [frB_arg4, frA_arg4]
  have barg5 : after opsB (after opsA V) (main_arg5 : DevRef τ sig) = V (main_arg5 : DevRef τ sig) := by rw [frB_arg5, frA_arg5]
  have barg6 : after opsB (after opsA V) (main_arg6 : DevRef τ sig) = V (main_arg6 : DevRef τ sig) := by rw [frB_arg6, frA_arg6]
  have barg7 : after opsB (after opsA V) (main_arg7 : DevRef τ sig) = V (main_arg7 : DevRef τ sig) := by rw [frB_arg7, frA_arg7]
  have c29 : after opsC (after opsB (after opsA V)) (main_v29 : DevRef τ sig) = xw (V (main_arg0 : DevRef τ sig)) (V (main_arg2 : DevRef τ sig)) := by
    rw [spC_v29, barg0, barg2]
  have c31 := spC_v31 (after opsB (after opsA V)) (V (main_arg1 : DevRef τ sig)) b1 b15
  have c32 := spC_v32 (after opsB (after opsA V)) (V (main_arg1 : DevRef τ sig)) b1 b17
  have c35 := spC_v35 (F := F) (after opsB (after opsA V)) (V (main_arg1 : DevRef τ sig)) barg1
  have c40 := spC_v40 (F := F) (after opsB (after opsA V)) (V (main_arg1 : DevRef τ sig)) b1 b17 barg1
  have c41 := spC_v41 (F := F) (after opsB (after opsA V)) (V (main_arg1 : DevRef τ sig)) b1 b17 barg1
  have c42 := spC_v42 (F := F) (after opsB (after opsA V))
  have carg3 : after opsC (after opsB (after opsA V)) (main_arg3 : DevRef τ sig) = V (main_arg3 : DevRef τ sig) := by rw [frC_arg3, barg3]
  have carg4 : after opsC (after opsB (after opsA V)) (main_arg4 : DevRef τ sig) = V (main_arg4 : DevRef τ sig) := by rw [frC_arg4, barg4]
  have carg5 : after opsC (after opsB (after opsA V)) (main_arg5 : DevRef τ sig) = V (main_arg5 : DevRef τ sig) := by rw [frC_arg5, barg5]
  have carg6 : after opsC (after opsB (after opsA V)) (main_arg6 : DevRef τ sig) = V (main_arg6 : DevRef τ sig) := by rw [frC_arg6, barg6]
  have carg7 : after opsC (after opsB (after opsA V)) (main_arg7 : DevRef τ sig) = V (main_arg7 : DevRef τ sig) := by rw [frC_arg7, barg7]
  exact spD_v86 (after opsC (after opsB (after opsA V))) _ _ _ _ _ _ _ _ c29 c31 c32 c35 c40 c41 c42 carg3 carg4 carg5 carg6 carg7

theorem arg0_eq (V : Valuation τ sig (Elt F)) : after ops V (main_arg0 : DevRef τ sig) = V (main_arg0 : DevRef τ sig) := by
  rw [ops, after_append, after_append, after_append, frD_arg0, frC_arg0, frB_arg0, frA_arg0]
theorem arg1_eq (V : Valuation τ sig (Elt F)) : after ops V (main_arg1 : DevRef τ sig) = V (main_arg1 : DevRef τ sig) := by
  rw [ops, after_append, after_append, after_append, frD_arg1, frC_arg1, frB_arg1, frA_arg1]
theorem arg2_eq (V : Valuation τ sig (Elt F)) : after ops V (main_arg2 : DevRef τ sig) = V (main_arg2 : DevRef τ sig) := by
  rw [ops, after_append, after_append, after_append, frD_arg2, frC_arg2, frB_arg2, frA_arg2]
theorem arg3_eq (V : Valuation τ sig (Elt F)) : after ops V (main_arg3 : DevRef τ sig) = V (main_arg3 : DevRef τ sig) := by
  rw [ops, after_append, after_append, after_append, frD_arg3, frC_arg3, frB_arg3, frA_arg3]
theorem arg4_eq (V : Valuation τ sig (Elt F)) : after ops V (main_arg4 : DevRef τ sig) = V (main_arg4 : DevRef τ sig) := by
  rw [ops, after_append, after_append, after_append, frD_arg4, frC_arg4, frB_arg4, frA_arg4]
theorem arg5_eq (V : Valuation τ sig (Elt F)) : after ops V (main_arg5 : DevRef τ sig) = V (main_arg5 : DevRef τ sig) := by
  rw [ops, after_append, after_append, after_append, frD_arg5, frC_arg5, frB_arg5, frA_arg5]
theorem arg6_eq (V : Valuation τ sig (Elt F)) : after ops V (main_arg6 : DevRef τ sig) = V (main_arg6 : DevRef τ sig) := by
  rw [ops, after_append, after_append, after_append, frD_arg6, frC_arg6, frB_arg6, frA_arg6]
theorem arg7_eq (V : Valuation τ sig (Elt F)) : after ops V (main_arg7 : DevRef τ sig) = V (main_arg7 : DevRef τ sig) := by
  rw [ops, after_append, after_append, after_append, frD_arg7, frC_arg7, frB_arg7, frA_arg7]

theorem opsA_fresh : (opsA : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩

theorem opsB_fresh : (opsB : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem opsC_fresh : (opsC : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem opsD_fresh : (opsD : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem forall_append' {α : Type _} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

theorem ops_sub : (ops : List (HloOp τ sig (Elt F))).Forall fun op => op.bufs ⊆ tcRefs τ sig :=
  forall_append' (forall_append' (forall_append' opsA_sub opsB_sub) opsC_sub) opsD_sub

theorem ops_fresh : ∀ op ∈ (ops : List (HloOp τ sig (Elt F))), op.fresh = ∅ :=
  List.forall_iff_forall_mem.mp (forall_append' (forall_append' (forall_append' opsA_fresh opsB_fresh) opsC_fresh) opsD_fresh)

/-- On every device, for any float values, from any memory with zero counters: every weakly fair execution of
    @main terminates with the result buffer at `out` of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v86)
        = out (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v86).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _)⟩)
    (run_seq scopedRefs_eq scopedSems_eq defs main (fun _ => ops) main_eq (fun _ => ops_sub) m ρ (fun _ => ops_fresh))

end Cert.ReferenceIdeal.RefValue

end
-- ==== Proof.LibNonzeroCount.lean ====
/-
  Counting marked positions of a finite line, with no machine words: the running count of marks,
  the total, and the position of the (e+1)-th mark read off as the number of positions whose running
  count is at most e.  Everything is stated for a generic length N.
-/
import Idealize.ShloMosaic.PureOps.Ideal

namespace Cert.Lib.NonzeroCount

open Finset

variable {N : ℕ}

/-- A down-closed set of positions of `0, …, N-1` is an initial segment: `p` belongs to it exactly
    when `p` is below the number of its elements. -/
theorem mem_iff_lt_card_of_lower (S : Finset (Fin N))
    (hS : ∀ p ∈ S, ∀ q : Fin N, q ≤ p → q ∈ S) (p : Fin N) : p ∈ S ↔ p.val < S.card := by
  constructor
  · intro hp
    have hsub : Finset.Iic p ⊆ S := fun q hq => hS p hp q (Finset.mem_Iic.1 hq)
    have h := Finset.card_le_card hsub
    rw [Fin.card_Iic] at h
    omega
  · intro hlt
    by_contra hp
    have hsub : S ⊆ Finset.Iio p := by
      intro q hq
      rw [Finset.mem_Iio]
      by_contra hqp
      exact hp (hS q hq p (not_lt.1 hqp))
    have h := Finset.card_le_card hsub
    rw [Fin.card_Iio] at h
    omega

/-- `below b m`: the number of marked positions strictly below `m`. -/
def below (b : Fin N → Bool) (m : ℕ) : ℕ := (univ.filter fun q : Fin N => q.val < m ∧ b q = true).card

/-- `cum b p`: the number of marked positions at or before `p` (the running count). -/
def cum (b : Fin N → Bool) (p : Fin N) : ℕ := (univ.filter fun q : Fin N => q ≤ p ∧ b q = true).card

/-- `total b`: the number of marked positions. -/
def total (b : Fin N → Bool) : ℕ := (univ.filter fun q : Fin N => b q = true).card

/-- `pos b e`: the number of positions whose running count is at most `e`. -/
def pos (b : Fin N → Bool) (e : ℕ) : ℕ := (univ.filter fun p : Fin N => cum b p ≤ e).card

/-- The running count at `p` is the count strictly below `p + 1`. -/
theorem cum_eq_below (b : Fin N → Bool) (p : Fin N) : cum b p = below b (p.val + 1) := by
  unfold cum below
  refine congrArg card (filter_congr fun q _ => ?_)
  rw [Fin.le_def, Nat.lt_succ_iff]

/-- Nothing is strictly below position zero. -/
theorem below_zero (b : Fin N → Bool) : below b 0 = 0 := by
  unfold below
  rw [card_eq_zero, filter_eq_empty_iff]
  intro q _ h
  exact absurd h.1 (Nat.not_lt_zero _)

/-- The count strictly below `m` does not decrease with `m`. -/
theorem below_mono (b : Fin N → Bool) {m n : ℕ} (h : m ≤ n) : below b m ≤ below b n := by
  unfold below
  apply card_le_card
  intro q hq
  rw [mem_filter] at hq ⊢
  exact ⟨hq.1, lt_of_lt_of_le hq.2.1 h, hq.2.2⟩

/-- At or past the end of the line the count strictly below is the total. -/
theorem below_of_le (b : Fin N → Bool) {m : ℕ} (h : N ≤ m) : below b m = total b := by
  unfold below total
  refine congrArg card (filter_congr fun q _ => ?_)
  exact ⟨fun h' => h'.2, fun h' => ⟨lt_of_lt_of_le q.isLt h, h'⟩⟩

/-- One step: the count strictly below `m + 1` is the count strictly below `m`, plus one exactly when
    position `m` is marked. -/
theorem below_succ (b : Fin N → Bool) (m : ℕ) (h : m < N) :
    below b (m + 1) = below b m + if b ⟨m, h⟩ = true then 1 else 0 := by
  unfold below
  have hsplit : (univ.filter fun q : Fin N => q.val < m + 1 ∧ b q = true)
      = (univ.filter fun q : Fin N => q.val < m ∧ b q = true)
        ∪ (univ.filter fun q : Fin N => q = ⟨m, h⟩ ∧ b q = true) := by
    ext q
    simp only [mem_filter, mem_univ, true_and, mem_union, Fin.ext_iff]
    constructor
    · rintro ⟨h1, h2⟩
      rcases Nat.lt_succ_iff_lt_or_eq.1 h1 with h3 | h3
      · exact Or.inl ⟨h3, h2⟩
      · exact Or.inr ⟨h3, h2⟩
    · rintro (⟨h1, h2⟩ | ⟨h1, h2⟩)
      · exact ⟨by omega, h2⟩
      · exact ⟨by omega, h2⟩
  rw [hsplit, card_union_of_disjoint]
  · congr 1
    by_cases hb : b ⟨m, h⟩ = true
    · rw [if_pos hb]
      have hs : (univ.filter fun q : Fin N => q = ⟨m, h⟩ ∧ b q = true) = {⟨m, h⟩} := by
        ext q
        simp only [mem_filter, mem_univ, true_and, mem_singleton]
        constructor
        · exact fun hq => hq.1
        · rintro rfl
          exact ⟨rfl, hb⟩
      rw [hs, card_singleton]
    · rw [if_neg hb, card_eq_zero, filter_eq_empty_iff]
      rintro q _ ⟨rfl, hq⟩
      exact hb hq
  · rw [disjoint_left]
    intro q hq1 hq2
    rw [mem_filter] at hq1 hq2
    have hqm : q.val = m := congrArg Fin.val hq2.2.1
    have := hq1.2.1
    omega

/-- The running count does not decrease along the line. -/
theorem cum_mono (b : Fin N → Bool) {q p : Fin N} (h : q ≤ p) : cum b q ≤ cum b p := by
  rw [cum_eq_below, cum_eq_below]
  exact below_mono b (Nat.succ_le_succ (Fin.le_def.1 h))

/-- The running count never exceeds the total. -/
theorem cum_le_total (b : Fin N → Bool) (p : Fin N) : cum b p ≤ total b := by
  rw [cum_eq_below, ← below_of_le b (le_refl N)]
  exact below_mono b (Nat.succ_le_of_lt p.isLt)

/-- The total is at most the length of the line. -/
theorem total_le (b : Fin N → Bool) : total b ≤ N := by
  unfold total
  exact (card_filter_le _ _).trans (by rw [card_univ, Fintype.card_fin])

/-- `pos b e` is at most the length of the line. -/
theorem pos_le (b : Fin N → Bool) (e : ℕ) : pos b e ≤ N := by
  unfold pos
  exact (card_filter_le _ _).trans (by rw [card_univ, Fintype.card_fin])

/-- The positions whose running count is at most `e` are exactly those below `pos b e`, the running
    count being nondecreasing. -/
theorem lt_pos_iff (b : Fin N → Bool) (e : ℕ) (p : Fin N) : p.val < pos b e ↔ cum b p ≤ e := by
  have hlow : ∀ p ∈ (univ.filter fun p : Fin N => cum b p ≤ e), ∀ q : Fin N, q ≤ p →
      q ∈ (univ.filter fun p : Fin N => cum b p ≤ e) := by
    intro p hp q hqp
    rw [mem_filter] at hp ⊢
    exact ⟨mem_univ _, le_trans (cum_mono b hqp) hp.2⟩
  have h := mem_iff_lt_card_of_lower _ hlow p
  rw [mem_filter] at h
  unfold pos
  rw [← h]
  exact ⟨fun hc => hc.2, fun hc => ⟨mem_univ _, hc⟩⟩

/-- From the total on, every position has running count at most `e`: `pos b e` is the whole length. -/
theorem pos_of_total_le (b : Fin N → Bool) {e : ℕ} (h : total b ≤ e) : pos b e = N := by
  unfold pos
  rw [filter_true_of_mem (fun p _ => (cum_le_total b p).trans h), card_univ, Fintype.card_fin]

/-- Below the total, `pos b e` is a position of the line. -/
theorem pos_lt (b : Fin N → Bool) {e : ℕ} (h : e < total b) : pos b e < N := by
  by_contra hge
  have hN : pos b e = N := le_antisymm (pos_le b e) (not_lt.1 hge)
  have hpos : 0 < N := lt_of_lt_of_le (Nat.zero_lt_of_lt h) (total_le b)
  have hlast : N - 1 < pos b e := by omega
  have h1 := (lt_pos_iff b e ⟨N - 1, by omega⟩).1 hlast
  rw [cum_eq_below] at h1
  have h2 : below b (N - 1 + 1) = total b := below_of_le b (by omega)
  have h3 : below b ((⟨N - 1, by omega⟩ : Fin N).val + 1) = below b (N - 1 + 1) := rfl
  omega

/-- Below the total, exactly `e` marks lie strictly below position `pos b e`, and that position is
    marked. -/
theorem below_pos (b : Fin N → Bool) {e : ℕ} (h : e < total b) :
    below b (pos b e) = e ∧ b ⟨pos b e, pos_lt b h⟩ = true := by
  have hm := pos_lt b h
  have h1 : ¬ cum b ⟨pos b e, hm⟩ ≤ e := fun hc =>
    lt_irrefl _ ((lt_pos_iff b e ⟨pos b e, hm⟩).2 hc)
  rw [cum_eq_below] at h1
  have h1' : ¬ below b (pos b e + 1) ≤ e := h1
  have h2 : below b (pos b e) ≤ e := by
    rcases Nat.eq_zero_or_pos (pos b e) with h0 | h0
    · rw [h0, below_zero]
      exact Nat.zero_le _
    · have hlt : pos b e - 1 < pos b e := by omega
      have h4 := (lt_pos_iff b e ⟨pos b e - 1, by omega⟩).1 hlt
      rw [cum_eq_below] at h4
      have h5 : below b ((⟨pos b e - 1, by omega⟩ : Fin N).val + 1) = below b (pos b e - 1 + 1) := rfl
      have e1 : pos b e - 1 + 1 = pos b e := by omega
      rw [h5, e1] at h4
      exact h4
  have h3 := below_succ b (pos b e) hm
  by_cases hb : b ⟨pos b e, hm⟩ = true
  · rw [if_pos hb] at h3
    exact ⟨by omega, hb⟩
  · rw [if_neg hb] at h3
    omega

/-- Below the total, position `pos b e` is marked. -/
theorem mark_pos (b : Fin N → Bool) {e : ℕ} (h : e < total b) : b ⟨pos b e, pos_lt b h⟩ = true :=
  (below_pos b h).2

/-- Below the total, the running count at position `pos b e` is `e + 1`: it is the
    position of the `(e+1)`-th mark. -/
theorem cum_pos (b : Fin N → Bool) {e : ℕ} (h : e < total b) : cum b ⟨pos b e, pos_lt b h⟩ = e + 1 := by
  rw [cum_eq_below]
  have h3 := below_succ b (pos b e) (pos_lt b h)
  rw [if_pos (mark_pos b h), (below_pos b h).1] at h3
  exact h3

/-- At a marked position `p`, the marks strictly below it are fewer than the total. -/
theorem below_lt_total (b : Fin N → Bool) (p : Fin N) (hp : b p = true) : below b p.val < total b := by
  have h1 := below_succ b p.val p.isLt
  rw [if_pos (by exact hp)] at h1
  have h2 : below b (p.val + 1) ≤ below b N := below_mono b (Nat.succ_le_of_lt p.isLt)
  rw [below_of_le b (le_refl N)] at h2
  omega

/-- A marked position `p` is recovered from the number of marks strictly below it: it is the position
    of the mark of that rank. -/
theorem pos_below (b : Fin N → Bool) (p : Fin N) (hp : b p = true) : pos b (below b p.val) = p.val := by
  unfold pos
  refine Eq.trans (congrArg card ?_) (Fin.card_Iio p)
  ext q
  rw [mem_filter, mem_Iio, cum_eq_below]
  constructor
  · rintro ⟨_, hq⟩
    by_contra hqp
    have hpq : p.val + 1 ≤ q.val + 1 := Nat.succ_le_succ (Fin.le_def.1 (not_lt.1 hqp))
    have h1 := below_mono b hpq
    have h2 := below_succ b p.val p.isLt
    rw [if_pos (by exact hp)] at h2
    omega
  · intro hqp
    exact ⟨mem_univ _, below_mono b (Nat.succ_le_of_lt (Fin.lt_def.1 hqp))⟩

/-- The re-indexing law: summing `g` at the positions of the first, second, … mark (ranks below the
    total) is summing `g` over the marked positions; `e ↦ pos b e` is a bijection from the ranks below
    the total onto the marked positions, with inverse `p ↦ below b p`. -/
theorem sum_pos {M : Type*} [AddCommMonoid M] (b : Fin N → Bool) (g : ℕ → M) :
    (∑ e : Fin N, if e.val < total b then g (pos b e.val) else 0)
      = ∑ p : Fin N, if b p = true then g p.val else 0 := by
  rw [← sum_filter, ← sum_filter]
  refine sum_bij' (fun e he => ⟨pos b e.val, pos_lt b (mem_filter.1 he).2⟩)
    (fun p hp => ⟨below b p.val, lt_of_lt_of_le (below_lt_total b p (mem_filter.1 hp).2) (total_le b)⟩)
    ?_ ?_ ?_ ?_ ?_
  · intro e he
    exact mem_filter.2 ⟨mem_univ _, mark_pos b (mem_filter.1 he).2⟩
  · intro p hp
    exact mem_filter.2 ⟨mem_univ _, below_lt_total b p (mem_filter.1 hp).2⟩
  · intro e he
    exact Fin.ext (below_pos b (mem_filter.1 he).2).1
  · intro p hp
    exact Fin.ext (pos_below b p (mem_filter.1 hp).2)
  · intro e he
    rfl

/-- The same law for a function of the position itself (`g : Fin N → M`): the rank-`e` term reads `g`
    at the position `pos b e`, which is inside the line below the total. -/
theorem sum_pos_fin {M : Type*} [AddCommMonoid M] (b : Fin N → Bool) (g : Fin N → M) :
    (∑ e : Fin N, if h : e.val < total b then g ⟨pos b e.val, pos_lt b h⟩ else 0)
      = ∑ p : Fin N, if b p = true then g p else 0 := by
  have h := sum_pos b (fun m => if hm : m < N then g ⟨m, hm⟩ else 0)
  refine Eq.trans (sum_congr rfl fun e _ => ?_) (h.trans (sum_congr rfl fun p _ => ?_))
  · by_cases he : e.val < total b
    · rw [dif_pos he, if_pos he, dif_pos (pos_lt b he)]
    · rw [dif_neg he, if_neg he]
  · rw [dif_pos p.isLt]

end Cert.Lib.NonzeroCount
-- ==== Proof.LibWordCount.lean ====
/-
  32-bit word sums as counts: a left fold of word additions is the word of the sum of the summands'
  values; the windowed running sum of a rank-one array is the word of the partial sums; the
  scatter that adds an update at each computed index is the word of the per-target sum.
  Everything is stated for generic sizes.
-/
import Idealize.ShloMosaic.PureOps.Contract
import Idealize.ShloMosaic.PureOps.ShapeOps
import Idealize.ShloMosaic.PureOps.Reduce
import Idealize.ShloMosaic.Lib.ValueIdx

namespace Cert.Lib.WordCount

open Idealize.ShloMosaic

/-- A left fold of 32-bit additions over a list, started at `v`, is `v` plus the word of the sum of the
    summands' values as naturals: addition of words is addition of naturals modulo `2^32`. -/
theorem foldl_addi {ι : Type*} (l : List ι) (g : ι → BitVec 32) (v : BitVec 32) :
    l.foldl (fun r k => IntOp.addi r (g k)) v
      = v + BitVec.ofNat 32 ((l.map fun k => (g k).toNat).sum) := by
  induction l generalizing v with
  | nil => simp
  | cons a l ih =>
    rw [List.foldl_cons, ih, List.map_cons, List.sum_cons, BitVec.ofNat_add, BitVec.ofNat_toNat,
      BitVec.setWidth_eq, ← BitVec.add_assoc]
    rfl

/-- The same over all of `Fin n` in increasing order: `v` plus the word of `∑ k, (g k).toNat`. -/
theorem foldl_addi_finRange {n : ℕ} (g : Fin n → BitVec 32) (v : BitVec 32) :
    (List.finRange n).foldl (fun r k => IntOp.addi r (g k)) v
      = v + BitVec.ofNat 32 (∑ k : Fin n, (g k).toNat) := by
  rw [foldl_addi, Fin.sum_univ_def]

/-- The scatter whose body adds: the result at `i'` is the operand there plus the word of the sum of
    the updates (as naturals) whose computed result index is `i'`; updates whose index falls outside the
    operand are dropped. -/
theorem scatter_addi {s si u : Shape} {w : ℕ} (d : ScatterDims s si u) (x : s.Idx → BitVec 32)
    (idx : IVec si w) (upd : u.Idx → BitVec 32) (i' : s.Idx) :
    Host.scatter d IntOp.addi x idx upd i'
      = x i' + BitVec.ofNat 32 (∑ n : Fin u.numel,
          if d.resultIdx? (u.rowMajor.symm n) idx = some i' then (upd (u.rowMajor.symm n)).toNat else 0) := by
  unfold Host.scatter
  rw [Fin.sum_univ_def]
  generalize List.finRange u.numel = l
  induction l generalizing x with
  | nil => simp
  | cons a l ih =>
    rw [List.foldl_cons, ih, List.map_cons, List.sum_cons, BitVec.ofNat_add, ← BitVec.add_assoc]
    congr 1
    cases hr : d.resultIdx? (u.rowMajor.symm a) idx with
    | none => simp
    | some i =>
      by_cases hi : i' = i
      · subst hi
        simp [IntOp.addi, BitVec.ofNat_toNat]
      · have hi' : ¬ (some i = some i') := fun h => hi (Option.some.inj h).symm
        simp [hi, hi']

/-- Rank one: the coordinate of the index at row-major position `n` is `n`. -/
theorem rowMajor_symm_val_one {d : Fin 1 → ℕ} (n : Fin (⟨1, d⟩ : Shape).numel) :
    (((⟨1, d⟩ : Shape).rowMajor.symm n) 0).val = n.val := by
  have h := Shape.rowMajor_val_one ((⟨1, d⟩ : Shape).rowMajor.symm n)
  rw [Equiv.apply_symm_apply] at h
  exact h.symm

/-- The windowed reduction whose body adds, at any shapes: the initial value plus the word of the sum,
    over the window's positions, of the operand's value (as a natural) where the position is inside the
    operand and of the initial value's where it is padding. -/
theorem reduceWindow_addi {s t u : Shape} (window strides lo hi : Fin s.rank → ℕ) (x : s.Idx → BitVec 32)
    (init : u.Idx → BitVec 32) (h : s.ReduceWindows window strides lo hi t) (hu : 0 < u.numel) (j : t.Idx) :
    Host.reduceWindow IntOp.addi window strides lo hi x init h hu j
      = init (Shape.Idx.first hu) + BitVec.ofNat 32 (∑ n : Fin (⟨s.rank, window⟩ : Shape).numel,
          (if hin : ∀ a, lo a ≤ (j (a.cast h.1.symm)).val * strides a
                  + ((⟨s.rank, window⟩ : Shape).rowMajor.symm n a).val
                ∧ (j (a.cast h.1.symm)).val * strides a
                  + ((⟨s.rank, window⟩ : Shape).rowMajor.symm n a).val - lo a < s.size a
           then x (fun a => ⟨(j (a.cast h.1.symm)).val * strides a
                  + ((⟨s.rank, window⟩ : Shape).rowMajor.symm n a).val - lo a, (hin a).2⟩)
           else init (Shape.Idx.first hu)).toNat) := by
  unfold Host.reduceWindow
  exact foldl_addi_finRange _ _

/-- Re-indexing a window that ends at `j0`: the window positions `n` with `L ≤ j0 + n` (`L + 1 = N` the
    low padding) correspond one to one, by `n ↦ j0 + n - L`, to the operand positions `q ≤ j0`. -/
theorem sum_window_reindex {M : Type*} [AddCommMonoid M] {N L : ℕ} (hL : L + 1 = N) (j0 : ℕ) (hj : j0 < N)
    (F : ℕ → M) :
    (∑ n : Fin N, if L ≤ j0 + n.val then F (j0 + n.val - L) else 0)
      = ∑ q : Fin N, if q.val ≤ j0 then F q.val else 0 := by
  rw [← Finset.sum_filter, ← Finset.sum_filter]
  refine Finset.sum_bij'
    (fun n hn => ⟨j0 + n.val - L, by have := (Finset.mem_filter.1 hn).2; have := n.isLt; omega⟩)
    (fun q hq => ⟨q.val + L - j0, by have := (Finset.mem_filter.1 hq).2; omega⟩) ?_ ?_ ?_ ?_ ?_
  · intro n hn
    have h1 := (Finset.mem_filter.1 hn).2
    have h2 := n.isLt
    refine Finset.mem_filter.2 ⟨Finset.mem_univ _, ?_⟩
    show j0 + n.val - L ≤ j0
    omega
  · intro q hq
    have h1 := (Finset.mem_filter.1 hq).2
    refine Finset.mem_filter.2 ⟨Finset.mem_univ _, ?_⟩
    show L ≤ j0 + (q.val + L - j0)
    omega
  · intro n hn
    have h1 := (Finset.mem_filter.1 hn).2
    apply Fin.ext
    show j0 + n.val - L + L - j0 = n.val
    omega
  · intro q hq
    have h1 := (Finset.mem_filter.1 hq).2
    apply Fin.ext
    show j0 + (q.val + L - j0) - L = q.val
    omega
  · intro n hn
    rfl

/-- The running sum of a rank-one array of `N` words as a windowed reduction (window `N`, stride one,
    `L = N - 1` positions of padding before the array and none after, initial value zero): the result
    at `j` is the word of the sum of the values at the positions `q ≤ j`. -/
theorem reduceWindow_cumsum {N L : ℕ} (hL : L + 1 = N) {u : Shape}
    (x : (⟨1, ![N]⟩ : Shape).Idx → BitVec 32) (init : u.Idx → BitVec 32)
    (h : (⟨1, ![N]⟩ : Shape).ReduceWindows (![N] : Fin 1 → ℕ) ![1] ![L] ![0] ⟨1, ![N]⟩) (hu : 0 < u.numel)
    (hv : init (Shape.Idx.first hu) = 0#32) (j : (⟨1, ![N]⟩ : Shape).Idx) :
    Host.reduceWindow IntOp.addi (![N] : Fin 1 → ℕ) ![1] ![L] ![0] x init h hu j
      = BitVec.ofNat 32 (∑ q : Fin N, if q.val ≤ (j 0).val then (x (ValueIdx.ix1 q)).toNat else 0) := by
  rw [reduceWindow_addi, hv, BitVec.zero_add]
  congr 1
  have hW : (⟨(⟨1, ![N]⟩ : Shape).rank, (![N] : Fin 1 → ℕ)⟩ : Shape).numel = N := Shape.numel_rank1 _
  have hj0 : (j 0).val < N := (j 0).isLt
  let F : ℕ → ℕ := fun q => if hq : q < N then (x (ValueIdx.ix1 ⟨q, hq⟩)).toNat else 0
  have hFq : ∀ q : Fin N, (x (ValueIdx.ix1 q)).toNat = F q.val := fun q => by
    show _ = if hq : q.val < N then (x (ValueIdx.ix1 ⟨q.val, hq⟩)).toNat else 0
    rw [dif_pos q.isLt]
  refine Eq.trans ?_ ((sum_window_reindex hL (j 0).val hj0 F).trans
    (Finset.sum_congr rfl fun q _ => by rw [hFq]))
  refine Fintype.sum_equiv (finCongr hW) _ _ fun n => ?_
  have hn : n.val < N := lt_of_lt_of_eq n.isLt hW
  have hrm : (((⟨(⟨1, ![N]⟩ : Shape).rank, (![N] : Fin 1 → ℕ)⟩ : Shape).rowMajor.symm n) 0).val = n.val :=
    rowMajor_symm_val_one (d := ![N]) n
  show _ = if L ≤ (j 0).val + n.val then F ((j 0).val + n.val - L) else 0
  by_cases hc : L ≤ (j 0).val + n.val
  · rw [if_pos hc]
    have hq : (j 0).val + n.val - L < N := by omega
    show _ = if hq : (j 0).val + n.val - L < N then (x (ValueIdx.ix1 ⟨_, hq⟩)).toNat else 0
    rw [dif_pos hq]
    split
    · rename_i hin
      refine congrArg BitVec.toNat (congrArg x ?_)
      funext a
      match a with
      | ⟨0, _⟩ =>
        apply Fin.ext
        show (j 0).val * 1 + (((⟨(⟨1, ![N]⟩ : Shape).rank, (![N] : Fin 1 → ℕ)⟩ : Shape).rowMajor.symm n) 0).val - L = (j 0).val + n.val - L
        omega
    · rename_i hnin
      exfalso
      apply hnin
      intro a
      match a with
      | ⟨0, _⟩ =>
        show L ≤ (j 0).val * 1 + (((⟨(⟨1, ![N]⟩ : Shape).rank, (![N] : Fin 1 → ℕ)⟩ : Shape).rowMajor.symm n) 0).val ∧ (j 0).val * 1 + (((⟨(⟨1, ![N]⟩ : Shape).rank, (![N] : Fin 1 → ℕ)⟩ : Shape).rowMajor.symm n) 0).val - L < N
        omega
  · rw [if_neg hc]
    split
    · rename_i hin
      exfalso
      have h0 : L ≤ (j 0).val * 1 + (((⟨(⟨1, ![N]⟩ : Shape).rank, (![N] : Fin 1 → ℕ)⟩ : Shape).rowMajor.symm n) 0).val := (hin 0).1
      omega
    · rfl

/-- The running sum of an array of zeros and ones counts the ones: the result at `j` is the word of
    the number of positions `q ≤ j` holding a one. -/
theorem reduceWindow_cumsum_indicator {N L : ℕ} (hL : L + 1 = N) {u : Shape}
    (x : (⟨1, ![N]⟩ : Shape).Idx → BitVec 32) (init : u.Idx → BitVec 32)
    (h : (⟨1, ![N]⟩ : Shape).ReduceWindows (![N] : Fin 1 → ℕ) ![1] ![L] ![0] ⟨1, ![N]⟩) (hu : 0 < u.numel)
    (hv : init (Shape.Idx.first hu) = 0#32) (hx : ∀ q, x q = 0#32 ∨ x q = 1#32)
    (j : (⟨1, ![N]⟩ : Shape).Idx) :
    Host.reduceWindow IntOp.addi (![N] : Fin 1 → ℕ) ![1] ![L] ![0] x init h hu j
      = BitVec.ofNat 32 ((Finset.univ.filter fun q : Fin N =>
          q.val ≤ (j 0).val ∧ x (ValueIdx.ix1 q) = 1#32).card) := by
  rw [reduceWindow_cumsum hL x init h hu hv j, Finset.card_filter]
  refine congrArg (BitVec.ofNat 32) (Finset.sum_congr rfl fun q _ => ?_)
  by_cases hq : q.val ≤ (j 0).val
  · rcases hx (ValueIdx.ix1 q) with h0 | h1
    · rw [if_pos hq, h0, if_neg (fun hh => by exact absurd hh.2 (by decide))]
      rfl
    · rw [if_pos hq, h1, if_pos ⟨hq, rfl⟩]
      rfl
  · rw [if_neg hq, if_neg (fun hh => hq hh.1)]

/-- With fewer than `2^32` positions the count fits the word: the running sum's value, as a natural,
    IS the number of positions `q ≤ j` holding a one. -/
theorem reduceWindow_cumsum_indicator_toNat {N L : ℕ} (hL : L + 1 = N) (hN : N < 2 ^ 32) {u : Shape}
    (x : (⟨1, ![N]⟩ : Shape).Idx → BitVec 32) (init : u.Idx → BitVec 32)
    (h : (⟨1, ![N]⟩ : Shape).ReduceWindows (![N] : Fin 1 → ℕ) ![1] ![L] ![0] ⟨1, ![N]⟩) (hu : 0 < u.numel)
    (hv : init (Shape.Idx.first hu) = 0#32) (hx : ∀ q, x q = 0#32 ∨ x q = 1#32)
    (j : (⟨1, ![N]⟩ : Shape).Idx) :
    (Host.reduceWindow IntOp.addi (![N] : Fin 1 → ℕ) ![1] ![L] ![0] x init h hu j).toNat
      = (Finset.univ.filter fun q : Fin N => q.val ≤ (j 0).val ∧ x (ValueIdx.ix1 q) = 1#32).card := by
  rw [reduceWindow_cumsum_indicator hL x init h hu hv hx j, BitVec.toNat_ofNat]
  refine Nat.mod_eq_of_lt (lt_of_le_of_lt ((Finset.card_filter_le _ _).trans ?_) hN)
  rw [Finset.card_univ, Fintype.card_fin]

end Cert.Lib.WordCount
-- ==== Proof.LibWordRemainder.lean ====
/-
  Small natural numbers held in 32-bit words, and the host program's integer operations on them.

  A natural number `k` below `2³²` is the natural value of the word `BitVec.ofNat 32 k`; below `2³¹` that word's top
  bit is clear, so its signed reading is `k` too. On such words the wrapping product and sum are the words of the product
  and the sum of the numbers (`muli_ofNat`, `addi_ofNat`: the word of a number depends only on the number modulo `2³²`,
  and reduction modulo `2³²` is a ring homomorphism). The signed remainder of `k` by `d`, `0 < d`, both below `2³¹`, is
  away from the signed-division corner (the divisor is neither zero nor `-1`), both operands are non-negative, so it is
  the unsigned remainder, the word of `k % d` (`remsi_host_ofNat`). The floored remainder as a host program spells it —
  the truncated remainder `r`, plus the divisor when `r` and the divisor differ in sign and `r ≠ 0` — adds nothing here:
  neither `r` nor the divisor is negative, so the signs agree and the result is `r` itself (`floorRem_ofNat`). Likewise
  the wrap of a negative index, `select (k < 0) (k + n) k`, leaves a non-negative `k` alone (`select_slt_zero_ofNat`),
  and the guard that replaces a zero divisor by one leaves the divisor `10000` alone (`divisor_guard`).
-/
import Idealize.ShloMosaic.PureOps.Ideal
import Idealize.ShloMosaic.Lib.WordArith

noncomputable section

namespace Idealize.ShloMosaic.WordRemainder

open Idealize.ShloMosaic

/-- A natural number below `2³²` is the natural value of its 32-bit word. -/
theorem toNat_ofNat_of_lt (k : Nat) (hk : k < 2 ^ 32) : (BitVec.ofNat 32 k).toNat = k := by
  rw [BitVec.toNat_ofNat]; exact Nat.mod_eq_of_lt hk

/-- A natural number below `2³¹`, as a 32-bit word read signed and then clamped to the naturals, is itself: the signed
reading is already the number. -/
theorem toInt_toNat_ofNat (k : Nat) (hk : k < 2 ^ 31) : (BitVec.ofNat 32 k).toInt.toNat = k := by
  rw [WordArith.toInt_ofNat_small k hk]; exact Int.toNat_natCast k

/-- The wrapping product of the words of two natural numbers is the word of their product. -/
theorem muli_ofNat (a b : Nat) : IntOp.muli (BitVec.ofNat 32 a) (BitVec.ofNat 32 b) = BitVec.ofNat 32 (a * b) := by
  unfold IntOp.muli
  apply BitVec.eq_of_toNat_eq
  rw [BitVec.toNat_mul, BitVec.toNat_ofNat, BitVec.toNat_ofNat, BitVec.toNat_ofNat]
  exact (Nat.mul_mod a b (2 ^ 32)).symm

/-- The wrapping sum of the words of two natural numbers is the word of their sum. -/
theorem addi_ofNat (a b : Nat) : IntOp.addi (BitVec.ofNat 32 a) (BitVec.ofNat 32 b) = BitVec.ofNat 32 (a + b) := by
  unfold IntOp.addi
  apply BitVec.eq_of_toNat_eq
  rw [BitVec.toNat_add, BitVec.toNat_ofNat, BitVec.toNat_ofNat, BitVec.toNat_ofNat]
  exact (Nat.add_mod a b (2 ^ 32)).symm

/-- The word of a natural number below `2³¹` has its top bit clear. -/
theorem msb_ofNat_of_lt (k : Nat) (hk : k < 2 ^ 31) : (BitVec.ofNat 32 k).msb = false := by
  rw [BitVec.msb_eq_false_iff_two_mul_lt, toNat_ofNat_of_lt k (by omega)]; omega

/-- The signed remainder of `k` by `d`, for `0 < d` and both below `2³¹`, is the word of the natural remainder `k % d`:
the divisor is neither zero nor `-1`, so the operation is the truncated signed remainder, and with both operands
non-negative that is the unsigned remainder. -/
theorem remsi_host_ofNat (k d : Nat) (hk : k < 2 ^ 31) (hd0 : 0 < d) (hd : d < 2 ^ 31) :
    IntOp.remsi .host (BitVec.ofNat 32 k) (BitVec.ofNat 32 d) = BitVec.ofNat 32 (k % d) := by
  have hkn : (BitVec.ofNat 32 k).toNat = k := toNat_ofNat_of_lt k (by omega)
  have hdn : (BitVec.ofNat 32 d).toNat = d := toNat_ofNat_of_lt d (by omega)
  have hm1 : (-1 : BitVec 32).toNat = 4294967295 := by decide
  have hz : (0 : BitVec 32).toNat = 0 := rfl
  have hc : ¬ IntOp.SDivCorner (BitVec.ofNat 32 k) (BitVec.ofNat 32 d) := by
    rintro (h | ⟨_, h⟩)
    · have e := congrArg BitVec.toNat h
      rw [hdn, hz] at e; omega
    · have e := congrArg BitVec.toNat h
      rw [hdn, hm1] at e; omega
  unfold IntOp.remsi
  rw [if_neg hc, BitVec.srem_eq, msb_ofNat_of_lt k hk, msb_ofNat_of_lt d hd]
  apply BitVec.eq_of_toNat_eq
  have hlt := Nat.mod_lt k hd0
  rw [BitVec.toNat_umod, hkn, hdn, toNat_ofNat_of_lt (k % d) (by omega)]

/-- A natural number below `2³¹` is not signed-below zero. -/
theorem cmpi_slt_ofNat_zero (k : Nat) (hk : k < 2 ^ 31) : IntOp.cmpi .slt (BitVec.ofNat 32 k) 0#32 = 0#1 := by
  have h0 : (0#32 : BitVec 32).toInt = 0 := by decide
  have h : (BitVec.ofNat 32 k).slt 0#32 = false := by
    rw [BitVec.slt_eq_decide, WordArith.toInt_ofNat_small k hk, h0, decide_eq_false_iff_not]; omega
  show BitVec.ofBool ((BitVec.ofNat 32 k).slt 0#32) = 0#1
  rw [h]; rfl

/-- The floored remainder as a host program spells it — the truncated remainder `r`, plus the divisor when `r` and the
divisor differ in sign and `r` is not zero — is the word of `k % d` for `0 < d` and `k`, `d` below `2³¹`: neither `r`
nor the divisor is negative, so the correction is not taken. -/
theorem floorRem_ofNat (k d : Nat) (hk : k < 2 ^ 31) (hd0 : 0 < d) (hd : d < 2 ^ 31) :
    Scalar.select (IntOp.andi (IntOp.cmpi .ne (IntOp.cmpi .slt (IntOp.remsi .host (BitVec.ofNat 32 k) (BitVec.ofNat 32 d)) 0#32) (IntOp.cmpi .slt (BitVec.ofNat 32 d) 0#32)) (IntOp.cmpi .ne (IntOp.remsi .host (BitVec.ofNat 32 k) (BitVec.ofNat 32 d)) 0#32)) (IntOp.addi (IntOp.remsi .host (BitVec.ofNat 32 k) (BitVec.ofNat 32 d)) (BitVec.ofNat 32 d)) (IntOp.remsi .host (BitVec.ofNat 32 k) (BitVec.ofNat 32 d)) = BitVec.ofNat 32 (k % d) := by
  have hlt := Nat.mod_lt k hd0
  have hne : IntOp.cmpi .ne (0#1) (0#1) = 0#1 := by decide
  rw [remsi_host_ofNat k d hk hd0 hd, cmpi_slt_ofNat_zero (k % d) (by omega), cmpi_slt_ofNat_zero d hd, hne]
  unfold Scalar.select IntOp.andi
  rw [BitVec.zero_and, if_neg (by decide)]

/-- The wrap of a negative index, `select (k < 0) (k + n) k`, leaves a natural number `k` below `2³¹` alone. -/
theorem select_slt_zero_ofNat (k n : Nat) (hk : k < 2 ^ 31) :
    Scalar.select (IntOp.cmpi .slt (BitVec.ofNat 32 k) 0#32) (IntOp.addi (BitVec.ofNat 32 k) (BitVec.ofNat 32 n)) (BitVec.ofNat 32 k) = BitVec.ofNat 32 k := by
  rw [cmpi_slt_ofNat_zero k hk]
  unfold Scalar.select
  rw [if_neg (by decide)]

/-- The guard that replaces a zero divisor by one leaves the divisor `10000` alone. -/
theorem divisor_guard : Scalar.select (IntOp.cmpi .eq (10000#32) 0#32) 1#32 10000#32 = 10000#32 := by
  decide

end Idealize.ShloMosaic.WordRemainder

end
-- ==== Proof.LibWordReduce.lean ====
/-
  More word sums and small naturals in 32-bit words: the full reduction of an array of words by addition is the
  word of the sum of the values; sums over rank-one and rank-two index sets re-indexed by row-major position; the
  signed comparisons, the signed maximum with zero and the signed quotient of small naturals are the naturals'.
-/
import Idealize.ShloMosaic.PureOps.Contract
import Idealize.ShloMosaic.PureOps.ShapeOps
import Idealize.ShloMosaic.PureOps.Reduce
import Idealize.ShloMosaic.Lib.ValueIdx
import Idealize.ShloMosaic.Lib.WordArith
import proofs.«180595_g20298015441659_fold_wed_m_942_9_alg».proof.Proof.LibWordCount
import proofs.«180595_g20298015441659_fold_wed_m_942_9_alg».proof.Proof.LibWordRemainder

namespace Cert.Lib.WordReduce

open Idealize.ShloMosaic Idealize.ShloMosaic.ValueIdx Cert.Lib.WordCount

/-- The reduction over every axis whose body adds, from the initial value zero: the word of the sum of all the
    elements' values. -/
theorem reduce_addi_all {s t u : Shape} {axes : List (Fin s.rank)} (x : s.Idx → BitVec 32)
    (init : u.Idx → BitVec 32) (h : s.ReducesTo axes t) (hu : 0 < u.numel) (ht : t.rank = 0)
    (hv : init (Shape.Idx.first hu) = 0#32) (j : t.Idx) :
    Host.reduce IntOp.addi x init h hu j = BitVec.ofNat 32 (∑ i : s.Idx, (x i).toNat) := by
  unfold Host.reduce
  have hall : ∀ n ∈ List.finRange s.numel, decide (h.drop (s.rowMajor.symm n) = j) = true := by
    intro n _
    rw [decide_eq_true_iff]
    funext a
    exact (Fin.cast ht a).elim0
  rw [List.filter_eq_self.2 hall, foldl_addi_finRange (fun n => x (s.rowMajor.symm n)), hv, BitVec.zero_add]
  exact congrArg (BitVec.ofNat 32) (Equiv.sum_comp s.rowMajor.symm (fun i => (x i).toNat))

/-- A sum over the row-major positions of a rank-one shape is the sum over its coordinate. -/
theorem sum_rowMajor_symm_rank1 {M : Type*} [AddCommMonoid M] {N : ℕ} (G : (⟨1, ![N]⟩ : Shape).Idx → M) :
    (∑ n : Fin (⟨1, ![N]⟩ : Shape).numel, G ((⟨1, ![N]⟩ : Shape).rowMajor.symm n)) = ∑ p : Fin N, G (ix1 p) := by
  rw [Equiv.sum_comp (⟨1, ![N]⟩ : Shape).rowMajor.symm G]
  exact (Fintype.sum_equiv
    (⟨fun p => ix1 p, fun i => i 0, fun p => rfl, fun i => (eq_ix1 i).symm⟩ : Fin N ≃ (⟨1, ![N]⟩ : Shape).Idx)
    _ _ fun p => rfl).symm

/-- A sum over a rank-two index set is the sum over the row-major positions `p = n1 * i + j`, read back as
    `(p / n1, p % n1)`. -/
theorem sum_idx2_flat {M : Type*} [AddCommMonoid M] {n0 n1 : ℕ} (h1 : 0 < n1)
    (G : (⟨2, ![n0, n1]⟩ : Shape).Idx → M) :
    ∑ i, G i = ∑ p : Fin (n0 * n1),
      G (ix2 ⟨p.val / n1, (Nat.div_lt_iff_lt_mul h1).2 p.isLt⟩ ⟨p.val % n1, Nat.mod_lt _ h1⟩) := by
  rw [sum_idx2, ← Fintype.sum_prod_type' (f := fun a b => G (ix2 a b)),
    ← Equiv.sum_comp finProdFinEquiv.symm (fun ab : Fin n0 × Fin n1 => G (ix2 ab.1 ab.2))]
  refine Finset.sum_congr rfl fun p _ => ?_
  rfl

/-- A bit widened to a word is one or zero. -/
theorem setWidth_ofBool (c : Bool) : (BitVec.ofBool c).setWidth 32 = if c = true then 1#32 else 0#32 := by
  cases c <;> rfl

/-- Signed less-than on the words of two naturals below `2³¹` is less-than on the naturals. -/
theorem slt_ofNat (a b : ℕ) (ha : a < 2 ^ 31) (hb : b < 2 ^ 31) :
    (BitVec.ofNat 32 a).slt (BitVec.ofNat 32 b) = decide (a < b) := by
  rw [BitVec.slt_eq_decide, WordArith.toInt_ofNat_small a ha, WordArith.toInt_ofNat_small b hb]
  exact decide_eq_decide.2 Nat.cast_lt

/-- Signed at-most on the words of two naturals below `2³¹` is at-most on the naturals. -/
theorem sle_ofNat (a b : ℕ) (ha : a < 2 ^ 31) (hb : b < 2 ^ 31) :
    (BitVec.ofNat 32 a).sle (BitVec.ofNat 32 b) = decide (a ≤ b) := by
  rw [BitVec.sle_eq_decide, WordArith.toInt_ofNat_small a ha, WordArith.toInt_ofNat_small b hb]
  exact decide_eq_decide.2 Nat.cast_le

/-- The comparison `slt` of the words of two small naturals holds exactly when the first is less. -/
theorem cmpi_slt_ofNat (a b : ℕ) (ha : a < 2 ^ 31) (hb : b < 2 ^ 31) :
    IntOp.cmpi .slt (BitVec.ofNat 32 a) (BitVec.ofNat 32 b) = 1#1 ↔ a < b := by
  show BitVec.ofBool ((BitVec.ofNat 32 a).slt (BitVec.ofNat 32 b)) = 1#1 ↔ _
  rw [WordArith.ofBool_eq_one_iff, slt_ofNat a b ha hb, decide_eq_true_iff]

/-- The comparison `sge` of the words of two small naturals holds exactly when the second is at most the first. -/
theorem cmpi_sge_ofNat (a b : ℕ) (ha : a < 2 ^ 31) (hb : b < 2 ^ 31) :
    IntOp.cmpi .sge (BitVec.ofNat 32 a) (BitVec.ofNat 32 b) = 1#1 ↔ b ≤ a := by
  show BitVec.ofBool ((BitVec.ofNat 32 b).sle (BitVec.ofNat 32 a)) = 1#1 ↔ _
  rw [WordArith.ofBool_eq_one_iff, sle_ofNat b a hb ha, decide_eq_true_iff]

/-- The signed maximum of zero and the word of a small natural is that word. -/
theorem maxsi_zero_ofNat (k : ℕ) (hk : k < 2 ^ 31) : IntOp.maxsi 0#32 (BitVec.ofNat 32 k) = BitVec.ofNat 32 k := by
  unfold IntOp.maxsi
  rw [if_neg]
  rw [show (0#32 : BitVec 32) = BitVec.ofNat 32 0 from rfl, slt_ofNat k 0 hk (by norm_num)]
  simp

/-- The running sum of a mask written as words (one where the bit is set, zero elsewhere): the word of the number of
    set positions `q ≤ j`. -/
theorem reduceWindow_cumsum_mask {N L : ℕ} (hL : L + 1 = N) {u : Shape}
    (x : (⟨1, ![N]⟩ : Shape).Idx → BitVec 32) (init : u.Idx → BitVec 32)
    (h : (⟨1, ![N]⟩ : Shape).ReduceWindows (![N] : Fin 1 → ℕ) ![1] ![L] ![0] ⟨1, ![N]⟩) (hu : 0 < u.numel)
    (hv : init (Shape.Idx.first hu) = 0#32) (b : Fin N → Bool)
    (hx : ∀ q : Fin N, x (ix1 q) = if b q = true then 1#32 else 0#32) (j : (⟨1, ![N]⟩ : Shape).Idx) :
    Host.reduceWindow IntOp.addi (![N] : Fin 1 → ℕ) ![1] ![L] ![0] x init h hu j
      = BitVec.ofNat 32 ((Finset.univ.filter fun q : Fin N => q.val ≤ (j 0).val ∧ b q = true).card) := by
  rw [reduceWindow_cumsum hL x init h hu hv j, Finset.card_filter]
  refine congrArg (BitVec.ofNat 32) (Finset.sum_congr rfl fun q _ => ?_)
  rw [hx q]
  by_cases hq : q.val ≤ (j 0).val
  · by_cases hb : b q = true
    · rw [if_pos hq, if_pos hb, if_pos ⟨hq, hb⟩]; rfl
    · rw [if_pos hq, if_neg hb, if_neg (fun hh => hb hh.2)]; rfl
  · rw [if_neg hq, if_neg (fun hh => hq hh.1)]

/-- The signed quotient of `k` by `d`, for `0 < d` and both below `2³¹`, is the word of the natural quotient. -/
theorem divsi_host_ofNat (k d : ℕ) (hk : k < 2 ^ 31) (hd0 : 0 < d) (hd : d < 2 ^ 31) :
    IntOp.divsi .host (BitVec.ofNat 32 k) (BitVec.ofNat 32 d) = BitVec.ofNat 32 (k / d) := by
  have hkn : (BitVec.ofNat 32 k).toNat = k := by rw [BitVec.toNat_ofNat]; exact Nat.mod_eq_of_lt (by omega)
  have hdn : (BitVec.ofNat 32 d).toNat = d := by rw [BitVec.toNat_ofNat]; exact Nat.mod_eq_of_lt (by omega)
  have hm1 : (-1 : BitVec 32).toNat = 4294967295 := by decide
  have hz : (0 : BitVec 32).toNat = 0 := rfl
  have hmk : (BitVec.ofNat 32 k).msb = false := by rw [BitVec.msb_eq_false_iff_two_mul_lt, hkn]; omega
  have hmd : (BitVec.ofNat 32 d).msb = false := by rw [BitVec.msb_eq_false_iff_two_mul_lt, hdn]; omega
  have hc : ¬ IntOp.SDivCorner (BitVec.ofNat 32 k) (BitVec.ofNat 32 d) := by
    rintro (h | ⟨_, h⟩)
    · have e := congrArg BitVec.toNat h
      rw [hdn, hz] at e; omega
    · have e := congrArg BitVec.toNat h
      rw [hdn, hm1] at e; omega
  unfold IntOp.divsi
  rw [if_neg hc, BitVec.sdiv_eq, hmk, hmd]
  apply BitVec.eq_of_toNat_eq
  have hle := Nat.div_le_self k d
  show ((BitVec.ofNat 32 k) / (BitVec.ofNat 32 d)).toNat = _
  rw [BitVec.toNat_udiv, hkn, hdn, BitVec.toNat_ofNat, Nat.mod_eq_of_lt (by omega)]

/-- The adding scatter with a rank-one array of updates, the sum taken over the update's coordinate. -/
theorem scatter_addi_rank1 {s si : Shape} {R w : ℕ} (d : ScatterDims s si ⟨1, ![R]⟩) (x : s.Idx → BitVec 32)
    (idx : IVec si w) (upd : (⟨1, ![R]⟩ : Shape).Idx → BitVec 32) (i' : s.Idx) :
    Host.scatter d IntOp.addi x idx upd i'
      = x i' + BitVec.ofNat 32 (∑ p : Fin R,
          if d.resultIdx? (ix1 p) idx = some i' then (upd (ix1 p)).toNat else 0) := by
  rw [scatter_addi]
  exact congrArg (fun t => x i' + BitVec.ofNat 32 t)
    (sum_rowMajor_symm_rank1 (fun i => if d.resultIdx? i idx = some i' then (upd i).toNat else 0))

/-- The sign word (zero, one or minus one) of the word of a positive natural below `2³¹` is one. -/
theorem sign_ofNat_pos (k : ℕ) (hk0 : 0 < k) (hk : k < 2 ^ 31) :
    (if BitVec.ofNat 32 k = 0 then (0 : BitVec 32) else if (BitVec.ofNat 32 k).msb then -1 else 1) = 1 := by
  have hkn : (BitVec.ofNat 32 k).toNat = k := by rw [BitVec.toNat_ofNat]; exact Nat.mod_eq_of_lt (by omega)
  have hmk : (BitVec.ofNat 32 k).msb = false := by rw [BitVec.msb_eq_false_iff_two_mul_lt, hkn]; omega
  have hne : BitVec.ofNat 32 k ≠ 0 := by
    intro h
    have e := congrArg BitVec.toNat h
    rw [hkn] at e
    have hz : (0 : BitVec 32).toNat = 0 := rfl
    omega
  rw [if_neg hne, hmk]
  rfl

/-- The floored quotient as a host program spells it — the truncated quotient, less one where the operands' signs
    differ and the remainder is not zero — of the words of `k` and `d`, `0 < d`, both below `2³¹`: the word of
    `k / d`. Either the remainder is zero, or `k` is positive and the signs agree; the correction is never taken. -/
theorem floorDiv_ofNat (k d : ℕ) (hk : k < 2 ^ 31) (hd0 : 0 < d) (hd : d < 2 ^ 31) :
    Scalar.select
      (IntOp.andi
        (IntOp.cmpi .ne
          (if BitVec.ofNat 32 k = 0 then (0 : BitVec 32) else if (BitVec.ofNat 32 k).msb then -1 else 1)
          (if BitVec.ofNat 32 d = 0 then (0 : BitVec 32) else if (BitVec.ofNat 32 d).msb then -1 else 1))
        (IntOp.cmpi .ne (IntOp.remsi .host (BitVec.ofNat 32 k) (BitVec.ofNat 32 d)) 0#32))
      (IntOp.subi (IntOp.divsi .host (BitVec.ofNat 32 k) (BitVec.ofNat 32 d)) 1#32)
      (IntOp.divsi .host (BitVec.ofNat 32 k) (BitVec.ofNat 32 d)) = BitVec.ofNat 32 (k / d) := by
  rw [WordRemainder.remsi_host_ofNat k d hk hd0 hd, divsi_host_ofNat k d hk hd0 hd]
  by_cases hr : k % d = 0
  · rw [hr]
    have h0 : IntOp.cmpi .ne (BitVec.ofNat 32 0) 0#32 = 0#1 := by decide
    rw [h0]
    unfold Scalar.select IntOp.andi
    rw [BitVec.and_zero, if_neg (by decide)]
  · have hk0 : 0 < k := by
      rcases Nat.eq_zero_or_pos k with h | h
      · rw [h, Nat.zero_mod] at hr; exact absurd rfl hr
      · exact h
    rw [sign_ofNat_pos k hk0 hk, sign_ofNat_pos d hd0 hd]
    have h0 : IntOp.cmpi .ne (1 : BitVec 32) 1 = 0#1 := by decide
    rw [h0]
    unfold Scalar.select IntOp.andi
    rw [BitVec.zero_and, if_neg (by decide)]

end Cert.Lib.WordReduce
-- ==== Proof.LibScatterEntries.lean ====
/-
  A scatter of single entries into a one-axis operand, read entry by entry.

  The operand has one axis of extent `N`, the start indices are one entry number per update (`[R, 1]`, read signed
  and not clamped) and the updates are one value per update (`[R]`).  Update `e` lands on operand entry `idx[e, 0]`
  when that number is in `[0, N)` and is dropped otherwise: the operand's one axis is an inserted window axis, so the
  window coordinate is `0` and the start is the update's index.  So update `e` lands on entry `i` exactly when
  `idx[e, 0] = i`; with an accumulating float body into zeros, entry `i` of the result is the sum of the updates
  whose start index reads `i`.
-/
import Idealize.ShloMosaic.PureOps.Ideal
import Idealize.ShloMosaic.PureOps.Ideal.Laws
import Idealize.ShloMosaic.Lib.ValueIdx

noncomputable section

namespace Cert.LibScatterEntries

open Idealize.ShloMosaic Idealize.ShloMosaic.ValueIdx

variable {N R w : ℕ}

/-- The dimension numbers of `x.at[idx].add(v)` / `.set(v)` on a one-axis `x` with one index per update. -/
abbrev entriesScatter (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- On the operand's axis the window of update `e` starts at the update's start index, read signed. -/
theorem start_entry (wf : ScatterDims.WF ⟨1, ![N]⟩ ⟨2, ![R, 1]⟩ ⟨1, ![R]⟩ [] [0] [0] 1)
    (idx : IVec ⟨2, ![R, 1]⟩ w) (e : Fin R) :
    (entriesScatter N R wf).start (ix1 e) idx 0 = (idx (ix2 e (0 : Fin 1))).toInt := by
  unfold ScatterDims.start
  rw [dif_pos (show (0 : Fin 1) ∈ (entriesScatter N R wf).scatterDimsToOperandDims from List.mem_singleton.mpr rfl)]
  have hsi : (entriesScatter N R wf).siIdx (ix1 e) ⟨List.idxOf (0 : Fin 1) (entriesScatter N R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's axis is an inserted window axis: its window coordinate is `0`. -/
theorem window_entry (wf : ScatterDims.WF ⟨1, ![N]⟩ ⟨2, ![R, 1]⟩ ⟨1, ![R]⟩ [] [0] [0] 1)
    (e : Fin R) : (entriesScatter N R wf).window (ix1 e) 0 = 0 := by
  unfold ScatterDims.window
  rw [dif_neg]
  intro hmem
  have := (List.mem_filter.mp hmem).2
  simp at this

/-- WHERE AN UPDATE LANDS.  Update `e` lands on operand entry `i` exactly when its start index, read signed, is `i`. -/
theorem resultIdx_eq_some_iff (wf : ScatterDims.WF ⟨1, ![N]⟩ ⟨2, ![R, 1]⟩ ⟨1, ![R]⟩ [] [0] [0] 1)
    (idx : IVec ⟨2, ![R, 1]⟩ w) (e : Fin R) (i : Fin N) :
    (entriesScatter N R wf).resultIdx? (ix1 e) idx = some (ix1 i)
      ↔ (idx (ix2 e (0 : Fin 1))).toInt = (i.val : ℤ) := by
  have hs0 := start_entry wf idx e
  have hw0 := window_entry wf e
  constructor
  · intro h
    unfold ScatterDims.resultIdx? at h
    split at h
    · rename_i hall
      have ht := Option.some.inj h
      have h0 : ((entriesScatter N R wf).start (ix1 e) idx 0
          + ((entriesScatter N R wf).window (ix1 e) 0 : ℤ)).toNat = i.val := congrArg Fin.val (congrFun ht 0)
      have hpos := (hall 0).1
      rw [hs0, hw0] at h0 hpos
      omega
    · exact absurd h (by simp)
  · intro hi
    have hall : ∀ a, 0 ≤ (entriesScatter N R wf).start (ix1 e) idx a + ((entriesScatter N R wf).window (ix1 e) a : ℤ)
        ∧ (entriesScatter N R wf).start (ix1 e) idx a + ((entriesScatter N R wf).window (ix1 e) a : ℤ)
          < ((⟨1, ![N]⟩ : Shape).size a : ℤ) := by
      intro a
      match a with
      | ⟨0, _⟩ =>
        show 0 ≤ (entriesScatter N R wf).start (ix1 e) idx 0 + ((entriesScatter N R wf).window (ix1 e) 0 : ℤ)
          ∧ (entriesScatter N R wf).start (ix1 e) idx 0 + ((entriesScatter N R wf).window (ix1 e) 0 : ℤ) < (N : ℤ)
        rw [hs0, hw0, hi]
        have := i.isLt
        omega
    unfold ScatterDims.resultIdx?
    rw [dif_pos hall]
    congr 1
    funext a
    refine Fin.ext ?_
    match a with
    | ⟨0, _⟩ =>
      show ((entriesScatter N R wf).start (ix1 e) idx 0
          + ((entriesScatter N R wf).window (ix1 e) 0 : ℤ)).toNat = i.val
      rw [hs0, hw0, hi]
      omega

/-- THE ACCUMULATING SCATTER INTO ZEROS READ AT `i`: the sum of the updates whose start index reads `i`. -/
theorem scatter_entries_entry (wf : ScatterDims.WF ⟨1, ![N]⟩ ⟨2, ![R, 1]⟩ ⟨1, ![R]⟩ [] [0] [0] 1)
    (idx : IVec ⟨2, ![R, 1]⟩ w) (upd : (⟨1, ![R]⟩ : Shape).Idx → EReal) (i : Fin N) :
    Ideal.hostScatterAdd (entriesScatter N R wf) (fun _ => 0) idx upd (ix1 i)
      = 0 + ∑ e ∈ Finset.univ.filter (fun e : Fin R => (idx (ix2 e (0 : Fin 1))).toInt = (i.val : ℤ)),
          upd (ix1 e) := by
  unfold Ideal.hostScatterAdd
  congr 1
  refine Finset.sum_nbij' (fun u => u 0) (fun e => ix1 e) ?_ ?_ ?_ ?_ ?_
  · intro u hu
    have hu' := (Finset.mem_filter.mp hu).2
    rw [eq_ix1 u] at hu'
    exact Finset.mem_filter.mpr ⟨Finset.mem_univ _, (resultIdx_eq_some_iff wf idx _ i).mp hu'⟩
  · intro e he
    have he' := (Finset.mem_filter.mp he).2
    exact Finset.mem_filter.mpr ⟨Finset.mem_univ _, (resultIdx_eq_some_iff wf idx e i).mpr he'⟩
  · intro u _
    exact (eq_ix1 u).symm
  · intro e _
    rfl
  · intro u _
    exact congrArg upd (eq_ix1 u)

end Cert.LibScatterEntries

end
-- ==== Proof.RefEdges.lean ====
/-
  The reference program's edge list read at an index: with the flattened nonzero mask of the adjacency matrix as a
  Boolean function of the row-major position, the total is the word of the number of marks, slot `e` is valid exactly
  below the total, and the row and column of slot `e` are the quotient and remainder by 1024 of the position of the
  `(e+1)`-th mark.
-/
import proofs.«180595_g20298015441659_fold_wed_m_942_9_alg».proof.Proof.RefStages
import proofs.«180595_g20298015441659_fold_wed_m_942_9_alg».proof.Proof.LibNonzeroCount
import proofs.«180595_g20298015441659_fold_wed_m_942_9_alg».proof.Proof.LibWordCount
import proofs.«180595_g20298015441659_fold_wed_m_942_9_alg».proof.Proof.LibWordReduce
import proofs.«180595_g20298015441659_fold_wed_m_942_9_alg».proof.Proof.LibScatterEntries
import proofs.«180595_g20298015441659_fold_wed_m_942_9_alg».proof.Proof.LibWordRemainder

noncomputable section

namespace Cert.ReferenceIdeal.Edges

open Cert.ReferenceIdeal Idealize.ShloMosaic Idealize.ShloMosaic.ValueIdx Cert.Lib
open Facts₀ Facts

variable [Facts]

/-- The flattened nonzero mask: position `p = 1024·i + j` is marked when the adjacency word at `(i, j)` is not zero. -/
def nz (A : IVec S1024x1024 32) (p : Fin 1048576) : Bool :=
  decide (A (ix2 ⟨p.val / 1024, by have := p.isLt; omega⟩ ⟨p.val % 1024, by omega⟩) ≠ 0#32)

/-- A scalar broadcast to the [1048576] array reads the scalar at every position. -/
theorem bcast_scalar {w : ℕ} (c : IVec S_ w) (i : S1048576.Idx) :
    broadcastInDim S1048576 ![] bcast_S_S1048576 c i = c ix0 :=
  congrArg c (funext fun a => a.elim0)

/-- The mask bit widened to a word: one where the adjacency word is not zero, zero elsewhere. -/
theorem maskWord (A : IVec S1024x1024 32) (i : S1024x1024.Idx) :
    (RefValue.mask A i).setWidth 32 = if A i ≠ 0#32 then 1#32 else 0#32 := by
  show (BitVec.ofBool (A i != 0#32)).setWidth 32 = _
  rw [WordReduce.setWidth_ofBool]
  by_cases h : A i = 0#32
  · simp [h]
  · simp [h]

/-- The total is the word of the number of marked positions. -/
theorem total_eq (A : IVec S1024x1024 32) :
    RefValue.total A ix0 = BitVec.ofNat 32 (NonzeroCount.total (nz A)) := by
  unfold RefValue.total
  rw [WordReduce.reduce_addi_all _ _ _ _ rfl rfl, WordReduce.sum_idx2_flat (by norm_num : 0 < 1024)]
  unfold NonzeroCount.total
  rw [Finset.card_filter]
  refine congrArg (BitVec.ofNat 32) (Finset.sum_congr rfl fun p _ => ?_)
  show ((RefValue.mask A _).setWidth 32).toNat = _
  rw [maskWord]
  unfold nz
  by_cases h : A (ix2 ⟨p.val / 1024, by have := p.isLt; omega⟩ ⟨p.val % 1024, by omega⟩) = 0#32
  · simp [h]
  · simp [h]

/-- The count_nonzero scalar is the same reduction as the total. -/
theorem count_eq_total (A : IVec S1024x1024 32) : RefValue.count A = RefValue.total A := rfl

/-- The count is the word of the number of marked positions. -/
theorem count_eq (A : IVec S1024x1024 32) :
    RefValue.count A ix0 = BitVec.ofNat 32 (NonzeroCount.total (nz A)) := by
  rw [count_eq_total, total_eq]

/-- Slot `e` is valid exactly when `e` is below the number of marked positions. -/
theorem valid_iff (A : IVec S1024x1024 32) (e : Fin 1048576) :
    RefValue.valid A (ix1 e) = 1#1 ↔ e.val < NonzeroCount.total (nz A) := by
  have h1 : RefValue.valid A (ix1 e) = IntOp.cmpi .slt (BitVec.ofNat 32 e.val) (RefValue.count A ix0) := by
    show IntOp.cmpi .slt (BitVec.ofNat 32 ((ix1 e) 0).val)
      (broadcastInDim S1048576 ![] bcast_S_S1048576 (RefValue.count A) (ix1 e)) = _
    rw [bcast_scalar]
  have ht := NonzeroCount.total_le (nz A)
  rw [h1, count_eq]
  exact WordReduce.cmpi_slt_ofNat _ _ (by have := e.isLt; omega) (by omega)

/-- Slot `e` is past the end exactly when the number of marked positions is at most `e`. -/
theorem pastEnd_iff (A : IVec S1024x1024 32) (e : Fin 1048576) :
    RefValue.pastEnd A (ix1 e) = 1#1 ↔ NonzeroCount.total (nz A) ≤ e.val := by
  have h1 : RefValue.pastEnd A (ix1 e) = IntOp.cmpi .sge (BitVec.ofNat 32 e.val) (RefValue.total A ix0) := by
    show IntOp.cmpi .sge (BitVec.ofNat 32 ((ix1 e) 0).val)
      (broadcastInDim S1048576 ![] bcast_S_S1048576 (RefValue.total A) (ix1 e)) = _
    rw [bcast_scalar]
  have ht := NonzeroCount.total_le (nz A)
  rw [h1, total_eq]
  exact WordReduce.cmpi_sge_ofNat _ _ (by have := e.isLt; omega) (by omega)

/-! ## The integer chain, stage by stage -/

/-- The select on a bit that is not one takes its second branch. -/
theorem select_of_ne_one {α : Type} (c : BitVec 1) (a b : α) (h : ¬ c = 1#1) : Scalar.select c a b = b := if_neg h

/-- The select on the bit one takes its first branch. -/
theorem select_of_eq_one {α : Type} (c : BitVec 1) (a b : α) (h : c = 1#1) : Scalar.select c a b = a := if_pos h

/-- The running count is below `2³¹`. -/
theorem cum_lt (A : IVec S1024x1024 32) (p : Fin 1048576) : NonzeroCount.cum (nz A) p < 2 ^ 31 := by
  have h1 := NonzeroCount.cum_le_total (nz A) p
  have h2 := NonzeroCount.total_le (nz A)
  omega

/-- The flattened, widened mask at position `p`: one where marked, zero elsewhere. -/
theorem maskFlat_eq (A : IVec S1024x1024 32) (p : Fin 1048576) :
    RefValue.maskFlat A (ix1 p) = if nz A p = true then 1#32 else 0#32 := by
  have hidx : Shape.reshapeEquiv shapeCasts_S1024x1024_S1048576 (ix1 p)
      = ix2 ⟨p.val / 1024, by have := p.isLt; omega⟩ ⟨p.val % 1024, by omega⟩ := by
    apply Shape.reshapeEquiv_eq_of_rowMajor
    rw [Shape.rowMajor_val_two, Shape.rowMajor_val_one]
    show p.val / 1024 * 1024 + p.val % 1024 = p.val
    omega
  show (RefValue.mask A (Shape.reshapeEquiv shapeCasts_S1024x1024_S1048576 (ix1 p))).setWidth 32 = _
  rw [hidx, maskWord]
  unfold nz
  by_cases h : A (ix2 ⟨p.val / 1024, by have := p.isLt; omega⟩ ⟨p.val % 1024, by omega⟩) = 0#32
  · simp [h]
  · simp [h]

/-- The prefix sum at position `p` is the word of the running count. -/
theorem prefixSum_eq (A : IVec S1024x1024 32) (p : Fin 1048576) :
    RefValue.prefixSum A (ix1 p) = BitVec.ofNat 32 (NonzeroCount.cum (nz A) p) := by
  unfold RefValue.prefixSum RefValue.cumsumE
  refine (WordReduce.reduceWindow_cumsum_mask (N := 1048576) (L := 1048575) rfl _ _ _ _ rfl (nz A)
    (maskFlat_eq A) (ix1 p)).trans ?_
  unfold NonzeroCount.cum
  exact congrArg (BitVec.ofNat 32) (congrArg Finset.card (Finset.filter_congr fun q _ => Iff.rfl))

/-- Clipping below at zero changes nothing: the running count is not negative. -/
theorem clipped_eq (A : IVec S1024x1024 32) (p : Fin 1048576) :
    RefValue.clipped A (ix1 p) = BitVec.ofNat 32 (NonzeroCount.cum (nz A) p) := by
  show IntOp.maxsi 0#32 (RefValue.prefixSum A (ix1 p)) = _
  rw [prefixSum_eq]
  exact WordReduce.maxsi_zero_ofNat _ (cum_lt A p)

/-- A [1048576] array as a [1048576,1] column reads the array at the row. -/
theorem bcast_col {α : Type} (v : S1048576.Idx → α) (p : Fin 1048576) :
    broadcastInDim S1048576x1 ![0] bcast_S1048576_S1048576x1_0 v (ix2 p (0 : Fin 1)) = v (ix1 p) := by
  unfold broadcastInDim
  refine congrArg v (funext fun a => ?_)
  match a with
  | ⟨0, _⟩ =>
    rw [dif_neg]
    · rfl
    · show ¬ (1048576 : ℕ) = 1
      norm_num

/-- The scatter position of flattened entry `p` is the word of the running count: the wrap of negative indices does
    nothing. -/
theorem binIdx_eq (A : IVec S1024x1024 32) (p : Fin 1048576) :
    RefValue.binIdx A (ix2 p (0 : Fin 1)) = BitVec.ofNat 32 (NonzeroCount.cum (nz A) p) := by
  unfold RefValue.binIdx
  rw [bcast_col]
  show Scalar.select (IntOp.cmpi .slt (RefValue.clipped A (ix1 p)) 0#32)
    (IntOp.addi (RefValue.clipped A (ix1 p)) 1048576#32) (RefValue.clipped A (ix1 p)) = _
  rw [clipped_eq]
  exact WordRemainder.select_slt_zero_ofNat _ 1048576 (cum_lt A p)

/-- Bin `k` holds the word of the number of flattened entries whose running count is `k`. -/
theorem bins_eq (A : IVec S1024x1024 32) (k : Fin 1048576) :
    RefValue.bins A (ix1 k) = BitVec.ofNat 32
      ((Finset.univ.filter fun p : Fin 1048576 => NonzeroCount.cum (nz A) p = k.val).card) := by
  unfold RefValue.bins
  rw [WordReduce.scatter_addi_rank1, Finset.card_filter]
  show (0#32 : BitVec 32) + _ = _
  rw [BitVec.zero_add]
  refine congrArg (BitVec.ofNat 32) (Finset.sum_congr rfl fun p _ => ?_)
  have hiff := LibScatterEntries.resultIdx_eq_some_iff (N := 1048576) (R := 1048576)
    scatter_S1048576_S1048576x1_S1048576_n_0_0_1_wf (RefValue.binIdx A) p k
  rw [binIdx_eq, WordArith.toInt_ofNat_small _ (cum_lt A p)] at hiff
  have hiff' : scatter_S1048576_S1048576x1_S1048576_n_0_0_1.resultIdx? (ix1 p) (RefValue.binIdx A) = some (ix1 k)
      ↔ NonzeroCount.cum (nz A) p = k.val := hiff.trans Nat.cast_inj
  exact if_congr hiff' rfl rfl

/-- Summing, over the counts `q ≤ e`, the number of positions whose running count is `q` gives the number of
    positions whose running count is at most `e`. -/
theorem sum_fiber_card {N : ℕ} (b : Fin N → Bool) (e : Fin N) :
    (∑ q : Fin N, if q.val ≤ e.val
        then (Finset.univ.filter fun p : Fin N => NonzeroCount.cum b p = q.val).card else 0)
      = NonzeroCount.pos b e.val := by
  unfold NonzeroCount.pos
  rw [Finset.card_filter]
  calc (∑ q : Fin N, if q.val ≤ e.val
          then (Finset.univ.filter fun p : Fin N => NonzeroCount.cum b p = q.val).card else 0)
      = ∑ q : Fin N, ∑ p : Fin N, (if q.val ≤ e.val ∧ NonzeroCount.cum b p = q.val then 1 else 0) := by
        refine Finset.sum_congr rfl fun q _ => ?_
        by_cases hq : q.val ≤ e.val
        · rw [if_pos hq, Finset.card_filter]
          refine Finset.sum_congr rfl fun p _ => ?_
          by_cases hp : NonzeroCount.cum b p = q.val
          · rw [if_pos hp, if_pos ⟨hq, hp⟩]
          · rw [if_neg hp, if_neg (fun h => hp h.2)]
        · rw [if_neg hq]
          exact (Finset.sum_eq_zero fun p _ => if_neg (fun h => hq h.1)).symm
    _ = ∑ p : Fin N, ∑ q : Fin N, (if q.val ≤ e.val ∧ NonzeroCount.cum b p = q.val then 1 else 0) :=
        Finset.sum_comm
    _ = ∑ p : Fin N, (if NonzeroCount.cum b p ≤ e.val then 1 else 0) := by
        refine Finset.sum_congr rfl fun p _ => ?_
        by_cases hc : NonzeroCount.cum b p ≤ e.val
        · rw [if_pos hc, Finset.sum_eq_single (⟨NonzeroCount.cum b p, lt_of_le_of_lt hc e.isLt⟩ : Fin N)]
          · exact if_pos ⟨hc, rfl⟩
          · intro q _ hne
            exact if_neg (fun h => hne (Fin.ext h.2.symm))
          · intro h
            exact absurd (Finset.mem_univ _) h
        · rw [if_neg hc]
          exact Finset.sum_eq_zero fun q _ => if_neg (fun h => hc (by rw [h.2]; exact h.1))

/-- Slot `e` of the running sum of the bins is the word of the number of positions whose running count is at most
    `e`: the position of the `(e+1)`-th mark, or the length past the marks. -/
theorem pos_eq (A : IVec S1024x1024 32) (e : Fin 1048576) :
    RefValue.pos A (ix1 e) = BitVec.ofNat 32 (NonzeroCount.pos (nz A) e.val) := by
  unfold RefValue.pos RefValue.cumsumE
  refine (WordCount.reduceWindow_cumsum (N := 1048576) (L := 1048575) rfl _ _ _ _ rfl (ix1 e)).trans ?_
  refine congrArg (BitVec.ofNat 32) ?_
  rw [← sum_fiber_card (nz A) e]
  refine Finset.sum_congr rfl fun q _ => ?_
  have hle : (Finset.univ.filter fun p : Fin 1048576 => NonzeroCount.cum (nz A) p = q.val).card ≤ 1048576 :=
    (Finset.card_filter_le _ _).trans (by rw [Finset.card_univ, Fintype.card_fin])
  rw [bins_eq, BitVec.toNat_ofNat, Nat.mod_eq_of_lt (by omega)]

/-- The floored quotient of a [1048576] array by a scalar constant, at an index holding a small natural. -/
theorem floorDiv_apply (x : IVec S1048576 32) (D : ℕ) (i : S1048576.Idx) (k : ℕ)
    (hx : x i = BitVec.ofNat 32 k) (hk : k < 2 ^ 31) (hD0 : 0 < D) (hD : D < 2 ^ 31) :
    RefValue.floorDiv x (constantI S_ 32 (BitVec.ofNat 32 D)) i = BitVec.ofNat 32 (k / D) := by
  show Scalar.select
      (IntOp.andi
        (IntOp.cmpi .ne
          (if x i = 0 then (0 : BitVec 32) else if (x i).msb then -1 else 1)
          (if BitVec.ofNat 32 D = 0 then (0 : BitVec 32) else if (BitVec.ofNat 32 D).msb then -1 else 1))
        (IntOp.cmpi .ne (IntOp.remsi .host (x i) (BitVec.ofNat 32 D)) 0#32))
      (IntOp.subi (IntOp.divsi .host (x i) (BitVec.ofNat 32 D)) 1#32)
      (IntOp.divsi .host (x i) (BitVec.ofNat 32 D)) = _
  rw [hx]
  exact WordReduce.floorDiv_ofNat k D hk hD0 hD

/-- The floored remainder of a [1048576] array by the scalar constant 1024, at an index holding a small natural. -/
theorem floorRem_apply (x : IVec S1048576 32) (i : S1048576.Idx) (k : ℕ)
    (hx : x i = BitVec.ofNat 32 k) (hk : k < 2 ^ 31) :
    RefValue.floorRem x (constantI S_ 32 1024#32) i = BitVec.ofNat 32 (k % 1024) := by
  have hSD : (Scalar.select (IntOp.cmpi .eq (1024#32) 0#32) 1#32 1024#32) = BitVec.ofNat 32 1024 := by decide
  show Scalar.select
      (IntOp.andi
        (IntOp.cmpi .ne (IntOp.cmpi .slt (IntOp.remsi .host (x i) (Scalar.select (IntOp.cmpi .eq (1024#32) 0#32) 1#32 1024#32)) 0#32) (IntOp.cmpi .slt (Scalar.select (IntOp.cmpi .eq (1024#32) 0#32) 1#32 1024#32) 0#32))
        (IntOp.cmpi .ne (IntOp.remsi .host (x i) (Scalar.select (IntOp.cmpi .eq (1024#32) 0#32) 1#32 1024#32)) 0#32))
      (IntOp.addi (IntOp.remsi .host (x i) (Scalar.select (IntOp.cmpi .eq (1024#32) 0#32) 1#32 1024#32)) (Scalar.select (IntOp.cmpi .eq (1024#32) 0#32) 1#32 1024#32))
      (IntOp.remsi .host (x i) (Scalar.select (IntOp.cmpi .eq (1024#32) 0#32) 1#32 1024#32)) = _
  rw [hSD, hx]
  exact WordRemainder.floorRem_ofNat k 1024 hk (by norm_num) (by norm_num)

/-- The position word is below `2³¹`. -/
theorem pos_lt_pow (A : IVec S1024x1024 32) (e : ℕ) : NonzeroCount.pos (nz A) e < 2 ^ 31 := by
  have := NonzeroCount.pos_le (nz A) e
  omega

/-- Below the total, the row of slot `e` is the quotient by 1024 of the position of the `(e+1)`-th mark. -/
theorem rows_of_lt (A : IVec S1024x1024 32) (e : Fin 1048576) (h : e.val < NonzeroCount.total (nz A)) :
    RefValue.rows A (ix1 e) = BitVec.ofNat 32 (NonzeroCount.pos (nz A) e.val / 1024) := by
  have hp := NonzeroCount.pos_lt (nz A) h
  have hpe : ¬ RefValue.pastEnd A (ix1 e) = 1#1 := fun hh => by
    have := (pastEnd_iff A e).1 hh
    omega
  show Scalar.select (RefValue.pastEnd A (ix1 e)) 0#32 (RefValue.rowsRaw A (ix1 e)) = _
  rw [select_of_ne_one _ _ _ hpe]
  unfold RefValue.rowsRaw
  rw [floorRem_apply _ _ (NonzeroCount.pos (nz A) e.val / 1024)
    (floorDiv_apply (RefValue.pos A) 1024 _ _ (pos_eq A e) (pos_lt_pow A _) (by norm_num) (by norm_num)) (by omega)]
  congr 1
  omega

/-- Below the total, the column of slot `e` is the remainder by 1024 of the position of the `(e+1)`-th mark. -/
theorem cols_of_lt (A : IVec S1024x1024 32) (e : Fin 1048576) (h : e.val < NonzeroCount.total (nz A)) :
    RefValue.cols A (ix1 e) = BitVec.ofNat 32 (NonzeroCount.pos (nz A) e.val % 1024) := by
  have hp := NonzeroCount.pos_lt (nz A) h
  have hpe : ¬ RefValue.pastEnd A (ix1 e) = 1#1 := fun hh => by
    have := (pastEnd_iff A e).1 hh
    omega
  show Scalar.select (RefValue.pastEnd A (ix1 e)) 0#32 (RefValue.colsRaw A (ix1 e)) = _
  rw [select_of_ne_one _ _ _ hpe]
  unfold RefValue.colsRaw
  rw [floorRem_apply _ _ (NonzeroCount.pos (nz A) e.val / 1)
    (floorDiv_apply (RefValue.pos A) 1 _ _ (pos_eq A e) (pos_lt_pow A _) (by norm_num) (by norm_num)) (by omega)]
  rw [Nat.div_one]

/-- Past the marks the row of slot `e` is zero. -/
theorem rows_of_le (A : IVec S1024x1024 32) (e : Fin 1048576) (h : NonzeroCount.total (nz A) ≤ e.val) :
    RefValue.rows A (ix1 e) = 0#32 := by
  show Scalar.select (RefValue.pastEnd A (ix1 e)) 0#32 (RefValue.rowsRaw A (ix1 e)) = _
  exact select_of_eq_one _ _ _ ((pastEnd_iff A e).2 h)

/-- Past the marks the column of slot `e` is zero. -/
theorem cols_of_le (A : IVec S1024x1024 32) (e : Fin 1048576) (h : NonzeroCount.total (nz A) ≤ e.val) :
    RefValue.cols A (ix1 e) = 0#32 := by
  show Scalar.select (RefValue.pastEnd A (ix1 e)) 0#32 (RefValue.colsRaw A (ix1 e)) = _
  exact select_of_eq_one _ _ _ ((pastEnd_iff A e).2 h)

end Cert.ReferenceIdeal.Edges

end
-- ==== Proof.RefEdgeSum.lean ====
/-
  The reference program's edge slots summed into a target node: the 1048576 edge slots followed by the 1024 self
  loops, each carrying a source, a target and a validity bit.  Summing any function of (source, target) over the valid
  slots whose target is node `j` gives the sum over the edges into `j` plus the self-loop term.
-/
import proofs.«180595_g20298015441659_fold_wed_m_942_9_alg».proof.Proof.RefEdges
import proofs.«180595_g20298015441659_fold_wed_m_942_9_alg».proof.Proof.Spec
import Idealize.ShloMosaic.Lib.Pipeline.Value

noncomputable section

namespace Cert.ReferenceIdeal.EdgeSum

open Cert.ReferenceIdeal Idealize.ShloMosaic Idealize.ShloMosaic.ValueIdx Cert.Lib Cert.ReferenceIdeal.Edges
open Facts₀ Facts

variable [Facts]

/-- The node a start-index word names, the way the gathers read it: a negative word has 1024 added, then the word is
    read signed and clamped into `[0, 1023]`. -/
def nodeOf (w : BitVec 32) : Fin 1024 :=
  ⟨min (Scalar.select (IntOp.cmpi .slt w 0#32) (IntOp.addi w 1024#32) w).toInt.toNat (1024 - 1), by omega⟩

/-- The word of a node number names that node. -/
theorem nodeOf_ofNat (v : ℕ) (h : v < 1024) : nodeOf (BitVec.ofNat 32 v) = ⟨v, h⟩ := by
  apply Fin.ext
  show min (Scalar.select (IntOp.cmpi .slt (BitVec.ofNat 32 v) 0#32)
    (IntOp.addi (BitVec.ofNat 32 v) 1024#32) (BitVec.ofNat 32 v)).toInt.toNat (1024 - 1) = v
  rw [WordRemainder.select_slt_zero_ofNat v 1024 (by omega), WordRemainder.toInt_toNat_ofNat v (by omega)]
  omega

/-! ## Reading the joined arrays at a slot -/

/-- A slot below 1048576 of a joined array reads the first piece. -/
theorem concat_left {α : Type} (x₁ : S1048576.Idx → α) (x₂ : S1024.Idx → α) (e : Fin 1049600)
    (h : e.val < 1048576) :
    concatenate S1049600 0 [⟨S1048576, x₁⟩, ⟨S1024, x₂⟩] concatenates_S1048576_S1024_S1049600_d0 (ix1 e)
      = x₁ (ix1 ⟨e.val, h⟩) :=
  concatenate_pair_apply_left 0 x₁ x₂ _ (ix1 e) rfl (ix1 ⟨e.val, h⟩) (fun b => by
    match b with
    | ⟨0, _⟩ => rfl)

/-- A slot from 1048576 on of a joined array reads the second piece, 1048576 less. -/
theorem concat_right {α : Type} (x₁ : S1048576.Idx → α) (x₂ : S1024.Idx → α) (e : Fin 1049600)
    (h : 1048576 ≤ e.val) :
    concatenate S1049600 0 [⟨S1048576, x₁⟩, ⟨S1024, x₂⟩] concatenates_S1048576_S1024_S1049600_d0 (ix1 e)
      = x₂ (ix1 ⟨e.val - 1048576, by have := e.isLt; omega⟩) :=
  concatenate_pair_apply_right 0 x₁ x₂ _ (ix1 e) rfl rfl (ix1 ⟨e.val - 1048576, by have := e.isLt; omega⟩)
    (fun b hb => by
      match b with
      | ⟨0, _⟩ => exact absurd rfl hb)
    (by show e.val - 1048576 + 1048576 = e.val; omega)

theorem src_edge (A : IVec S1024x1024 32) (e : Fin 1049600) (h : e.val < 1048576) :
    RefValue.src A (ix1 e) = RefValue.rows A (ix1 ⟨e.val, h⟩) := concat_left _ _ e h

theorem dst_edge (A : IVec S1024x1024 32) (e : Fin 1049600) (h : e.val < 1048576) :
    RefValue.dst A (ix1 e) = RefValue.cols A (ix1 ⟨e.val, h⟩) := concat_left _ _ e h

theorem validAll_edge (A : IVec S1024x1024 32) (e : Fin 1049600) (h : e.val < 1048576) :
    RefValue.validAll A (ix1 e) = RefValue.valid A (ix1 ⟨e.val, h⟩) := concat_left _ _ e h

theorem src_loop (A : IVec S1024x1024 32) (e : Fin 1049600) (h : 1048576 ≤ e.val) :
    RefValue.src A (ix1 e) = BitVec.ofNat 32 (e.val - 1048576) := (concat_right _ _ e h).trans rfl

theorem dst_loop (A : IVec S1024x1024 32) (e : Fin 1049600) (h : 1048576 ≤ e.val) :
    RefValue.dst A (ix1 e) = BitVec.ofNat 32 (e.val - 1048576) := (concat_right _ _ e h).trans rfl

theorem validAll_loop (A : IVec S1024x1024 32) (e : Fin 1049600) (h : 1048576 ≤ e.val) :
    RefValue.validAll A (ix1 e) = 1#1 := (concat_right _ _ e h).trans rfl

/-! ## One slot's term -/

variable {M : Type*} [AddCommMonoid M]

/-- The term of slot `e` in the sum into node `j`: `g` at the slot's (source, target) when the slot is valid and its
    target word reads `j`, zero otherwise. -/
def term (A : IVec S1024x1024 32) (j : Fin 1024) (g : Fin 1024 → Fin 1024 → M) (e : Fin 1049600) : M :=
  if (RefValue.dst A (ix1 e)).toInt = (j.val : ℤ) then
    (if RefValue.validAll A (ix1 e) = 1#1
      then g (nodeOf (RefValue.src A (ix1 e))) (nodeOf (RefValue.dst A (ix1 e))) else 0)
  else 0

/-- The term of the flattened position `P = 1024·i + j'`: `g i j'` when `j' = j`, zero otherwise. -/
def edgeTerm (j : Fin 1024) (g : Fin 1024 → Fin 1024 → M) (P : ℕ) : M :=
  if h : P < 1048576 then
    (if P % 1024 = j.val then g ⟨P / 1024, by omega⟩ ⟨P % 1024, by omega⟩ else 0)
  else 0

/-- An edge slot below the total carries the entry at the position of its mark. -/
theorem term_edge_lt (A : IVec S1024x1024 32) (j : Fin 1024) (g : Fin 1024 → Fin 1024 → M) (e : Fin 1049600)
    (h : e.val < NonzeroCount.total (nz A)) :
    term A j g e = edgeTerm j g (NonzeroCount.pos (nz A) e.val) := by
  have ht := NonzeroCount.total_le (nz A)
  have he : e.val < 1048576 := by omega
  have hp := NonzeroCount.pos_lt (nz A) h
  unfold term
  rw [src_edge A e he, dst_edge A e he, validAll_edge A e he, rows_of_lt A ⟨e.val, he⟩ h,
    cols_of_lt A ⟨e.val, he⟩ h, (valid_iff A ⟨e.val, he⟩).2 h, if_pos rfl,
    WordArith.toInt_ofNat_small (NonzeroCount.pos (nz A) e.val % 1024) (by omega),
    nodeOf_ofNat (NonzeroCount.pos (nz A) e.val / 1024) (by omega),
    nodeOf_ofNat (NonzeroCount.pos (nz A) e.val % 1024) (by omega)]
  unfold edgeTerm
  rw [dif_pos hp]
  by_cases hc : NonzeroCount.pos (nz A) e.val % 1024 = j.val
  · rw [if_pos hc, if_pos (by exact_mod_cast hc)]
  · rw [if_neg hc, if_neg (by exact_mod_cast hc)]

/-- An edge slot from the total on is not valid: its term is zero. -/
theorem term_edge_ge (A : IVec S1024x1024 32) (j : Fin 1024) (g : Fin 1024 → Fin 1024 → M) (e : Fin 1049600)
    (h : NonzeroCount.total (nz A) ≤ e.val) (he : e.val < 1048576) : term A j g e = 0 := by
  have hv : ¬ RefValue.validAll A (ix1 e) = 1#1 := by
    rw [validAll_edge A e he]
    intro hh
    have := (valid_iff A ⟨e.val, he⟩).1 hh
    exact absurd this (not_lt.2 h)
  unfold term
  rw [if_neg hv]
  exact ite_self 0

/-- Self-loop slot `1048576 + l` has source and target `l` and is valid. -/
theorem term_loop (A : IVec S1024x1024 32) (j : Fin 1024) (g : Fin 1024 → Fin 1024 → M) (e : Fin 1049600)
    (l : Fin 1024) (hl : e.val = 1048576 + l.val) : term A j g e = if l = j then g j j else 0 := by
  have he : 1048576 ≤ e.val := by omega
  have hv : e.val - 1048576 = l.val := by omega
  unfold term
  rw [src_loop A e he, dst_loop A e he, validAll_loop A e he, if_pos rfl, hv,
    WordArith.toInt_ofNat_small l.val (by have := l.isLt; omega), nodeOf_ofNat l.val l.isLt]
  by_cases hlj : l = j
  · subst hlj
    rw [if_pos rfl, if_pos rfl]
  · rw [if_neg hlj, if_neg (fun hh => hlj (Fin.ext (by exact_mod_cast hh)))]

/-! ## The edge-sum law -/

/-- The sum over the marked flattened positions of the entries whose column is `j` is the sum over the edges into
    `j`. -/
theorem sum_marked (A : IVec S1024x1024 32) (j : Fin 1024) (g : Fin 1024 → Fin 1024 → M) :
    (∑ p : Fin 1048576, if nz A p = true then edgeTerm j g p.val else 0)
      = ∑ i : Fin 1024, if Cert.Spec.edge A i j then g i j else 0 := by
  have h2 : (∑ i : Fin 1024, if Cert.Spec.edge A i j then g i j else 0)
      = ∑ i : S1024x1024.Idx, (if A i ≠ 0#32 ∧ (i 1).val = j.val then g (i 0) (i 1) else 0) := by
    rw [sum_idx2]
    refine Finset.sum_congr rfl fun a _ => ?_
    rw [Finset.sum_eq_single j]
    · show _ = if A (ix2 a j) ≠ 0#32 ∧ j.val = j.val then g a j else 0
      by_cases hA : A (ix2 a j) ≠ 0#32
      · rw [if_pos (show Cert.Spec.edge A a j from hA), if_pos ⟨hA, rfl⟩]
      · rw [if_neg (show ¬ Cert.Spec.edge A a j from hA), if_neg (fun hh => hA hh.1)]
    · intro b _ hb
      show (if A (ix2 a b) ≠ 0#32 ∧ b.val = j.val then g a b else 0) = 0
      exact if_neg (fun hh => hb (Fin.ext hh.2))
    · intro hh
      exact absurd (Finset.mem_univ _) hh
  rw [h2, WordReduce.sum_idx2_flat (by norm_num : 0 < 1024)]
  refine Finset.sum_congr rfl fun p _ => ?_
  show _ = if A (ix2 ⟨p.val / 1024, _⟩ ⟨p.val % 1024, _⟩) ≠ 0#32 ∧ p.val % 1024 = j.val
    then g ⟨p.val / 1024, _⟩ ⟨p.val % 1024, _⟩ else 0
  unfold nz edgeTerm
  rw [dif_pos p.isLt]
  by_cases hA : A (ix2 ⟨p.val / 1024, by have := p.isLt; omega⟩ ⟨p.val % 1024, by omega⟩) ≠ 0#32
  · rw [if_pos (decide_eq_true hA)]
    by_cases hc : p.val % 1024 = j.val
    · rw [if_pos hc, if_pos ⟨hA, hc⟩]
    · rw [if_neg hc, if_neg (fun hh => hc hh.2)]
  · rw [if_neg (fun hh => hA (of_decide_eq_true hh)), if_neg (fun hh => hA hh.1)]

/-- THE EDGE-SUM LAW. Over the valid slots whose target word reads node `j`, the sum of `g` at the slot's
    (source, target) is the sum of `g i j` over the edges `i → j`, plus the self-loop term `g j j`. -/
theorem edge_sum (A : IVec S1024x1024 32) (j : Fin 1024) (g : Fin 1024 → Fin 1024 → M) :
    ∑ e ∈ Finset.univ.filter (fun e : Fin 1049600 => (RefValue.dst A (ix1 e)).toInt = (j.val : ℤ)),
        (if RefValue.validAll A (ix1 e) = 1#1
          then g (nodeOf (RefValue.src A (ix1 e))) (nodeOf (RefValue.dst A (ix1 e))) else 0)
      = (∑ i : Fin 1024, if Cert.Spec.edge A i j then g i j else 0) + g j j := by
  rw [Finset.sum_filter]
  have hsplit : (∑ e : Fin 1049600, term A j g e)
      = (∑ e : Fin 1048576, term A j g (Fin.castAdd 1024 e)) + ∑ l : Fin 1024, term A j g (Fin.natAdd 1048576 l) :=
    Fin.sum_univ_add (fun e : Fin (1048576 + 1024) => term A j g e)
  refine Eq.trans hsplit (congrArg₂ (· + ·) ?_ ?_)
  · have h1 : ∀ e : Fin 1048576, term A j g (Fin.castAdd 1024 e)
        = if e.val < NonzeroCount.total (nz A) then edgeTerm j g (NonzeroCount.pos (nz A) e.val) else 0 := by
      intro e
      by_cases h : e.val < NonzeroCount.total (nz A)
      · rw [if_pos h]
        exact term_edge_lt A j g (Fin.castAdd 1024 e) h
      · rw [if_neg h]
        exact term_edge_ge A j g (Fin.castAdd 1024 e) (not_lt.1 h) e.isLt
    rw [Finset.sum_congr rfl (fun e _ => h1 e), NonzeroCount.sum_pos (nz A) (edgeTerm j g), sum_marked]
  · have h3 : ∀ l : Fin 1024, term A j g (Fin.natAdd 1048576 l) = if l = j then g j j else 0 :=
      fun l => term_loop A j g (Fin.natAdd 1048576 l) l rfl
    rw [Finset.sum_congr rfl (fun l _ => h3 l), Finset.sum_ite_eq' Finset.univ j (fun _ => g j j),
      if_pos (Finset.mem_univ _)]

/-- THE DEGREE COUNT. The number of valid slots whose target word reads node `j` is the number of edges into `j`
    plus one. -/
theorem degree_sum (A : IVec S1024x1024 32) (j : Fin 1024) :
    ∑ e ∈ Finset.univ.filter (fun e : Fin 1049600 => (RefValue.dst A (ix1 e)).toInt = (j.val : ℤ)),
        (if RefValue.validAll A (ix1 e) = 1#1 then (1 : ℝ) else 0)
      = ((Finset.univ.filter fun i : Fin 1024 => Cert.Spec.edge A i j).card : ℝ) + 1 := by
  refine (edge_sum (M := ℝ) A j (fun _ _ => 1)).trans ?_
  show (∑ i : Fin 1024, if Cert.Spec.edge A i j then (1 : ℝ) else 0) + 1 = _
  rw [Finset.sum_boole]

end Cert.ReferenceIdeal.EdgeSum

end
-- ==== Proof.LibRowGather.lean ====
/-
  `stablehlo.gather` of WHOLE ROWS of a matrix, read at an index.

  What `x[idx]` lowers to for a matrix `x : [N, C]` and an integer array `idx` of row numbers: a gather whose one offset
  axis is the result's last axis, with collapsed_slice_dims `[0]`, start_index_map `[0]`, slice_sizes `[1, C]` and the
  index vector on the start indices' last axis, of extent one. The operand has two axes. Axis 0 is collapsed and named by
  the start index map: its coordinate is the start index, read as a signed integer and clamped into `[0, N − 1]` (the
  clamp that makes the one-row slice fit), with no batching and no offset part. Axis 1 is the one offset axis: it is not
  in the start index map, so its slice starts at `0`, it is not a batching axis, and its offset coordinate is the
  result's coordinate on the offset axis, that is the result's last coordinate. So result element `(…, k)` is `x` at the
  clamped row and column `k`. Stated for start indices `[R, 1]` with result `[R, C]` (`rowsDims`, `gather_rows_apply`)
  and for start indices `[P, A, 1]` with result `[P, A, C]` (`rowsDims3`, `gather_rows3_apply`).
-/
import Idealize.ShloMosaic.PureOps.Ideal
import Idealize.ShloMosaic.Lib.ValueIdx

noncomputable section

namespace Idealize.ShloMosaic.RowGather

open Idealize.ShloMosaic Idealize.ShloMosaic.ValueIdx

/-- The dimension numbers of a gather of whole rows, for an operand `[N, C]`, start indices `[R, 1]` and result `[R, C]`:
    the result's axis 1 is the offset axis, the operand's axis 0 is collapsed and is the one axis the start index names,
    the index vector is the start indices' axis 1, and a slice is one row, `[1, C]`. Their conditions `wf` are decided on
    a program's literal shapes. -/
abbrev rowsDims (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE GATHER OF ROWS READ AT `(r, k)`: the operand at the row `idx[r, 0]`, read signed and clamped into `[0, N − 1]`,
    and column `k`. On the operand's axis 0 the start is the clamped index and the batching and offset parts are zero; on
    its axis 1 the start and the batching part are zero and the offset part is the result's coordinate `k`. -/
theorem gather_rows_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (k : Fin C) :
    Host.gather (rowsDims N C R wf) x idx (ix2 r k)
      = x (ix2 (⟨min (idx (ix2 r (0 : Fin 1))).toInt.toNat (N - 1), by omega⟩ : Fin N) k) := by
  unfold Host.gather
  congr 1
  funext a
  refine Fin.ext ?_
  match a with
  | ⟨0, _⟩ =>
    show (rowsDims N C R wf).start (ix2 r k) idx 0 + (rowsDims N C R wf).batchCoord (ix2 r k) 0
      + (rowsDims N C R wf).offCoord (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C R wf).startIndexMap from List.mem_singleton.mpr rfl)]
    have hsi : (rowsDims N C R wf).siIdx (ix2 r k) ⟨List.idxOf (0 : Fin 2) (rowsDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowsDims N C R wf).start (ix2 r k) idx 1 + (rowsDims N C R wf).batchCoord (ix2 r k) 1
      + (rowsDims N C R wf).offCoord (ix2 r k) 1 = k.val
    have hstart : (rowsDims N C R wf).start (ix2 r k) idx 1 = 0 := by
      unfold GatherDims.start
      rw [dif_neg (show (1 : Fin 2) ∉ (rowsDims N C R wf).startIndexMap from
        fun h => absurd (List.mem_singleton.mp h) (show ¬ ((1 : Fin 2) = 0) by decide))]
    have hbatch : (rowsDims N C R wf).batchCoord (ix2 r k) 1 = 0 :=
      GatherDims.batchCoord_eq_zero _ _ _ List.not_mem_nil
    have hoff : (rowsDims N C R wf).offCoord (ix2 r k) 1 = k.val := by
      unfold GatherDims.offCoord
      rw [dif_pos ((GatherDims.mem_sKept _ _).mpr
        ⟨fun h => absurd (List.mem_singleton.mp h) (show ¬ ((1 : Fin 2) = 0) by decide), List.not_mem_nil⟩)]
      rfl
    omega

/-- The dimension numbers of a gather of whole rows, for an operand `[N, C]`, start indices `[P, A, 1]` and result
    `[P, A, C]`: the result's axis 2 is the offset axis, the operand's axis 0 is collapsed and is the one axis the start
    index names, the index vector is the start indices' axis 2, and a slice is one row, `[1, C]`. Their conditions `wf`
    are decided on a program's literal shapes. -/
abbrev rowsDims3 (N C P A : Nat)
    (wf : GatherDims.WF ⟨2, ![N, C]⟩ ⟨3, ![P, A, 1]⟩ ⟨3, ![P, A, C]⟩ [2] [0] [] [0] [] 2 ![1, C]) :
    GatherDims ⟨2, ![N, C]⟩ ⟨3, ![P, A, 1]⟩ ⟨3, ![P, A, C]⟩ where
  offsetDims := [2]
  collapsedSliceDims := [0]
  operandBatchingDims := []
  startIndicesBatchingDims := []
  startIndexMap := [0]
  indexVectorDim := 2
  sliceSizes := ![1, C]
  wf := wf

/-- THE GATHER OF ROWS READ AT `(p, a, k)`: the operand at the row `idx[p, a, 0]`, read signed and clamped into
    `[0, N − 1]`, and column `k`. -/
theorem gather_rows3_apply {α : Type} {N C P A w : Nat} (hN : 0 < N)
    (wf : GatherDims.WF ⟨2, ![N, C]⟩ ⟨3, ![P, A, 1]⟩ ⟨3, ![P, A, C]⟩ [2] [0] [] [0] [] 2 ![1, C])
    (x : (⟨2, ![N, C]⟩ : Shape).Idx → α) (idx : IVec ⟨3, ![P, A, 1]⟩ w) (p : Fin P) (a : Fin A) (k : Fin C) :
    Host.gather (rowsDims3 N C P A wf) x idx (ix3 p a k)
      = x (ix2 (⟨min (idx (ix3 p a (0 : Fin 1))).toInt.toNat (N - 1), by omega⟩ : Fin N) k) := by
  unfold Host.gather
  congr 1
  funext c
  refine Fin.ext ?_
  match c with
  | ⟨0, _⟩ =>
    show (rowsDims3 N C P A wf).start (ix3 p a k) idx 0 + (rowsDims3 N C P A wf).batchCoord (ix3 p a k) 0
      + (rowsDims3 N C P A wf).offCoord (ix3 p a k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims3 N C P A wf).startIndexMap from List.mem_singleton.mpr rfl)]
    have hsi : (rowsDims3 N C P A wf).siIdx (ix3 p a k) ⟨List.idxOf (0 : Fin 2) (rowsDims3 N C P A wf).startIndexMap,
        List.idxOf_lt_length_iff.2 (List.mem_singleton.mpr rfl)⟩ = ix3 p a (0 : Fin 1) := by
      funext b; refine Fin.ext ?_
      match b with
      | ⟨0, _⟩ => rfl
      | ⟨1, _⟩ => rfl
      | ⟨2, _⟩ => rfl
    rw [hsi]
    rfl
  | ⟨1, _⟩ =>
    show (rowsDims3 N C P A wf).start (ix3 p a k) idx 1 + (rowsDims3 N C P A wf).batchCoord (ix3 p a k) 1
      + (rowsDims3 N C P A wf).offCoord (ix3 p a k) 1 = k.val
    have hstart : (rowsDims3 N C P A wf).start (ix3 p a k) idx 1 = 0 := by
      unfold GatherDims.start
      rw [dif_neg (show (1 : Fin 2) ∉ (rowsDims3 N C P A wf).startIndexMap from
        fun h => absurd (List.mem_singleton.mp h) (show ¬ ((1 : Fin 2) = 0) by decide))]
    have hbatch : (rowsDims3 N C P A wf).batchCoord (ix3 p a k) 1 = 0 :=
      GatherDims.batchCoord_eq_zero _ _ _ List.not_mem_nil
    have hoff : (rowsDims3 N C P A wf).offCoord (ix3 p a k) 1 = k.val := by
      unfold GatherDims.offCoord
      rw [dif_pos ((GatherDims.mem_sKept _ _).mpr
        ⟨fun h => absurd (List.mem_singleton.mp h) (show ¬ ((1 : Fin 2) = 0) by decide), List.not_mem_nil⟩)]
      rfl
    omega

end Idealize.ShloMosaic.RowGather

end
-- ==== Proof.LibGcnAggregate.lean ====
/-
  Scaling a segment sum of gathered rows by a per-node factor, before or after the sum.

  Nodes are numbered 0 … N − 1 and carry a weight `dis i` that is a nonnegative REAL (as an extended real: `0 ≤ dis i`,
  `dis i ≠ ⊤`).  Edge `e` (of R edges) is aggregated at node `row e` and gathers from node `col e`.  For features
  `h : [N, C]` the two arrangements

      agg₁[i, f] = ∑ over the edges e with row e = i of (dis[row e] · dis[col e]) · h[col e, f]      (weights per edge)
      agg₂[i, f] = dis[i] · ∑ over the edges e with row e = i of (dis · h)[col e, f]                 (weights per node)

  are equal entry by entry WHATEVER `h` holds, infinities included: on the edges of segment `i` the first factor
  `dis[row e]` is the constant `dis[i]`, multiplication of extended reals is associative, and a nonnegative finite factor
  distributes over every finite sum of extended reals.  The statement is over the host's operations: an accumulating
  scatter of whole rows (an update whose start index is outside `[0, N)` is dropped; the index is read signed and not
  clamped), gathers of whole rows and of single entries (the index read signed and CLAMPED into `[0, N − 1]`), and the
  "negative index counts from the end" select in front of a gather, which is the identity on the nonnegative indices a
  segment's edges have.

  Also here: the guarded reciprocal square root `if d > 0 then d^(-1/2) else 0` is a nonnegative real for every
  extended real `d` (`⊤ ↦ 0`), which is what makes `dis` such a weight with no assumption on the degrees.
-/
import Idealize.ShloMosaic.PureOps.Ideal
import Idealize.ShloMosaic.PureOps.Ideal.Laws
import Idealize.ShloMosaic.Lib.ValueIdx
import Idealize.ShloMosaic.Lib.Pipeline.Value
import proofs.«180595_g20298015441659_fold_wed_m_942_9_alg».proof.Proof.LibRowGather
import proofs.«180595_g20298015441659_fold_wed_m_942_9_alg».proof.Proof.LibRowMax

noncomputable section

namespace Cert.LibGcnAggregate

open Idealize.ShloMosaic Idealize.ShloMosaic.ValueIdx

/-! ## Extended reals -/

/-- A nonnegative finite factor distributes over a finite sum of extended reals, whatever the summands. -/
theorem mul_sum_of_nonneg {ι : Type} (s : Finset ι) (f : ι → EReal) {c : EReal} (hc : 0 ≤ c) (hc' : c ≠ ⊤) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top hc hc', ih]

/-- `if d > 0 then d^(-1/2) else 0` is a nonnegative real, for every extended real `d`. -/
theorem rsqrt_guard (d : EReal) :
    (0 : EReal) ≤ Scalar.select (Ideal.cmp .ogt d 0) (Ideal.rsqrt d) 0
      ∧ Scalar.select (Ideal.cmp .ogt d 0) (Ideal.rsqrt d) (0 : EReal) ≠ ⊤ := by
  show (0 : EReal) ≤ (if BitVec.ofBool (decide ((0 : EReal) < d)) = 1 then Ideal.rsqrt d else 0)
      ∧ (if BitVec.ofBool (decide ((0 : EReal) < d)) = 1 then Ideal.rsqrt d else (0 : EReal)) ≠ ⊤
  by_cases h : (0 : EReal) < d
  · have h1 : BitVec.ofBool (decide ((0 : EReal) < d)) = 1 := by simp [h]
    rw [if_pos h1]
    induction d using EReal.rec with
    | bot => exact absurd h (by simp)
    | top => exact ⟨by rw [Ideal.rsqrt_top], by rw [Ideal.rsqrt_top]; exact EReal.zero_ne_top⟩
    | coe r =>
      have hr : 0 < r := by exact_mod_cast h
      rw [Ideal.rsqrt_coe, if_neg (not_lt.mpr hr.le), if_neg hr.ne']
      exact ⟨by exact_mod_cast (inv_nonneg.mpr (Real.sqrt_nonneg r)), EReal.coe_ne_top _⟩
  · have h0 : ¬ BitVec.ofBool (decide ((0 : EReal) < d)) = 1 := by simp [h]
    rw [if_neg h0]
    exact ⟨le_refl _, EReal.zero_ne_top⟩

/-- The host's guarded reciprocal square root of an array, `where(deg > 0, rsqrt(deg), 0)`, is a nonnegative real at
    every index. -/
theorem guarded_rsqrt_weight {s : Shape} (deg z : FVec Ideal s .f32) (hz : ∀ i, z i = 0) (i : s.Idx) :
    0 ≤ select (cmpf .ogt deg z) (Host.rsqrt deg) z i ∧ select (cmpf .ogt deg z) (Host.rsqrt deg) z i ≠ ⊤ := by
  show (0 : EReal) ≤ Scalar.select (Ideal.cmp .ogt (deg i) (z i)) (Ideal.rsqrt (deg i)) (z i)
      ∧ Scalar.select (Ideal.cmp .ogt (deg i) (z i)) (Ideal.rsqrt (deg i)) (z i) ≠ ⊤
  rw [hz i]
  exact rsqrt_guard _

/-! ## The host's layout operations read at an index -/

variable {α : Type}

/-- An `[a]` vector placed as the column `[a, 1]` reads, at `(p, u)`, the vector at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- An `[a]` vector as a column across `b` lanes reads, at `(p, q)`, the vector at `p`. -/
theorem column_apply {a b : ℕ} (x : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    broadcastInDim ⟨2, ![a, b]⟩ ![0, 1] h2 (broadcastInDim ⟨2, ![a, 1]⟩ ![0] h1 x) (ix2 p q) = x (ix1 p) :=
  (Cert.LibRowMax.broadcastInDim_a1_ab_apply _ h2 p q).trans (broadcastInDim_a_a1_apply x h1 p 0)

/-! ## A gather of single entries of a vector -/

/-- The dimension numbers of `x[idx]` for a vector `x : [N]` and start indices `[R, 1]`, result `[R]`: no offset
    axis, the operand's one axis collapsed and named by the start index. -/
abbrev entriesDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The gather of entries read at `r`: the vector at `idx[r, 0]`, read signed and clamped into `[0, N − 1]`. -/
theorem gather_entries_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (entriesDims N R wf) x idx (ix1 r)
      = x (ix1 (⟨min (idx (ix2 r (0 : Fin 1))).toInt.toNat (N - 1), by omega⟩ : Fin N)) := by
  unfold Host.gather
  congr 1
  funext a
  refine Fin.ext ?_
  match a with
  | ⟨0, _⟩ =>
    show (entriesDims N R wf).start (ix1 r) idx 0 + (entriesDims N R wf).batchCoord (ix1 r) 0
      + (entriesDims N R wf).offCoord (ix1 r) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (entriesDims N R wf).startIndexMap from List.mem_singleton.mpr rfl)]
    have hsi : (entriesDims N R wf).siIdx (ix1 r) ⟨List.idxOf (0 : Fin 1) (entriesDims N R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl

/-! ## An accumulating scatter of whole rows -/

/-- The dimension numbers of `zeros([N, C]).at[idx].add(updates)` for start indices `[R, 1]` and updates `[R, C]`: the
    updates' axis 1 is the window axis, the operand's axis 0 is inserted and is the one axis the start index names. -/
abbrev rowsScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- An update row `e` that lands on the operand's row `t 0` has start index `t 0`, read signed. -/
theorem scatter_rows_hit {N C R w : Nat} (wf : ScatterDims.WF ⟨2, ![N, C]⟩ ⟨2, ![R, 1]⟩ ⟨2, ![R, C]⟩ [1] [0] [0] 1)
    (idx : IVec ⟨2, ![R, 1]⟩ w) (e : Fin R) (f : Fin C) (t : (⟨2, ![N, C]⟩ : Shape).Idx)
    (h : (rowsScatter N C R wf).resultIdx? (ix2 e f) idx = some t) :
    (idx (ix2 e (0 : Fin 1))).toInt = ((t 0).val : ℤ) := by
  have hs : (rowsScatter N C R wf).start (ix2 e f) idx 0 = (idx (ix2 e (0 : Fin 1))).toInt := by
    unfold ScatterDims.start
    rw [dif_pos (show (0 : Fin 2) ∈ (rowsScatter N C R wf).scatterDimsToOperandDims from List.mem_singleton.mpr rfl)]
    have hsi : (rowsScatter N C R wf).siIdx (ix2 e f) ⟨List.idxOf (0 : Fin 2) (rowsScatter N C R wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw : (rowsScatter N C R wf).window (ix2 e f) 0 = 0 := by
    unfold ScatterDims.window
    rw [dif_neg]
    intro hmem
    have := (List.mem_filter.mp hmem).2
    simp at this
  unfold ScatterDims.resultIdx? at h
  split at h
  · rename_i hall
    have ht := Option.some.inj h
    have h0 : ((rowsScatter N C R wf).start (ix2 e f) idx 0 + ((rowsScatter N C R wf).window (ix2 e f) 0 : ℤ)).toNat
        = (t 0).val := congrArg Fin.val (congrFun ht 0)
    have hpos := (hall 0).1
    rw [hs, hw] at h0 hpos
    omega
  · exact absurd h (by simp)

/-- An accumulating scatter into zeros, entry `t`: if every update that lands on `t` is `c` times the matching update
    of a second scatter, `c` a nonnegative real, then the entry is `c` times the second scatter's entry. -/
theorem scatterAdd_scaled {s si su : Shape} (d : ScatterDims s si su) {w : Nat} (idx : IVec si w)
    (A B : su.Idx → EReal) (t : s.Idx) {c : EReal} (hc : 0 ≤ c) (hc' : c ≠ ⊤)
    (hAB : ∀ u, d.resultIdx? u idx = some t → A u = c * B u) :
    Ideal.hostScatterAdd d (fun _ => 0) idx A t = c * Ideal.hostScatterAdd d (fun _ => 0) idx B t := by
  unfold Ideal.hostScatterAdd
  rw [zero_add, zero_add, mul_sum_of_nonneg _ _ hc hc']
  exact Finset.sum_congr rfl fun u hu => hAB u (Finset.mem_filter.mp hu).2

/-- A start index that is a node number, read signed and clamped into `[0, N − 1]`, is that node. -/
theorem clamp_eq {N : ℕ} (b : BitVec 32) (i : Fin N) (hb : b.toInt = (i.val : ℤ))
    (hlt : min b.toInt.toNat (N - 1) < N) : (⟨min b.toInt.toNat (N - 1), hlt⟩ : Fin N) = i := by
  apply Fin.ext
  show min b.toInt.toNat (N - 1) = i.val
  rw [hb]
  have := i.isLt
  omega

/-! ## The two arrangements of the aggregation -/

section Aggregate

variable {N C R : ℕ}

/-- THE AGGREGATION, WEIGHTED PER EDGE OR PER NODE.  `dis` a nonnegative real weight per node; `row` the node each edge
    is aggregated at (used as it is by the scatter; in front of the gather of `dis` it passes the select that replaces
    a negative index by `X`, which no edge of a segment meets); `colw` the start indices every gather by column uses.
    Scattering the rows `(dis[row e] · dis[col e]) · h[col e, ·]` is, entry by entry, `dis[i]` times scattering the rows
    `(dis · h)[col e, ·]`. -/
theorem aggregate_eq (hN : 0 < N)
    (wfs : ScatterDims.WF ⟨2, ![N, C]⟩ ⟨2, ![R, 1]⟩ ⟨2, ![R, C]⟩ [1] [0] [0] 1)
    (wfg : GatherDims.WF ⟨2, ![N, C]⟩ ⟨2, ![R, 1]⟩ ⟨2, ![R, C]⟩ [1] [0] [] [0] [] 1 ![1, C])
    (wfe : GatherDims.WF ⟨1, ![N]⟩ ⟨2, ![R, 1]⟩ ⟨1, ![R]⟩ [] [0] [] [0] [] 1 ![1])
    (hb0 : (⟨0, ![]⟩ : Shape).BroadcastsInDim ⟨2, ![N, C]⟩ ![])
    (hbz : (⟨0, ![]⟩ : Shape).BroadcastsInDim ⟨1, ![R]⟩ ![])
    (hbR : (⟨1, ![R]⟩ : Shape).BroadcastsInDim ⟨2, ![R, 1]⟩ ![0])
    (hbRC : (⟨2, ![R, 1]⟩ : Shape).BroadcastsInDim ⟨2, ![R, C]⟩ ![0, 1])
    (hbN : (⟨1, ![N]⟩ : Shape).BroadcastsInDim ⟨2, ![N, 1]⟩ ![0])
    (hbNC : (⟨2, ![N, 1]⟩ : Shape).BroadcastsInDim ⟨2, ![N, C]⟩ ![0, 1])
    (dis : FVec Ideal ⟨1, ![N]⟩ .f32) (hdis : ∀ i, 0 ≤ dis i ∧ dis i ≠ ⊤)
    (row X : IVec ⟨1, ![R]⟩ 32) (colw : IVec ⟨2, ![R, 1]⟩ 32) (h : FVec Ideal ⟨2, ![N, C]⟩ .f32) :
    Host.scatterAdd (F := Ideal) (rowsScatter N C R wfs)
        (broadcastInDim ⟨2, ![N, C]⟩ ![] hb0 (constant ⟨0, ![]⟩ .f32 0x00000000#32))
        (broadcastInDim ⟨2, ![R, 1]⟩ ![0] hbR row)
        (mulf
          (broadcastInDim ⟨2, ![R, C]⟩ ![0, 1] hbRC
            (broadcastInDim ⟨2, ![R, 1]⟩ ![0] hbR
              (mulf
                (Host.gather (entriesDims N R wfe) dis
                  (broadcastInDim ⟨2, ![R, 1]⟩ ![0] hbR
                    (select (cmpi .slt row (broadcastInDim ⟨1, ![R]⟩ ![] hbz (constantI ⟨0, ![]⟩ 32 0#32))) X row)))
                (Host.gather (entriesDims N R wfe) dis colw))))
          (Host.gather (Idealize.ShloMosaic.RowGather.rowsDims N C R wfg) h colw))
      = mulf (broadcastInDim ⟨2, ![N, C]⟩ ![0, 1] hbNC (broadcastInDim ⟨2, ![N, 1]⟩ ![0] hbN dis))
          (Host.scatterAdd (F := Ideal) (rowsScatter N C R wfs)
            (broadcastInDim ⟨2, ![N, C]⟩ ![] hb0 (constant ⟨0, ![]⟩ .f32 0x00000000#32))
            (broadcastInDim ⟨2, ![R, 1]⟩ ![0] hbR row)
            (Host.gather (Idealize.ShloMosaic.RowGather.rowsDims N C R wfg)
              (mulf (broadcastInDim ⟨2, ![N, C]⟩ ![0, 1] hbNC (broadcastInDim ⟨2, ![N, 1]⟩ ![0] hbN dis)) h) colw)) := by
  funext j
  obtain ⟨i, f, rfl⟩ : ∃ (i : Fin N) (f : Fin C), j = ix2 i f := ⟨j 0, j 1, eq_ix2 j⟩
  have hz : (broadcastInDim ⟨2, ![N, C]⟩ ![] hb0 (constant (F := Ideal) ⟨0, ![]⟩ .f32 0x00000000#32))
      = fun _ => (0 : EReal) := funext fun _ => Ideal.ofBits_zero_f32
  rw [hz]
  show Ideal.hostScatterAdd (rowsScatter N C R wfs) (fun _ => 0) _ _ (ix2 i f)
    = (broadcastInDim ⟨2, ![N, C]⟩ ![0, 1] hbNC (broadcastInDim ⟨2, ![N, 1]⟩ ![0] hbN dis)) (ix2 i f)
      * Ideal.hostScatterAdd (rowsScatter N C R wfs) (fun _ => 0) _ _ (ix2 i f)
  rw [column_apply dis hbN hbNC i f]
  refine scatterAdd_scaled _ _ _ _ _ (hdis _).1 (hdis _).2 fun u hu => ?_
  obtain ⟨e, g, rfl⟩ : ∃ (e : Fin R) (g : Fin C), u = ix2 e g := ⟨u 0, u 1, eq_ix2 u⟩
  -- the segment's node is the edge's row, read signed
  have hrow : (row (ix1 e)).toInt = (i.val : ℤ) := by
    have := scatter_rows_hit wfs _ e g _ hu
    rwa [broadcastInDim_a_a1_apply row hbR e 0] at this
  -- so the negative-index select keeps it, and the clamp keeps it
  have hsel : (select (cmpi .slt row (broadcastInDim ⟨1, ![R]⟩ ![] hbz (constantI ⟨0, ![]⟩ 32 0#32))) X row) (ix1 e)
      = row (ix1 e) := by
    show Scalar.select (BitVec.ofBool ((row (ix1 e)).slt 0#32)) (X (ix1 e)) (row (ix1 e)) = row (ix1 e)
    have hns : (row (ix1 e)).slt 0#32 = false := by
      rw [BitVec.slt_eq_decide, BitVec.toInt_zero, hrow]
      exact decide_eq_false (by omega)
    rw [hns]
    rfl
  show _ * _ = _ * _
  rw [Cert.LibRowMax.broadcastInDim_a1_ab_apply _ hbRC e g, broadcastInDim_a_a1_apply _ hbR e 0,
    Idealize.ShloMosaic.RowGather.gather_rows_apply hN wfg h colw e g,
    Idealize.ShloMosaic.RowGather.gather_rows_apply hN wfg _ colw e g]
  show (_ * _) * _ = _ * (_ * _)
  rw [gather_entries_apply hN wfe dis _ e, gather_entries_apply hN wfe dis colw e, column_apply dis hbN hbNC]
  have hval : ((broadcastInDim ⟨2, ![R, 1]⟩ ![0] hbR
      (select (cmpi .slt row (broadcastInDim ⟨1, ![R]⟩ ![] hbz (constantI ⟨0, ![]⟩ 32 0#32))) X row))
        (ix2 e (0 : Fin 1))).toInt = (i.val : ℤ) := by
    rw [broadcastInDim_a_a1_apply _ hbR e 0, hsel]; exact hrow
  rw [clamp_eq _ i hval]
  exact mul_assoc _ _ _

end Aggregate

end Cert.LibGcnAggregate

end
-- ==== Proof.LibScatterEdges.lean ====
/-
  The accumulating scatter of whole rows into zeros, read entry by entry.

  The operand is `zeros([N, C])`, the start indices are one row number per edge (`[R, 1]`, read signed and not
  clamped) and the updates are one row of `C` features per edge (`[R, C]`).  Update element `(e, g)` lands on
  operand element `(idx[e, 0], g)` when that row number is in `[0, N)`, and is dropped otherwise: on the operand's
  row axis the start is the edge's index and the window coordinate is `0`; on the feature axis the start is `0` and
  the window coordinate is `g`.  So update `(e, g)` lands on `(i, f)` exactly when `idx[e, 0] = i` and `g = f`,
  and entry `(i, f)` of the result is the sum, over the edges whose start index reads `i`, of the update at `(e, f)`.
-/
import proofs.«180595_g20298015441659_fold_wed_m_942_9_alg».proof.Proof.LibGcnAggregate

noncomputable section

namespace Cert.Sgc.ScatterEdges

open Idealize.ShloMosaic Idealize.ShloMosaic.ValueIdx Cert.LibGcnAggregate

variable {N C R w : ℕ}

/-- On the operand's row axis the window of update `(e, g)` starts at the edge's start index, read signed. -/
theorem start_row (wf : ScatterDims.WF ⟨2, ![N, C]⟩ ⟨2, ![R, 1]⟩ ⟨2, ![R, C]⟩ [1] [0] [0] 1)
    (idx : IVec ⟨2, ![R, 1]⟩ w) (e : Fin R) (g : Fin C) :
    (rowsScatter N C R wf).start (ix2 e g) idx 0 = (idx (ix2 e (0 : Fin 1))).toInt := by
  unfold ScatterDims.start
  rw [dif_pos (show (0 : Fin 2) ∈ (rowsScatter N C R wf).scatterDimsToOperandDims from List.mem_singleton.mpr rfl)]
  have hsi : (rowsScatter N C R wf).siIdx (ix2 e g) ⟨List.idxOf (0 : Fin 2) (rowsScatter N C R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the feature axis, which the start index does not name, the window starts at `0`. -/
theorem start_col (wf : ScatterDims.WF ⟨2, ![N, C]⟩ ⟨2, ![R, 1]⟩ ⟨2, ![R, C]⟩ [1] [0] [0] 1)
    (idx : IVec ⟨2, ![R, 1]⟩ w) (e : Fin R) (g : Fin C) :
    (rowsScatter N C R wf).start (ix2 e g) idx 1 = 0 := by
  unfold ScatterDims.start
  rw [dif_neg (show (1 : Fin 2) ∉ (rowsScatter N C R wf).scatterDimsToOperandDims from
    fun h => absurd (List.mem_singleton.mp h) (show ¬ ((1 : Fin 2) = 0) by decide))]

/-- The row axis is an inserted window axis: its window coordinate is `0`. -/
theorem window_row (wf : ScatterDims.WF ⟨2, ![N, C]⟩ ⟨2, ![R, 1]⟩ ⟨2, ![R, C]⟩ [1] [0] [0] 1)
    (e : Fin R) (g : Fin C) : (rowsScatter N C R wf).window (ix2 e g) 0 = 0 := by
  unfold ScatterDims.window
  rw [dif_neg]
  intro hmem
  have := (List.mem_filter.mp hmem).2
  simp at this

/-- The feature axis is the operand's one kept axis: its window coordinate is the update's feature coordinate. -/
theorem window_col (wf : ScatterDims.WF ⟨2, ![N, C]⟩ ⟨2, ![R, 1]⟩ ⟨2, ![R, C]⟩ [1] [0] [0] 1)
    (e : Fin R) (g : Fin C) : (rowsScatter N C R wf).window (ix2 e g) 1 = g.val := by
  unfold ScatterDims.window
  have hmem : (1 : Fin 2) ∈ (rowsScatter N C R wf).sKept := by
    refine List.mem_filter.mpr ⟨List.mem_finRange _, ?_⟩
    simp
  rw [dif_pos hmem]
  rfl

/-- WHERE AN UPDATE LANDS.  Update `(e, g)` lands on operand element `(i, f)` exactly when the edge's start index,
    read signed, is the row `i`, and the feature coordinates agree. -/
theorem resultIdx_eq_some_iff (wf : ScatterDims.WF ⟨2, ![N, C]⟩ ⟨2, ![R, 1]⟩ ⟨2, ![R, C]⟩ [1] [0] [0] 1)
    (idx : IVec ⟨2, ![R, 1]⟩ w) (e : Fin R) (g : Fin C) (i : Fin N) (f : Fin C) :
    (rowsScatter N C R wf).resultIdx? (ix2 e g) idx = some (ix2 i f)
      ↔ (idx (ix2 e (0 : Fin 1))).toInt = (i.val : ℤ) ∧ g = f := by
  have hs0 := start_row wf idx e g
  have hs1 := start_col wf idx e g
  have hw0 := window_row wf e g
  have hw1 := window_col wf e g
  constructor
  · intro h
    unfold ScatterDims.resultIdx? at h
    split at h
    · rename_i hall
      have ht := Option.some.inj h
      have h0 : ((rowsScatter N C R wf).start (ix2 e g) idx 0
          + ((rowsScatter N C R wf).window (ix2 e g) 0 : ℤ)).toNat = i.val := congrArg Fin.val (congrFun ht 0)
      have h1 : ((rowsScatter N C R wf).start (ix2 e g) idx 1
          + ((rowsScatter N C R wf).window (ix2 e g) 1 : ℤ)).toNat = f.val := congrArg Fin.val (congrFun ht 1)
      have hpos := (hall 0).1
      rw [hs0, hw0] at h0 hpos
      rw [hs1, hw1] at h1
      refine ⟨by omega, Fin.ext ?_⟩
      omega
    · exact absurd h (by simp)
  · rintro ⟨hi, rfl⟩
    have hall : ∀ a, 0 ≤ (rowsScatter N C R wf).start (ix2 e g) idx a + ((rowsScatter N C R wf).window (ix2 e g) a : ℤ)
        ∧ (rowsScatter N C R wf).start (ix2 e g) idx a + ((rowsScatter N C R wf).window (ix2 e g) a : ℤ)
          < ((⟨2, ![N, C]⟩ : Shape).size a : ℤ) := by
      intro a
      match a with
      | ⟨0, _⟩ =>
        show 0 ≤ (rowsScatter N C R wf).start (ix2 e g) idx 0 + ((rowsScatter N C R wf).window (ix2 e g) 0 : ℤ)
          ∧ (rowsScatter N C R wf).start (ix2 e g) idx 0 + ((rowsScatter N C R wf).window (ix2 e g) 0 : ℤ) < (N : ℤ)
        rw [hs0, hw0, hi]
        have := i.isLt
        omega
      | ⟨1, _⟩ =>
        show 0 ≤ (rowsScatter N C R wf).start (ix2 e g) idx 1 + ((rowsScatter N C R wf).window (ix2 e g) 1 : ℤ)
          ∧ (rowsScatter N C R wf).start (ix2 e g) idx 1 + ((rowsScatter N C R wf).window (ix2 e g) 1 : ℤ) < (C : ℤ)
        rw [hs1, hw1]
        have := g.isLt
        omega
    unfold ScatterDims.resultIdx?
    rw [dif_pos hall]
    congr 1
    funext a
    refine Fin.ext ?_
    match a with
    | ⟨0, _⟩ =>
      show ((rowsScatter N C R wf).start (ix2 e g) idx 0
          + ((rowsScatter N C R wf).window (ix2 e g) 0 : ℤ)).toNat = i.val
      rw [hs0, hw0, hi]
      omega
    | ⟨1, _⟩ =>
      show ((rowsScatter N C R wf).start (ix2 e g) idx 1
          + ((rowsScatter N C R wf).window (ix2 e g) 1 : ℤ)).toNat = g.val
      rw [hs1, hw1]
      omega

/-- THE SCATTER READ AT `(i, f)`: the sum, over the edges whose start index reads `i`, of the update at `(e, f)`. -/
theorem scatter_rows_entry (wf : ScatterDims.WF ⟨2, ![N, C]⟩ ⟨2, ![R, 1]⟩ ⟨2, ![R, C]⟩ [1] [0] [0] 1)
    (idx : IVec ⟨2, ![R, 1]⟩ w) (upd : (⟨2, ![R, C]⟩ : Shape).Idx → EReal) (i : Fin N) (f : Fin C) :
    Ideal.hostScatterAdd (rowsScatter N C R wf) (fun _ => 0) idx upd (ix2 i f)
      = 0 + ∑ e ∈ Finset.univ.filter (fun e : Fin R => (idx (ix2 e (0 : Fin 1))).toInt = (i.val : ℤ)),
          upd (ix2 e f) := by
  unfold Ideal.hostScatterAdd
  congr 1
  refine Finset.sum_nbij' (fun u => u 0) (fun e => ix2 e f) ?_ ?_ ?_ ?_ ?_
  · intro u hu
    have hu' := (Finset.mem_filter.mp hu).2
    rw [eq_ix2 u] at hu'
    exact Finset.mem_filter.mpr ⟨Finset.mem_univ _, ((resultIdx_eq_some_iff wf idx _ _ i f).mp hu').1⟩
  · intro e he
    have he' := (Finset.mem_filter.mp he).2
    exact Finset.mem_filter.mpr ⟨Finset.mem_univ _, (resultIdx_eq_some_iff wf idx e f i f).mpr ⟨he', rfl⟩⟩
  · intro u hu
    have hu' := (Finset.mem_filter.mp hu).2
    rw [eq_ix2 u] at hu'
    have hg := ((resultIdx_eq_some_iff wf idx _ _ i f).mp hu').2
    show ix2 (u 0) f = u
    rw [← hg]
    exact (eq_ix2 u).symm
  · intro e _
    rfl
  · intro u hu
    have hu' := (Finset.mem_filter.mp hu).2
    rw [eq_ix2 u] at hu'
    have hg := ((resultIdx_eq_some_iff wf idx _ _ i f).mp hu').2
    show upd u = upd (ix2 (u 0) f)
    rw [← hg]
    exact congrArg upd (eq_ix2 u)

end Cert.Sgc.ScatterEdges

end
-- ==== Proof.LibBiasRow.lean ====
/-
  A bias row added to a matrix, with or without a clamp at zero, read at an entry given by its coordinates, for any
  extents a × b, on the extended reals, in the two spellings programs print.

  * The vector unit's: the matrix and a `[1, b]` row come through identity casts, the row is broadcast down the `a`
    rows and added; the clamp is the maximum with a splat of the zero word.
  * The host's: a `[1, b]` row broadcast down the `a` rows (`broadcast_in_dim` over both axes) and added; the clamp is
    the maximum with the zero word broadcast from a scalar.
  * A `[b]` vector reshaped to the row `[1, b]` is that vector placed as the row by `broadcast_in_dim`.
  Nothing is rearranged, so nothing needs finiteness.
-/
import proofs.«180595_g20298015441659_fold_wed_m_942_9_alg».proof.Proof.LibRowMax
import Idealize.ShloMosaic.Lib.ValueLayout
import Idealize.ShloMosaic.Lib.Pipeline.Value
import Idealize.ShloMosaic.PureOps.Ideal.Laws

noncomputable section

namespace Cert.LibBiasRow

open Idealize.ShloMosaic Idealize.ShloMosaic.ValueIdx Cert.LibRowMax

variable {α : Type} {a b : ℕ}

/-- The host's zero matrix (the zero word broadcast from a scalar) reads the zero word at every entry. -/
theorem host_zero_apply (h0 : (⟨0, ![]⟩ : Shape).BroadcastsInDim ⟨2, ![a, b]⟩ ![]) (p : Fin a) (q : Fin b) :
    broadcastInDim ⟨2, ![a, b]⟩ ![] h0 (constant (F := Ideal) ⟨0, ![]⟩ .f32 0x00000000#32) (ix2 p q)
      = Ideal.ofBits .f32 0x00000000#32 :=
  broadcastInDim_apply _ h0 _ (ix2 p q) ix0 (fun ax => ax.elim0)

/-- The vector unit's bias row added to a matrix, at `(p, q)`. -/
theorem vector_bias_apply (y : FVec Ideal ⟨2, ![a, b]⟩ .f32) (β : FVec Ideal ⟨2, ![1, b]⟩ .f32)
    (hβ : (⟨2, ![1, b]⟩ : Shape).ShapeCasts ⟨2, ![1, b]⟩) (hbc : (⟨2, ![1, b]⟩ : Shape).Broadcasts ⟨2, ![a, b]⟩)
    (p : Fin a) (q : Fin b) :
    addf y (broadcastTo ⟨2, ![a, b]⟩ (shapeCast ⟨2, ![1, b]⟩ β hβ) hbc) (ix2 p q) = y (ix2 p q) + β (ix2 (0 : Fin 1) q) := by
  rw [shapeCast_self]
  show y (ix2 p q) + broadcastTo ⟨2, ![a, b]⟩ β hbc (ix2 p q) = _
  rw [broadcastTo_1b_ab_apply β hbc p q]

/-- The vector unit's bias row added to a matrix and clamped at zero, at `(p, q)`. -/
theorem vector_bias_clamp_apply (x : FVec Ideal ⟨2, ![a, b]⟩ .f32) (β : FVec Ideal ⟨2, ![1, b]⟩ .f32)
    (hx : (⟨2, ![a, b]⟩ : Shape).ShapeCasts ⟨2, ![a, b]⟩)
    (hβ : (⟨2, ![1, b]⟩ : Shape).ShapeCasts ⟨2, ![1, b]⟩) (hbc : (⟨2, ![1, b]⟩ : Shape).Broadcasts ⟨2, ![a, b]⟩)
    (p : Fin a) (q : Fin b) :
    maximumf (addf (shapeCast ⟨2, ![a, b]⟩ x hx) (broadcastTo ⟨2, ![a, b]⟩ (shapeCast ⟨2, ![1, b]⟩ β hβ) hbc))
        (broadcast ⟨2, ![a, b]⟩ (Scalar.ofBits (F := Ideal) .f32 0x00000000#32)) (ix2 p q)
      = max (x (ix2 p q) + β (ix2 (0 : Fin 1) q)) (Ideal.ofBits .f32 0x00000000#32) := by
  rw [shapeCast_self, shapeCast_self]
  show max (x (ix2 p q) + broadcastTo ⟨2, ![a, b]⟩ β hbc (ix2 p q)) (Ideal.ofBits .f32 0x00000000#32) = _
  rw [broadcastTo_1b_ab_apply β hbc p q]

/-- The host's bias row added to a matrix, at `(p, q)`. -/
theorem host_bias_apply (Y : FVec Ideal ⟨2, ![a, b]⟩ .f32) (β : FVec Ideal ⟨2, ![1, b]⟩ .f32)
    (h2 : (⟨2, ![1, b]⟩ : Shape).BroadcastsInDim ⟨2, ![a, b]⟩ ![0, 1]) (p : Fin a) (q : Fin b) :
    addf Y (broadcastInDim ⟨2, ![a, b]⟩ ![0, 1] h2 β) (ix2 p q) = Y (ix2 p q) + β (ix2 (0 : Fin 1) q) := by
  show Y (ix2 p q) + broadcastInDim ⟨2, ![a, b]⟩ ![0, 1] h2 β (ix2 p q) = _
  rw [broadcastInDim_1b_ab_apply β h2 p q]

/-- The host's bias row added to a matrix and clamped at zero, at `(p, q)`. -/
theorem host_bias_clamp_apply (X : FVec Ideal ⟨2, ![a, b]⟩ .f32) (β : FVec Ideal ⟨2, ![1, b]⟩ .f32)
    (h2 : (⟨2, ![1, b]⟩ : Shape).BroadcastsInDim ⟨2, ![a, b]⟩ ![0, 1])
    (h0 : (⟨0, ![]⟩ : Shape).BroadcastsInDim ⟨2, ![a, b]⟩ ![]) (p : Fin a) (q : Fin b) :
    maximumf (addf X (broadcastInDim ⟨2, ![a, b]⟩ ![0, 1] h2 β))
        (broadcastInDim ⟨2, ![a, b]⟩ ![] h0 (constant (F := Ideal) ⟨0, ![]⟩ .f32 0x00000000#32)) (ix2 p q)
      = max (X (ix2 p q) + β (ix2 (0 : Fin 1) q)) (Ideal.ofBits .f32 0x00000000#32) := by
  show max (X (ix2 p q) + broadcastInDim ⟨2, ![a, b]⟩ ![0, 1] h2 β (ix2 p q))
      (broadcastInDim ⟨2, ![a, b]⟩ ![] h0 (constant (F := Ideal) ⟨0, ![]⟩ .f32 0x00000000#32) (ix2 p q)) = _
  rw [host_zero_apply h0 p q, broadcastInDim_1b_ab_apply β h2 p q]

/-- A `[b]` vector reshaped to the row `[1, b]` is the vector placed as that row. -/
theorem shapeCast_row_eq (v : (⟨1, ![b]⟩ : Shape).Idx → α) (hc : (⟨1, ![b]⟩ : Shape).ShapeCasts ⟨2, ![1, b]⟩)
    (h : (⟨1, ![b]⟩ : Shape).BroadcastsInDim ⟨2, ![1, b]⟩ ![1]) :
    shapeCast ⟨2, ![1, b]⟩ v hc = broadcastInDim ⟨2, ![1, b]⟩ ![1] h v := by
  funext j
  obtain ⟨u, q, rfl⟩ : ∃ (u : Fin 1) (q : Fin b), j = ix2 u q := ⟨j 0, j 1, eq_ix2 j⟩
  rw [broadcastInDim_b_1b_apply v h u q]
  exact shapeCast_a_1a_apply v hc u q

end Cert.LibBiasRow

end
-- ==== Proof.LibIndicator.lean ====
/-
  Truth values as the extended reals 0 and 1, and counting them.

  A one-bit word becomes a float either by widening it to 32 bits and converting the signed integer (the vector unit's
  spelling of `.astype(float32)`) or by converting it as an unsigned integer (the host's): both give 1 for the word 1 and 0
  for the word 0.  An ordered "greater than" against the zero word is 1 exactly when the value is positive.  And a finite
  sum of such 0/1 values is positive exactly when one of them is 1: every term is nonnegative, so a term equal to 1 is a
  lower bound of the sum, and if no term is 1 the sum is 0.  So "count the hits, ask whether the count is positive" is "ask
  whether there is a hit".
-/
import Idealize.ShloMosaic.PureOps.Ideal.Laws
import Idealize.ShloMosaic.Lib.ValueIdx

noncomputable section

namespace Cert.LibIndicator

open Idealize.ShloMosaic Idealize.ShloMosaic.ValueIdx

/-- A one-bit word is 0 or 1. -/
theorem bit_cases (x : BitVec 1) : x = 0#1 ∨ x = 1#1 := by
  by_cases h : x = 1#1
  · exact Or.inr h
  · exact Or.inl (eq_zero_of_ne_one h)

/-- Widened to 32 bits and converted as a signed integer, a one-bit word is 1 or 0. -/
theorem sitofp_extui_bit (x : BitVec 1) :
    FloatOps.sitofp (F := Ideal) .f32 (x.setWidth 32) = if x = 1#1 then (1 : EReal) else 0 := by
  rcases bit_cases x with rfl | rfl
  · show (((BitVec.setWidth 32 0#1).toInt : ℝ) : EReal) = _
    rw [if_neg (by decide), show (BitVec.setWidth 32 0#1).toInt = 0 from by decide]; simp
  · show (((BitVec.setWidth 32 1#1).toInt : ℝ) : EReal) = _
    rw [if_pos rfl, show (BitVec.setWidth 32 1#1).toInt = 1 from by decide]; simp

/-- Converted as an unsigned integer, a one-bit word is 1 or 0. -/
theorem uitofp_bit (x : BitVec 1) :
    FloatOps.uitofp (F := Ideal) .f32 x = if x = 1#1 then (1 : EReal) else 0 := by
  rcases bit_cases x with rfl | rfl
  · show (((0#1 : BitVec 1).toNat : ℝ) : EReal) = _
    rw [if_neg (by decide), show (0#1 : BitVec 1).toNat = 0 from by decide]; simp
  · show (((1#1 : BitVec 1).toNat : ℝ) : EReal) = _
    rw [if_pos rfl, show (1#1 : BitVec 1).toNat = 1 from by decide]; simp

/-- The ordered "greater than" of two extended reals is the word 1 iff the first is the greater. -/
theorem cmpf_ogt_eq_one (x y : EReal) : FloatOps.cmpf (F := Ideal) (φ := .f32) .ogt x y = 1#1 ↔ y < x := by
  show Ideal.cmp .ogt x y = 1#1 ↔ _
  unfold Ideal.cmp
  by_cases h : y < x
  · simp [h]
  · simp [h]

/-- A finite sum of 0/1 values is positive iff one of them is 1. -/
theorem sum_indicator_pos {ι : Type} [Fintype ι] (P : ι → Prop) [DecidablePred P] :
    (0 : EReal) < ∑ e : ι, (if P e then (1 : EReal) else 0) ↔ ∃ e, P e := by
  constructor
  · intro h
    by_contra hne
    have hz : ∑ e : ι, (if P e then (1 : EReal) else 0) = 0 :=
      Finset.sum_eq_zero fun e _ => if_neg fun he => hne ⟨e, he⟩
    rw [hz] at h
    exact lt_irrefl _ h
  · rintro ⟨e, he⟩
    have hle : (if P e then (1 : EReal) else 0) ≤ ∑ e' : ι, (if P e' then (1 : EReal) else 0) :=
      Finset.single_le_sum (f := fun e' => if P e' then (1 : EReal) else 0)
        (fun e' _ => by by_cases h : P e' <;> simp [h]) (Finset.mem_univ e)
    rw [if_pos he] at hle
    exact lt_of_lt_of_le zero_lt_one hle

/-- "The count of hits is positive", as a 0/1 value, is "there is a hit", as a 0/1 value. -/
theorem indicator_count_pos {ι : Type} [Fintype ι] (P : ι → Prop) [DecidablePred P] [Decidable (∃ e, P e)] :
    (if (0 : EReal) < ∑ e : ι, (if P e then (1 : EReal) else 0) then (1 : EReal) else 0)
      = if ∃ e, P e then (1 : EReal) else 0 := by
  by_cases h : ∃ e, P e
  · rw [if_pos h, if_pos ((sum_indicator_pos P).2 h)]
  · rw [if_neg h, if_neg fun h' => h ((sum_indicator_pos P).1 h')]

end Cert.LibIndicator

end
-- ==== Proof.RefSpec.lean ====
/-
  The reference program's result read entry by entry, down to the specification.

  The reference lists the edges (source, target, a validity bit) in 1049600 slots, the self loops last. Every stage is
  read at an entry on the extended reals, first over arbitrary extents and arbitrary operand arrays and only then at the
  program's own: the degree is a sum of the 0/1 edge weights over the slots whose target is the node; the normalisation
  is the guarded inverse square root of a positive real; a message is the source's transformed feature times the two
  normalisation weights times the edge weight; the aggregation is the sum of the messages over the slots whose target is
  the node, which regrouped by source node is the specification's sum over the edges and the self loop. The dense layers
  are sums over the feature coordinate with a bias row and a clamp at zero.
-/
import proofs.«180595_g20298015441659_fold_wed_m_942_9_alg».proof.Proof.RefStages
import proofs.«180595_g20298015441659_fold_wed_m_942_9_alg».proof.Proof.RefEdgeSum
import proofs.«180595_g20298015441659_fold_wed_m_942_9_alg».proof.Proof.Spec
import proofs.«180595_g20298015441659_fold_wed_m_942_9_alg».proof.Proof.GcnLaw
import proofs.«180595_g20298015441659_fold_wed_m_942_9_alg».proof.Proof.LibScatterEntries
import proofs.«180595_g20298015441659_fold_wed_m_942_9_alg».proof.Proof.LibScatterEdges
import proofs.«180595_g20298015441659_fold_wed_m_942_9_alg».proof.Proof.LibGcnAggregate
import proofs.«180595_g20298015441659_fold_wed_m_942_9_alg».proof.Proof.LibRowGather
import proofs.«180595_g20298015441659_fold_wed_m_942_9_alg».proof.Proof.LibRowMax
import proofs.«180595_g20298015441659_fold_wed_m_942_9_alg».proof.Proof.LibBiasRow
import proofs.«180595_g20298015441659_fold_wed_m_942_9_alg».proof.Proof.LibIndicator
import Idealize.ShloMosaic.PureOps.Ideal.Laws
import Idealize.ShloMosaic.Lib.ValueIdx
import Idealize.ShloMosaic.Lib.Pipeline.Value

noncomputable section

namespace Cert.ReferenceIdeal.Bridge

open Idealize.ShloMosaic Idealize.ShloMosaic.ValueIdx
open Cert.LibScatterEntries Cert.LibGcnAggregate Cert.Sgc.ScatterEdges Idealize.ShloMosaic.RowGather Cert.LibRowMax

/-! ## Every stage over arbitrary extents and operands -/

section Generic

variable {N C R : ℕ}

/-- The f32 word of 1.0 is the number one. -/
theorem ofBits_one_f32 : Ideal.ofBits .f32 0x3F800000#32 = 1 := by
  simp [Ideal.ofBits, Ideal.ieee]
  rw [← EReal.coe_mul]
  norm_num

/-- A scalar constant broadcast to any shape reads the constant's value everywhere. -/
theorem splat_apply {s : Shape} (hb : (⟨0, ![]⟩ : Shape).BroadcastsInDim s (![] : Fin 0 → Fin s.rank)) (b : BitVec 32) (i : s.Idx) :
    broadcastInDim s ![] hb (constant (F := Ideal) ⟨0, ![]⟩ .f32 b) i = Ideal.ofBits .f32 b :=
  broadcastInDim_apply _ hb _ i ix0 (fun ax => ax.elim0)

/-- A scalar word broadcast to any shape reads the word everywhere. -/
theorem splatI_apply {s : Shape} (hb : (⟨0, ![]⟩ : Shape).BroadcastsInDim s (![] : Fin 0 → Fin s.rank)) (b : BitVec 32) (i : s.Idx) :
    broadcastInDim s ![] hb (constantI ⟨0, ![]⟩ 32 b) i = b :=
  broadcastInDim_apply _ hb _ i ix0 (fun ax => ax.elim0)

/-- An accumulating scatter of single entries into zeros, read at node j: the sum of the updates over the slots whose
    target word reads j. -/
theorem scatterEntries_apply (wf : ScatterDims.WF ⟨1, ![N]⟩ ⟨2, ![R, 1]⟩ ⟨1, ![R]⟩ [] [0] [0] 1)
    (hb0 : (⟨0, ![]⟩ : Shape).BroadcastsInDim ⟨1, ![N]⟩ ![])
    (hbR : (⟨1, ![R]⟩ : Shape).BroadcastsInDim ⟨2, ![R, 1]⟩ ![0])
    (d : IVec ⟨1, ![R]⟩ 32) (u : FVec Ideal ⟨1, ![R]⟩ .f32) (j : Fin N) :
    Host.scatterAdd (F := Ideal) (entriesScatter N R wf)
        (broadcastInDim ⟨1, ![N]⟩ ![] hb0 (constant ⟨0, ![]⟩ .f32 0x00000000#32))
        (broadcastInDim ⟨2, ![R, 1]⟩ ![0] hbR d) u (ix1 j)
      = 0 + ∑ e ∈ Finset.univ.filter (fun e : Fin R => (d (ix1 e)).toInt = (j.val : ℤ)), u (ix1 e) := by
  have hz : (broadcastInDim ⟨1, ![N]⟩ ![] hb0 (constant (F := Ideal) ⟨0, ![]⟩ .f32 0x00000000#32))
      = fun _ => (0 : EReal) := funext fun _ => Ideal.ofBits_zero_f32
  rw [hz]
  show Ideal.hostScatterAdd (entriesScatter N R wf) (fun _ => 0) _ _ (ix1 j) = _
  refine (scatter_entries_entry wf _ u j).trans ?_
  refine congrArg (0 + ·) (Finset.sum_congr (Finset.filter_congr fun e _ => ?_) fun _ _ => rfl)
  rw [broadcastInDim_a_a1_apply d hbR e 0]

/-- An accumulating scatter of whole rows into zeros, read at (j, f): the sum of the updates' column f over the slots
    whose target word reads j. -/
theorem scatterRows_apply (wf : ScatterDims.WF ⟨2, ![N, C]⟩ ⟨2, ![R, 1]⟩ ⟨2, ![R, C]⟩ [1] [0] [0] 1)
    (hb0 : (⟨0, ![]⟩ : Shape).BroadcastsInDim ⟨2, ![N, C]⟩ ![])
    (hbR : (⟨1, ![R]⟩ : Shape).BroadcastsInDim ⟨2, ![R, 1]⟩ ![0])
    (d : IVec ⟨1, ![R]⟩ 32) (u : FVec Ideal ⟨2, ![R, C]⟩ .f32) (j : Fin N) (f : Fin C) :
    Host.scatterAdd (F := Ideal) (rowsScatter N C R wf)
        (broadcastInDim ⟨2, ![N, C]⟩ ![] hb0 (constant ⟨0, ![]⟩ .f32 0x00000000#32))
        (broadcastInDim ⟨2, ![R, 1]⟩ ![0] hbR d) u (ix2 j f)
      = 0 + ∑ e ∈ Finset.univ.filter (fun e : Fin R => (d (ix1 e)).toInt = (j.val : ℤ)), u (ix2 e f) := by
  have hz : (broadcastInDim ⟨2, ![N, C]⟩ ![] hb0 (constant (F := Ideal) ⟨0, ![]⟩ .f32 0x00000000#32))
      = fun _ => (0 : EReal) := funext fun _ => Ideal.ofBits_zero_f32
  rw [hz]
  show Ideal.hostScatterAdd (rowsScatter N C R wf) (fun _ => 0) _ _ (ix2 j f) = _
  refine (scatter_rows_entry wf _ u j f).trans ?_
  refine congrArg (0 + ·) (Finset.sum_congr (Finset.filter_congr fun e _ => ?_) fun _ _ => rfl)
  rw [broadcastInDim_a_a1_apply d hbR e 0]

/-- The guarded inverse square root where the degree is a positive real D: 1/√D. -/
theorem guarded_apply {s : Shape} (hb : (⟨0, ![]⟩ : Shape).BroadcastsInDim s (![] : Fin 0 → Fin s.rank))
    (dg : FVec Ideal s .f32) (i : s.Idx) (D : ℝ) (hD : 0 < D) (hdg : dg i = (D : EReal)) :
    select (cmpf .ogt dg (broadcastInDim s ![] hb (constant (F := Ideal) ⟨0, ![]⟩ .f32 0x00000000#32)))
        (Host.divf (broadcastInDim s ![] hb (constant (F := Ideal) ⟨0, ![]⟩ .f32 0x3F800000#32)) (Host.sqrt dg))
        (broadcastInDim s ![] hb (constant (F := Ideal) ⟨0, ![]⟩ .f32 0x00000000#32)) i
      = (((Real.sqrt D)⁻¹ : ℝ) : EReal) := by
  show Scalar.select (Ideal.cmp .ogt (dg i) (broadcastInDim s ![] hb (constant (F := Ideal) ⟨0, ![]⟩ .f32 0x00000000#32) i))
      (Ideal.div (broadcastInDim s ![] hb (constant (F := Ideal) ⟨0, ![]⟩ .f32 0x3F800000#32) i) (Ideal.sqrt (dg i)))
      (broadcastInDim s ![] hb (constant (F := Ideal) ⟨0, ![]⟩ .f32 0x00000000#32) i) = _
  rw [splat_apply hb, splat_apply hb, Ideal.ofBits_zero_f32, ofBits_one_f32, hdg]
  have hc : Ideal.cmp .ogt (D : EReal) 0 = 1#1 :=
    (Cert.LibIndicator.cmpf_ogt_eq_one (D : EReal) 0).2 (by exact_mod_cast hD)
  rw [hc, select_one]
  exact Cert.GcnLaw.one_div_sqrt_of_pos hD

/-- The node a wrapped index word names: 1024 added where negative, then read signed and clamped into [0, N − 1]. -/
def nodeAt (N : ℕ) (hN : 0 < N) (m : BitVec 32) (w : BitVec 32) : Fin N :=
  ⟨min (Scalar.select (IntOp.cmpi .slt w 0#32) (IntOp.addi w m) w).toInt.toNat (N - 1), by omega⟩

/-- The wrapped index column: the word with m added where negative, as a column of index vectors. -/
theorem wrap_apply (hb : (⟨0, ![]⟩ : Shape).BroadcastsInDim ⟨1, ![R]⟩ ![])
    (hbR : (⟨1, ![R]⟩ : Shape).BroadcastsInDim ⟨2, ![R, 1]⟩ ![0]) (m : BitVec 32) (x : IVec ⟨1, ![R]⟩ 32) (e : Fin R) :
    broadcastInDim ⟨2, ![R, 1]⟩ ![0] hbR
        (select (cmpi .slt x (broadcastInDim ⟨1, ![R]⟩ ![] hb (constantI ⟨0, ![]⟩ 32 0#32)))
          (addi x (broadcastInDim ⟨1, ![R]⟩ ![] hb (constantI ⟨0, ![]⟩ 32 m))) x) (ix2 e (0 : Fin 1))
      = Scalar.select (IntOp.cmpi .slt (x (ix1 e)) 0#32) (IntOp.addi (x (ix1 e)) m) (x (ix1 e)) := by
  rw [broadcastInDim_a_a1_apply _ hbR e 0]
  show Scalar.select (IntOp.cmpi .slt (x (ix1 e)) (broadcastInDim ⟨1, ![R]⟩ ![] hb (constantI ⟨0, ![]⟩ 32 0#32) (ix1 e)))
      (IntOp.addi (x (ix1 e)) (broadcastInDim ⟨1, ![R]⟩ ![] hb (constantI ⟨0, ![]⟩ 32 m) (ix1 e))) (x (ix1 e)) = _
  rw [splatI_apply hb, splatI_apply hb]

/-- A gather of single entries through a wrapped index column reads the array at the node the word names. -/
theorem gatherEntries_wrap (hN : 0 < N) (wfe : GatherDims.WF ⟨1, ![N]⟩ ⟨2, ![R, 1]⟩ ⟨1, ![R]⟩ [] [0] [] [0] [] 1 ![1])
    (hb : (⟨0, ![]⟩ : Shape).BroadcastsInDim ⟨1, ![R]⟩ ![])
    (hbR : (⟨1, ![R]⟩ : Shape).BroadcastsInDim ⟨2, ![R, 1]⟩ ![0]) (m : BitVec 32)
    (v : FVec Ideal ⟨1, ![N]⟩ .f32) (x : IVec ⟨1, ![R]⟩ 32) (e : Fin R) :
    Host.gather (entriesDims N R wfe) v
        (broadcastInDim ⟨2, ![R, 1]⟩ ![0] hbR
          (select (cmpi .slt x (broadcastInDim ⟨1, ![R]⟩ ![] hb (constantI ⟨0, ![]⟩ 32 0#32)))
            (addi x (broadcastInDim ⟨1, ![R]⟩ ![] hb (constantI ⟨0, ![]⟩ 32 m))) x)) (ix1 e)
      = v (ix1 (nodeAt N hN m (x (ix1 e)))) := by
  rw [gather_entries_apply hN wfe v _ e]
  refine congrArg v (congrArg ix1 (Fin.ext ?_))
  show min (_ : BitVec 32).toInt.toNat (N - 1) = min (_ : BitVec 32).toInt.toNat (N - 1)
  rw [wrap_apply hb hbR m x e]

/-- A gather of whole rows through a wrapped index column reads the matrix at the row the word names. -/
theorem gatherRows_wrap (hN : 0 < N) (wfg : GatherDims.WF ⟨2, ![N, C]⟩ ⟨2, ![R, 1]⟩ ⟨2, ![R, C]⟩ [1] [0] [] [0] [] 1 ![1, C])
    (hb : (⟨0, ![]⟩ : Shape).BroadcastsInDim ⟨1, ![R]⟩ ![])
    (hbR : (⟨1, ![R]⟩ : Shape).BroadcastsInDim ⟨2, ![R, 1]⟩ ![0]) (m : BitVec 32)
    (y : FVec Ideal ⟨2, ![N, C]⟩ .f32) (x : IVec ⟨1, ![R]⟩ 32) (e : Fin R) (f : Fin C) :
    Host.gather (rowsDims N C R wfg) y
        (broadcastInDim ⟨2, ![R, 1]⟩ ![0] hbR
          (select (cmpi .slt x (broadcastInDim ⟨1, ![R]⟩ ![] hb (constantI ⟨0, ![]⟩ 32 0#32)))
            (addi x (broadcastInDim ⟨1, ![R]⟩ ![] hb (constantI ⟨0, ![]⟩ 32 m))) x)) (ix2 e f)
      = y (ix2 (nodeAt N hN m (x (ix1 e))) f) := by
  rw [gather_rows_apply hN wfg y _ e f]
  refine congrArg y (congrArg (ix2 · f) (Fin.ext ?_))
  show min (_ : BitVec 32).toInt.toNat (N - 1) = min (_ : BitVec 32).toInt.toNat (N - 1)
  rw [wrap_apply hb hbR m x e]

/-- A message: the gathered row entry times the per-slot factor broadcast across the features. -/
theorem message_apply (hbR : (⟨1, ![R]⟩ : Shape).BroadcastsInDim ⟨2, ![R, 1]⟩ ![0])
    (hbRC : (⟨2, ![R, 1]⟩ : Shape).BroadcastsInDim ⟨2, ![R, C]⟩ ![0, 1])
    (G : FVec Ideal ⟨2, ![R, C]⟩ .f32) (n o : FVec Ideal ⟨1, ![R]⟩ .f32) (e : Fin R) (f : Fin C) :
    mulf G (broadcastInDim ⟨2, ![R, C]⟩ ![0, 1] hbRC (broadcastInDim ⟨2, ![R, 1]⟩ ![0] hbR (mulf n o))) (ix2 e f)
      = G (ix2 e f) * (n (ix1 e) * o (ix1 e)) := by
  show G (ix2 e f) * broadcastInDim ⟨2, ![R, C]⟩ ![0, 1] hbRC (broadcastInDim ⟨2, ![R, 1]⟩ ![0] hbR (mulf n o)) (ix2 e f) = _
  rw [column_apply (mulf n o) hbR hbRC e f]
  rfl

/-- A bias vector as rows, added to a matrix and clamped at zero, at (p, q). -/
theorem biasClamp_apply {a b : ℕ} (X : FVec Ideal ⟨2, ![a, b]⟩ .f32) (β : FVec Ideal ⟨1, ![b]⟩ .f32)
    (h1 : (⟨1, ![b]⟩ : Shape).BroadcastsInDim ⟨2, ![1, b]⟩ ![1])
    (h2 : (⟨2, ![1, b]⟩ : Shape).BroadcastsInDim ⟨2, ![a, b]⟩ ![0, 1])
    (h0 : (⟨0, ![]⟩ : Shape).BroadcastsInDim ⟨2, ![a, b]⟩ ![]) (p : Fin a) (q : Fin b) :
    maximumf (addf X (broadcastInDim ⟨2, ![a, b]⟩ ![0, 1] h2 (broadcastInDim ⟨2, ![1, b]⟩ ![1] h1 β)))
        (broadcastInDim ⟨2, ![a, b]⟩ ![] h0 (constant (F := Ideal) ⟨0, ![]⟩ .f32 0x00000000#32)) (ix2 p q)
      = max (X (ix2 p q) + β (ix1 q)) 0 := by
  rw [Cert.LibBiasRow.host_bias_clamp_apply X _ h2 h0 p q, broadcastInDim_b_1b_apply β h1 0 q, Ideal.ofBits_zero_f32]

/-- A bias vector as rows, added to a matrix, at (p, q). -/
theorem bias_apply {a b : ℕ} (Y : FVec Ideal ⟨2, ![a, b]⟩ .f32) (β : FVec Ideal ⟨1, ![b]⟩ .f32)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (q : Fin b) :
    addf Y (broadcastInDim ⟨2, ![a, b]⟩ ![0, 1] h2 (broadcastInDim ⟨2, ![1, b]⟩ ![1] h1 β)) (ix2 p q)
      = Y (ix2 p q) + β (ix1 q) := by
  rw [Cert.LibBiasRow.host_bias_apply Y _ h2 p q, broadcastInDim_b_1b_apply β h1 0 q]

end Generic

/-! ## The reference's stages at an entry -/

section Reference

open Cert.ReferenceIdeal Cert.ReferenceIdeal.RefValue
open Cert.Spec (edge degree weight feature aggregate)

variable [Cert.ReferenceIdeal.Facts]

/-- The printed records of the program are the general ones at its extents. -/
theorem dims_deg : scatter_S1024_S1049600x1_S1049600_n_0_0_1
    = entriesScatter 1024 1049600 Facts₀.scatter_S1024_S1049600x1_S1049600_n_0_0_1_wf := rfl
theorem dims_agg : scatter_S1024x128_S1049600x1_S1049600x128_1_0_0_1
    = rowsScatter 1024 128 1049600 Facts₀.scatter_S1024x128_S1049600x1_S1049600x128_1_0_0_1_wf := rfl
theorem dims_entries : gather_S1024_S1049600x1_S1049600_n_0_n_n_0_1_1
    = entriesDims 1024 1049600 Facts₀.gather_S1024_S1049600x1_S1049600_n_0_n_n_0_1_1_wf := rfl
theorem dims_rows : gather_S1024x128_S1049600x1_S1049600x128_1_0_n_n_0_1_1128
    = rowsDims 1024 128 1049600 Facts₀.gather_S1024x128_S1049600x1_S1049600x128_1_0_n_n_0_1_1128_wf := rfl
theorem dims_dot : dot_S1024x128_S128x128_S1024x128_1_0_0_1_n_n
    = plainDims 1024 128 128 Facts₀.dot_S1024x128_S128x128_S1024x128_1_0_0_1_n_n_wf := rfl

open Cert.ReferenceIdeal.EdgeSum (nodeOf)

/-- The node a wrapped index word names is the one the edge list's sums are stated over. -/
theorem nodeAt_eq (w : BitVec 32) : nodeAt 1024 (by decide) 1024#32 w = nodeOf w := rfl

variable (data : FVec Ideal S1024x128 .f32) (A : IVec S1024x1024 32) (convW : FVec Ideal S128x128 .f32)
  (convB : FVec Ideal S128 .f32) (fc1W : FVec Ideal S128x128 .f32) (fc1B : FVec Ideal S128 .f32)
  (fc2W : FVec Ideal S128x128 .f32) (fc2B : FVec Ideal S128 .f32)

attribute [local irreducible] Ideal.hostScatterAdd Host.scatterAdd Host.gather Host.scatter Host.reduceWindow Host.reduce concatenate broadcastInDim

/-- The edge weight of slot e: 1 on a valid slot, 0 otherwise. -/
theorem ones_entry (e : Fin 1049600) :
    ones (F := Ideal) A (ix1 e) = if validAll A (ix1 e) = 1#1 then (1 : EReal) else 0 :=
  Cert.LibIndicator.uitofp_bit _

/-- The degree of node j: the sum of the edge weights over the slots whose target is j. -/
theorem deg_eq_sum (j : Fin 1024) :
    deg (F := Ideal) A (ix1 j)
      = 0 + ∑ e ∈ Finset.univ.filter (fun e : Fin 1049600 => (dst A (ix1 e)).toInt = (j.val : ℤ)), ones (F := Ideal) A (ix1 e) := by
  unfold deg
  rw [dims_deg]
  exact scatterEntries_apply Facts₀.scatter_S1024_S1049600x1_S1049600_n_0_0_1_wf Facts₀.bcast_S_S1024
    Facts₀.bcast_S1049600_S1049600x1_0 (dst A) (ones (F := Ideal) A) j

/-- The guarded inverse square root at node j, given the degree there as a positive real. -/
theorem dinv_of_deg (j : Fin 1024) (D : ℝ) (hD : 0 < D) (hdeg : deg (F := Ideal) A (ix1 j) = (D : EReal)) :
    dinv (F := Ideal) A (ix1 j) = (((Real.sqrt D)⁻¹ : ℝ) : EReal) := by
  unfold dinv
  exact guarded_apply Facts₀.bcast_S_S1024 (deg (F := Ideal) A) (ix1 j) D hD hdeg

/-- The transformed features at (i, h): the sum over the input coordinate. -/
theorem xw_entry (i : Fin 1024) (h : Fin 128) :
    xw (F := Ideal) data convW (ix2 i h) = ∑ d : Fin 128, data (ix2 i d) * convW (ix2 d h) := by
  unfold xw
  rw [dims_dot]
  exact dotGeneral_plain_apply Facts₀.dot_S1024x128_S128x128_S1024x128_1_0_0_1_n_n_wf none _ data convW i h

/-- The edge normalisation of slot e: the weight of its source node times the weight of its target node. -/
theorem norm_entry (e : Fin 1049600) :
    RefValue.norm (F := Ideal) A (ix1 e)
      = dinv (F := Ideal) A (ix1 (nodeOf (src A (ix1 e)))) * dinv (F := Ideal) A (ix1 (nodeOf (dst A (ix1 e)))) := by
  unfold RefValue.norm wrapIdx splatN
  rw [dims_entries]
  refine (mulf_apply _ _ (ix1 e)).trans ?_
  exact congrArg₂ (· * ·)
    (gatherEntries_wrap (by decide) Facts₀.gather_S1024_S1049600x1_S1049600_n_0_n_n_0_1_1_wf Facts₀.bcast_S_S1049600
      Facts₀.bcast_S1049600_S1049600x1_0 1024#32 (dinv (F := Ideal) A) (src A) e)
    (gatherEntries_wrap (by decide) Facts₀.gather_S1024_S1049600x1_S1049600_n_0_n_n_0_1_1_wf Facts₀.bcast_S_S1049600
      Facts₀.bcast_S1049600_S1049600x1_0 1024#32 (dinv (F := Ideal) A) (dst A) e)

/-- The message of slot e at feature h. -/
theorem msgs_entry (e : Fin 1049600) (h : Fin 128) :
    msgs (F := Ideal) data A convW (ix2 e h)
      = xw (F := Ideal) data convW (ix2 (nodeOf (src A (ix1 e))) h) * (RefValue.norm (F := Ideal) A (ix1 e) * ones (F := Ideal) A (ix1 e)) := by
  unfold msgs wrapIdx splatN
  rw [dims_rows]
  refine (message_apply Facts₀.bcast_S1049600_S1049600x1_0 Facts₀.bcast_S1049600x1_S1049600x128_0_1 _
    (RefValue.norm (F := Ideal) A) (ones (F := Ideal) A) e h).trans ?_
  exact congrArg (· * (RefValue.norm (F := Ideal) A (ix1 e) * ones (F := Ideal) A (ix1 e)))
    (gatherRows_wrap (by decide) Facts₀.gather_S1024x128_S1049600x1_S1049600x128_1_0_n_n_0_1_1128_wf Facts₀.bcast_S_S1049600
      Facts₀.bcast_S1049600_S1049600x1_0 1024#32 (xw (F := Ideal) data convW) (src A) e h)

/-- The aggregation at (j, h): the sum of the messages over the slots whose target is j. -/
theorem agg_eq_sum (j : Fin 1024) (h : Fin 128) :
    agg (F := Ideal) data A convW (ix2 j h)
      = 0 + ∑ e ∈ Finset.univ.filter (fun e : Fin 1049600 => (dst A (ix1 e)).toInt = (j.val : ℤ)),
          msgs (F := Ideal) data A convW (ix2 e h) := by
  unfold agg
  rw [dims_agg]
  exact scatterRows_apply Facts₀.scatter_S1024x128_S1049600x1_S1049600x128_1_0_0_1_wf Facts₀.bcast_S_S1024x128
    Facts₀.bcast_S1049600_S1049600x1_0 (dst A) (msgs (F := Ideal) data A convW) j h

end Reference

/-! ## Down to the specification -/

section ToSpec

open Cert.ReferenceIdeal Cert.ReferenceIdeal.RefValue
open Cert.Spec (edge degree weight feature aggregate)
open Cert.ReferenceIdeal.EdgeSum (nodeOf edge_sum degree_sum)

attribute [local irreducible] Ideal.hostScatterAdd Host.scatterAdd Host.gather Host.scatter Host.reduceWindow Host.reduce concatenate broadcastInDim

variable [Cert.ReferenceIdeal.Facts]

variable (data : FVec Ideal S1024x128 .f32) (A : IVec S1024x1024 32) (convW : FVec Ideal S128x128 .f32)
  (convB : FVec Ideal S128 .f32) (fc1W : FVec Ideal S128x128 .f32) (fc1B : FVec Ideal S128 .f32)
  (fc2W : FVec Ideal S128x128 .f32) (fc2B : FVec Ideal S128 .f32)
  (hdata : ∀ i, ∃ r : ℝ, data i = (r : EReal)) (hconvW : ∀ i, ∃ r : ℝ, convW i = (r : EReal))

/-- The degree the reference computes is the specification's. -/
theorem deg_entry (j : Fin 1024) : deg (F := Ideal) A (ix1 j) = ((degree A j : ℝ) : EReal) := by
  have h1 : ∀ e : Fin 1049600, ones (F := Ideal) A (ix1 e)
      = (((if validAll A (ix1 e) = 1#1 then (1 : ℝ) else 0 : ℝ)) : EReal) :=
    fun e => (ones_entry A e).trans (Cert.GcnLaw.coe_indicator _)
  rw [deg_eq_sum A j, zero_add]
  simp only [h1]
  rw [← Cert.GcnLaw.coe_sum, degree_sum A j]
  rfl

/-- The normalisation weight the reference computes is the specification's. -/
theorem dinv_entry (j : Fin 1024) : dinv (F := Ideal) A (ix1 j) = ((weight A j : ℝ) : EReal) :=
  dinv_of_deg A j (degree A j) (Cert.Spec.degree_pos A j) (deg_entry A j)

include hdata hconvW in
/-- The transformed feature is the coercion of the real one. -/
theorem xw_real (i : Fin 1024) (h : Fin 128) :
    xw (F := Ideal) data convW (ix2 i h) = ((feature data convW i h : ℝ) : EReal) := by
  rw [xw_entry data convW i h]
  unfold feature
  rw [Cert.GcnLaw.coe_sum]
  refine Finset.sum_congr rfl fun d _ => ?_
  obtain ⟨a, ha⟩ := hdata (ix2 i d)
  obtain ⟨b, hb⟩ := hconvW (ix2 d h)
  rw [ha, hb, EReal.toReal_coe, EReal.toReal_coe, EReal.coe_mul]

include hdata hconvW in
/-- A message is the coercion of a real: zero on an invalid slot. -/
theorem msgs_real (e : Fin 1049600) (h : Fin 128) :
    msgs (F := Ideal) data A convW (ix2 e h)
      = (((if validAll A (ix1 e) = 1#1 then
            feature data convW (nodeOf (src A (ix1 e))) h * weight A (nodeOf (src A (ix1 e))) * weight A (nodeOf (dst A (ix1 e)))
          else 0 : ℝ)) : EReal) := by
  rw [msgs_entry data A convW e h, xw_real data convW hdata hconvW, norm_entry A e, dinv_entry A, dinv_entry A,
    ones_entry A e]
  by_cases hv : validAll A (ix1 e) = 1#1
  · rw [if_pos hv, if_pos hv, mul_one, ← EReal.coe_mul, ← EReal.coe_mul]
    exact congrArg _ (by ring)
  · rw [if_neg hv, if_neg hv, mul_zero, mul_zero, EReal.coe_zero]

include hdata hconvW in
/-- The aggregation the reference computes is the specification's. -/
theorem agg_entry (j : Fin 1024) (h : Fin 128) :
    agg (F := Ideal) data A convW (ix2 j h) = ((aggregate data A convW j h : ℝ) : EReal) := by
  have h1 := msgs_real data A convW hdata hconvW
  rw [agg_eq_sum data A convW j h, zero_add]
  simp only [h1]
  rw [← Cert.GcnLaw.coe_sum, edge_sum A j (fun i j' => feature data convW i h * weight A i * weight A j')]
  rfl

include hdata hconvW in
/-- THE REFERENCE'S CONVOLUTION LAYER AT AN ENTRY IS THE SPECIFICATION'S. -/
theorem layer1_eq_spec (j : Fin 1024) (h : Fin 128) :
    layer1 (F := Ideal) data A convW convB (ix2 j h) = Cert.Spec.layer1 data A convW convB j h := by
  unfold layer1 relu biasRows
  refine (biasClamp_apply (agg (F := Ideal) data A convW) convB Facts₀.bcast_S128_S1x128_1 Facts₀.bcast_S1x128_S1024x128_0_1
    Facts₀.bcast_S_S1024x128 j h).trans ?_
  rw [agg_entry data A convW hdata hconvW j h]
  rfl

include hdata hconvW in
/-- The first dense layer at an entry is the specification's. -/
theorem layer2_eq_spec (j : Fin 1024) (k : Fin 128) :
    layer2 (F := Ideal) data A convW convB fc1W fc1B (ix2 j k) = Cert.Spec.layer2 data A convW convB fc1W fc1B j k := by
  unfold layer2 relu biasRows
  refine (biasClamp_apply _ fc1B Facts₀.bcast_S128_S1x128_1 Facts₀.bcast_S1x128_S1024x128_0_1
    Facts₀.bcast_S_S1024x128 j k).trans ?_
  unfold Cert.Spec.layer2
  refine congrArg (fun t => max (t + fc1B (ix1 k)) 0) ?_
  rw [dims_dot]
  refine (dotGeneral_plain_apply Facts₀.dot_S1024x128_S128x128_S1024x128_1_0_0_1_n_n_wf none _
    (layer1 (F := Ideal) data A convW convB) fc1W j k).trans ?_
  exact Finset.sum_congr rfl fun h _ =>
    congrArg (· * fc1W (ix2 h k)) (layer1_eq_spec data A convW convB hdata hconvW j h)

include hdata hconvW in
/-- THE REFERENCE'S RESULT AT AN ENTRY IS THE SPECIFICATION'S. -/
theorem result_eq_spec (j : Fin 1024) (o : Fin 128) :
    out (F := Ideal) data A convW convB fc1W fc1B fc2W fc2B (ix2 j o)
      = Cert.Spec.result data A convW convB fc1W fc1B fc2W fc2B j o := by
  unfold out biasRows
  refine (bias_apply _ fc2B Facts₀.bcast_S128_S1x128_1 Facts₀.bcast_S1x128_S1024x128_0_1 j o).trans ?_
  unfold Cert.Spec.result
  refine congrArg (· + fc2B (ix1 o)) ?_
  rw [dims_dot]
  refine (dotGeneral_plain_apply Facts₀.dot_S1024x128_S128x128_S1024x128_1_0_0_1_n_n_wf none _
    (layer2 (F := Ideal) data A convW convB fc1W fc1B) fc2W j o).trans ?_
  exact Finset.sum_congr rfl fun k _ =>
    congrArg (· * fc2W (ix2 k o)) (layer2_eq_spec data A convW convB fc1W fc1B hdata hconvW j k)

end ToSpec

end Cert.ReferenceIdeal.Bridge

end
-- ==== Proof.lean ====
/-
  Two spellings of one network agree on the extended reals: a graph convolution with self loops and symmetric
  normalisation over 1024 nodes, followed by two dense layers.

  The kernel works with node-indexed columns and the adjacency matrix as a dense 0/1 factor: degrees are column sums
  plus one, the transformed features are scaled by the inverse square roots of the degrees, multiplied through the
  adjacency matrix (in a high and a low half whose low half vanishes on the extended reals), the node's own scaled
  feature is added and the total scaled again; then bias, clamp at zero, and two affine layers.  The reference builds
  the edge list of the nonzero entries (a running count, a histogram of the count, a second running count, and a
  division with remainder give the position of the k-th nonzero entry), appends the 1024 self loops, sums the edge
  weights into the degrees, gathers, scales each message by the two nodes' weights and sums the messages into their
  targets.  Slot k of the edge list holds the k-th nonzero entry, so a sum over the valid slots is a sum over the
  nonzero entries, and with real features the weight of the target factors out of the sum: both programs compute the
  one function stated in Spec.lean.  The kernel's spelling needs every adjacency entry to be 0 or 1 (it multiplies by
  the entries; the reference only tests them against zero) and both need real features (the weight is moved across a
  sum, padded slots contribute x · 0, and the low half is z − z).
-/
import proofs.«180595_g20298015441659_fold_wed_m_942_9_alg».proof.Defs
import proofs.«180595_g20298015441659_fold_wed_m_942_9_alg».proof.Proof.Gen.Kernel
import proofs.«180595_g20298015441659_fold_wed_m_942_9_alg».proof.Proof.Gen.Kernel.Skeleton
import proofs.«180595_g20298015441659_fold_wed_m_942_9_alg».proof.Proof.Gen.Kernel.Launch
import proofs.«180595_g20298015441659_fold_wed_m_942_9_alg».proof.Proof.Gen.Kernel.Points
import proofs.«180595_g20298015441659_fold_wed_m_942_9_alg».proof.Proof.Gen.Kernel.Frame
import proofs.«180595_g20298015441659_fold_wed_m_942_9_alg».proof.Proof.Gen.KernelIdeal
import proofs.«180595_g20298015441659_fold_wed_m_942_9_alg».proof.Proof.Gen.KernelIdeal.Skeleton
import proofs.«180595_g20298015441659_fold_wed_m_942_9_alg».proof.Proof.Gen.KernelIdeal.Launch
import proofs.«180595_g20298015441659_fold_wed_m_942_9_alg».proof.Proof.Gen.KernelIdeal.Points
import proofs.«180595_g20298015441659_fold_wed_m_942_9_alg».proof.Proof.Gen.KernelIdeal.Frame
import proofs.«180595_g20298015441659_fold_wed_m_942_9_alg».proof.Proof.Gen.KernelIdeal.Value
import proofs.«180595_g20298015441659_fold_wed_m_942_9_alg».proof.Proof.Gen.ReferenceIdeal
import proofs.«180595_g20298015441659_fold_wed_m_942_9_alg».proof.Proof.Gen.Pre_finite_inputs
import proofs.«180595_g20298015441659_fold_wed_m_942_9_alg».proof.Proof.KernelArray
import proofs.«180595_g20298015441659_fold_wed_m_942_9_alg».proof.Proof.KernelEntry
import proofs.«180595_g20298015441659_fold_wed_m_942_9_alg».proof.Proof.KernelSpec
import proofs.«180595_g20298015441659_fold_wed_m_942_9_alg».proof.Proof.PreDecode
import proofs.«180595_g20298015441659_fold_wed_m_942_9_alg».proof.Proof.RefRun
import proofs.«180595_g20298015441659_fold_wed_m_942_9_alg».proof.Proof.RefSpec
import Idealize.ShloMosaic.Adequacy
import Idealize.ShloMosaic.Init

noncomputable section

namespace Cert.Proof

open Idealize.ShloMosaic Idealize.SL.Sem Idealize.ShloMosaic.ValueIdx Idealize.ShloMosaic.TcCoe

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.RefValue.run (F := Ideal) m ρ)

/-- The one rewrite the idealization made: widening back a value just narrowed to bf16 is the identity on the
    extended reals, and the rounding through bf16 at the word level. -/
theorem preserves : Cert.preserves_Kernel_KernelIdeal :=
  IdealRules.truncf_extf.statement Cert.KernelIdeal.S128x1024 .f32 .bf16

/-- Both programs end with the result array at the spec's function of the arguments, entry by entry: the kernel by its
    dense spelling (under finite features and a 0/1 adjacency), the reference by its edge list (under finite features). -/
theorem algebraic : Cert.algebraic_KernelIdeal_ReferenceIdeal := by
  intro m ρ m' ρ' hpre hagree
  refine ⟨fun c => Cert.KernelIdeal.Whole.resultOf (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)),
    Cert.KernelIdeal.Whole.run (F := Ideal) m ρ, ?_⟩
  refine (θ_run Cert.ReferenceIdeal.defs _ _).mono (fun _ h c => ⟨(h c).1.trans ?_, (h c).2⟩)
    (Cert.ReferenceIdeal.RefValue.run (F := Ideal) m' ρ')
  obtain ⟨e0, e1, e2, e3, e4, e5, e6, e7⟩ := hagree c
  rw [e0, e1, e2, e3, e4, e5, e6, e7]
  obtain ⟨h0, h1, h2, -, -, -, -, -⟩ := Cert.Pre_finite_inputs.Decode.decode _ _ _ _ _ _ _ _ (hpre c)
  funext i
  obtain ⟨j, o, rfl⟩ : ∃ (j : Fin 1024) (o : Fin 128), i = ix2 j o := ⟨i 0, i 1, eq_ix2 i⟩
  rw [Cert.ReferenceIdeal.Bridge.result_eq_spec _ _ _ _ _ _ _ _ h0 h2 j o]
  exact ((Cert.KernelIdeal.Entry.entry _ _ _ _ _ _ _ _ j o).trans
    (Cert.KernelIdeal.Bridge.out_eq_spec _ _ _ _ _ _ _ _ h0 h2 h1 j o)).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
